-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S128 .f32) (main_arg16 : FVec F S128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg12 : FVec F S128 .f32) (main_arg13 : FVec F S128 .f32) (main_arg14 : FVec F S128 .f32) (main_arg15 : FVec F S128 .f32) (main_arg16 : FVec F S128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_v63 main_v67

def fn_part2 {F : FTy → Type} [FloatOps F] (main_arg8 : FVec F S128x2 .f32) (main_arg9 : FVec F S2 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S128x128 .f32) (main_arg7 : FVec F S128 .f32) (main_arg8 : FVec F S128x2 .f32) (main_arg9 : FVec F S2 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x2 .f32) (main_arg9 : FVec F S2 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S100000x2 : Shape := ⟨2, ![100000, 2]⟩
abbrev S800000x2 : Shape := ⟨2, ![800000, 2]⟩
abbrev S1x2 : Shape := ⟨2, ![1, 2]⟩

abbrev nBuf : Space → Nat
  | .hbm => 148
  | .vmem => 60
  | .smem => 0
  | _ => 0

abbrev hbmTy0_0 (i : Nat) : BufTy := match i % 128 with
  | 0 => ⟨S100000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x2, .f32⟩
  | 9 => ⟨S2, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S800000, .f32⟩
  | 24 => ⟨S_, .f32⟩
  | 25 => ⟨S100000, .f32⟩
  | 26 => ⟨S800000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S100000x1, .f32⟩
  | 33 => ⟨S100000x128, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x128, .f32⟩
  | 43 => ⟨S_, .f32⟩
  | 44 => ⟨S100000x128, .f32⟩
  | 45 => ⟨S800000x1, .i32⟩
  | 46 => ⟨S100000x128, .f32⟩
  | 47 => ⟨S1x128, .f32⟩
  | 48 => ⟨S100000x128, .f32⟩
  | 49 => ⟨S100000x128, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S_, .f32⟩
  | 60 => ⟨S100000x128, .f32⟩
  | 61 => ⟨S800000x1, .i32⟩
  | 62 => ⟨S100000x128, .f32⟩
  | 63 => ⟨S1x128, .f32⟩
  | 64 => ⟨S1x128, .f32⟩
  | 65 => ⟨S1x128, .f32⟩
  | 66 => ⟨S1x128, .f32⟩
  | 67 => ⟨S1x128, .f32⟩
  | 68 => ⟨S100000x128, .f32⟩
  | 69 => ⟨S100000x128, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S_, .f32⟩
  | 80 => ⟨S100000x128, .f32⟩
  | 81 => ⟨S800000x1, .i32⟩
  | 82 => ⟨S100000x128, .f32⟩
  | 83 => ⟨S1x128, .f32⟩
  | 84 => ⟨S1x128, .f32⟩
  | 85 => ⟨S1x128, .f32⟩
  | 86 => ⟨S1x128, .f32⟩
  | 87 => ⟨S1x128, .f32⟩
  | 88 => ⟨S100000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000, .f32⟩
  | 107 => ⟨S800000, .f32⟩
  | 108 => ⟨S100000, .f32⟩
  | 109 => ⟨S100000x2, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x2, .f32⟩
  | 119 => ⟨S800000x1, .f32⟩
  | 120 => ⟨S800000x2, .f32⟩
  | 121 => ⟨S800000x2, .f32⟩
  | 122 => ⟨S_, .f32⟩
  | 123 => ⟨S100000x2, .f32⟩
  | 124 => ⟨S800000x1, .i32⟩
  | 125 => ⟨S100000x2, .f32⟩
  | 126 => ⟨S100000x1, .f32⟩
  | 127 => ⟨S100000x2, .f32⟩
  | _ => ⟨S100000x128, .f32⟩

abbrev hbmTy0_1 (i : Nat) : BufTy := match i % 128 with
  | 0 => ⟨S100000x2, .f32⟩
  | 1 => ⟨S100000x2, .f32⟩
  | 2 => ⟨S1x2, .f32⟩
  | 3 => ⟨S100000x2, .f32⟩
  | 4 => ⟨S100000x2, .f32⟩
  | 5 => ⟨S_, .f32⟩
  | 6 => ⟨S100000, .f32⟩
  | 7 => ⟨S_, .f32⟩
  | 8 => ⟨S100000, .f32⟩
  | 9 => ⟨S100000, .f32⟩
  | 10 => ⟨S100000x1, .f32⟩
  | 11 => ⟨S100000x2, .f32⟩
  | 12 => ⟨S100000x2, .f32⟩
  | 13 => ⟨S100000x2, .f32⟩
  | 14 => ⟨S_, .f32⟩
  | 15 => ⟨S100000, .f32⟩
  | 16 => ⟨S100000x1, .f32⟩
  | 17 => ⟨S100000x1, .f32⟩
  | 18 => ⟨S100000x2, .f32⟩
  | 19 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x1, .f32⟩
  | .local _ .vmem, ⟨20, _⟩ => ⟨S5000x1, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x1, .f32⟩
  | .local _ .vmem, ⟨28, _⟩ => ⟨S5000x1, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S5000x1, .f32⟩
  | .local _ .vmem, ⟨42, _⟩ => ⟨S5000x1, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x1, .f32⟩
  | .local _ .vmem, ⟨50, _⟩ => ⟨S5000x1, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_4 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_7 : Ref sig .tc := ⟨.hbm, 70, rfl⟩
abbrev main_v43 : Ref sig .tc := ⟨.hbm, 71, rfl⟩
abbrev main_v44 : Ref sig .tc := ⟨.hbm, 72, rfl⟩
abbrev main_c_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_10 : Ref sig .tc := ⟨.hbm, 89, rfl⟩
abbrev main_v59 : Ref sig .tc := ⟨.hbm, 90, rfl⟩
abbrev main_v60 : Ref sig .tc := ⟨.hbm, 91, rfl⟩
abbrev main_c_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_12 : Ref sig .tc := ⟨.hbm, 98, rfl⟩
abbrev main_v66 : Ref sig .tc := ⟨.hbm, 99, rfl⟩
abbrev main_v67 : Ref sig .tc := ⟨.hbm, 100, rfl⟩
abbrev main_c_13 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_14 : Ref sig .tc := ⟨.hbm, 110, rfl⟩
abbrev main_v76 : Ref sig .tc := ⟨.hbm, 111, rfl⟩
abbrev main_v77 : Ref sig .tc := ⟨.hbm, 112, rfl⟩
abbrev main_c_15 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_16 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_call0_cst : Ref sig .tc := ⟨.hbm, 133, rfl⟩
abbrev main_call0_v0 : Ref sig .tc := ⟨.hbm, 134, rfl⟩
abbrev main_call0_cst_0 : Ref sig .tc := ⟨.hbm, 135, rfl⟩
abbrev main_call0_v1 : Ref sig .tc := ⟨.hbm, 136, rfl⟩
abbrev main_call0_v2 : Ref sig .tc := ⟨.hbm, 137, rfl⟩
abbrev main_call0_v3 : Ref sig .tc := ⟨.hbm, 138, rfl⟩
abbrev main_call0_v4 : Ref sig .tc := ⟨.hbm, 139, rfl⟩
abbrev main_call0_v5 : Ref sig .tc := ⟨.hbm, 140, rfl⟩
abbrev main_call0_v6 : Ref sig .tc := ⟨.hbm, 141, rfl⟩
abbrev main_call0_cst_1 : Ref sig .tc := ⟨.hbm, 142, rfl⟩
abbrev main_call0_v7 : Ref sig .tc := ⟨.hbm, 143, rfl⟩
abbrev main_call0_v8 : Ref sig .tc := ⟨.hbm, 144, rfl⟩
abbrev main_call0_v9 : Ref sig .tc := ⟨.hbm, 145, rfl⟩
abbrev main_call0_v10 : Ref sig .tc := ⟨.hbm, 146, rfl⟩
abbrev main_v96 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc3_stg9_0 : Ref sig .tc := ⟨.vmem, 36, rfl⟩
abbrev cc3_stg9_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg3_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg6_0 : Ref sig .tc := ⟨.vmem, 54, rfl⟩
abbrev cc5_stg7_0 : Ref sig .tc := ⟨.vmem, 55, rfl⟩
abbrev cc5_stg8_0 : Ref sig .tc := ⟨.vmem, 56, rfl⟩
abbrev cc5_stg8_1 : Ref sig .tc := ⟨.vmem, 57, rfl⟩
abbrev cc5_stg9_0 : Ref sig .tc := ⟨.vmem, 58, rfl⟩
abbrev cc5_stg9_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem8_1 : DmaSem sig := 35
abbrev cc3_sem9_0 : DmaSem sig := 36
abbrev cc3_sem9_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem2_1 : DmaSem sig := 42
abbrev cc4_sem3_0 : DmaSem sig := 43
abbrev cc4_sem3_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem2_1 : DmaSem sig := 50
abbrev cc5_sem3_0 : DmaSem sig := 51
abbrev cc5_sem4_0 : DmaSem sig := 52
abbrev cc5_sem5_0 : DmaSem sig := 53
abbrev cc5_sem6_0 : DmaSem sig := 54
abbrev cc5_sem7_0 : DmaSem sig := 55
abbrev cc5_sem8_0 : DmaSem sig := 56
abbrev cc5_sem8_1 : DmaSem sig := 57
abbrev cc5_sem9_0 : DmaSem sig := 58
abbrev cc5_sem9_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S5000x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 2 → Memref sig .tc .vmem S5000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S800000x1_S800000x2_0_1 : S800000x1.BroadcastsInDim S800000x2 (![0, 1] : Fin 2 → Fin S800000x2.rank)
  bcast_S_S100000x2 : S_.BroadcastsInDim S100000x2 (![] : Fin 0 → Fin S100000x2.rank)
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  scatter_S100000_S800000x1_S800000_n_0_0_1_wf : ScatterDims.WF S100000 S800000x1 S800000 [] [0] [0] 1
  dot_S5000x128_S128x128_S5000x128_1_0_0_1_n_n_wf : DotDims.WF S5000x128 S128x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  gather_S100000_S800000x1_S800000_n_0_n_n_0_1_1_wf : GatherDims.WF S100000 S800000x1 S800000 [] [0] [] [0] [] 1 ![1]
  dot_S100000x128_S128x2_S100000x2_1_0_0_1_n_n_wf : DotDims.WF S100000x128 S128x2 S100000x2 [1] [0] [0] [1] [] []
  gather_S100000x2_S800000x1_S800000x2_1_0_n_n_0_1_12_wf : GatherDims.WF S100000x2 S800000x1 S800000x2 [1] [0] [] [0] [] 1 ![1, 2]
  scatter_S100000x2_S800000x1_S800000x2_1_0_0_1_wf : ScatterDims.WF S100000x2 S800000x1 S800000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S100000x128.size a
  hwx3_8 : ∀ i : grid3.Coords, EltTy.bits .f32 = 32 ∨ (Rect.block (s := S100000x128) S5000x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S100000x128.size a
  hwx3_9 : ∀ i : grid3.Coords, EltTy.bits .f32 = 32 ∨ (Rect.block (s := S100000x128) S5000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x128.size a ≤ S100000x128.size a
  hwx5_8 : ∀ i : grid5.Coords, EltTy.bits .f32 = 32 ∨ (Rect.block (s := S100000x128) S5000x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x128.size a ≤ S100000x128.size a
  hwx5_9 : ∀ i : grid5.Coords, EltTy.bits .f32 = 32 ∨ (Rect.block (s := S100000x128) S5000x128.size (cc5_transform_9 i) (hinb5_9 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S800000x1_S800000x2_1_0_n_n_0_1_12 : GatherDims S100000x2 S800000x1 S800000x2 where
  offsetDims := [1]
  collapsedSliceDims := [0]
  operandBatchingDims := []
  startIndicesBatchingDims := []
  startIndexMap := [0]
  indexVectorDim := 1
  sliceSizes := ![1, 2]
  wf := gather_S100000x2_S800000x1_S800000x2_1_0_n_n_0_1_12_wf
def scatter_S100000x2_S800000x1_S800000x2_1_0_0_1 : ScatterDims S100000x2 S800000x1 S800000x2 where
  updateWindowDims := [1]
  insertedWindowDims := [0]
  scatterDimsToOperandDims := [0]
  indexVectorDim := 1
  wf := scatter_S100000x2_S800000x1_S800000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v25) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v38) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v39) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v40) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v24) S5000x128.size cc3_transform_8 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_v41) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v41) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v11) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v42) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v42) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v53) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v54) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v55) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v56) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v57) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v41) S5000x128.size cc5_transform_8 reads5_8 false false 2 stage5_8 sem5_8
    hrank5 hreads5_8 hinb5_8 nbuf5_8 (Memref.isWhole_whole _) hwx5_8 hstage5_8

abbrev win5_9 : Pipeline.Window sig grid5 :=
  Pipeline.Window.ofSpec (Memref.whole main_v58) S5000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S800000x128 : Shape := ⟨2, ![800000, 128]⟩
abbrev S100000x1 : Shape := ⟨2, ![100000, 1]⟩
abbrev S1x128 : Shape := ⟨2, ![1, 128]⟩
abbrev S100000x2 : Shape := ⟨2, ![100000, 2]⟩
abbrev S800000x2 : Shape := ⟨2, ![800000, 2]⟩
abbrev S1x2 : Shape := ⟨2, ![1, 2]⟩

abbrev nBuf : Space → Nat
  | .hbm => 202
  | .vmem => 0
  | .smem => 0
  | _ => 0

abbrev hbmTy0_0 (i : Nat) : BufTy := match i % 128 with
  | 0 => ⟨S100000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x2, .f32⟩
  | 9 => ⟨S2, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S800000, .f32⟩
  | 24 => ⟨S_, .f32⟩
  | 25 => ⟨S100000, .f32⟩
  | 26 => ⟨S800000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000, .f32⟩
  | 50 => ⟨S800000, .f32⟩
  | 51 => ⟨S100000, .f32⟩
  | 52 => ⟨S100000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S800000x1, .f32⟩
  | 63 => ⟨S800000x128, .f32⟩
  | 64 => ⟨S800000x128, .f32⟩
  | 65 => ⟨S_, .f32⟩
  | 66 => ⟨S100000x128, .f32⟩
  | 67 => ⟨S800000x1, .i32⟩
  | 68 => ⟨S100000x128, .f32⟩
  | 69 => ⟨S100000x1, .f32⟩
  | 70 => ⟨S100000x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x128, .f32⟩
  | 89 => ⟨S800000x1, .f32⟩
  | 90 => ⟨S800000x128, .f32⟩
  | 91 => ⟨S800000x128, .f32⟩
  | 92 => ⟨S_, .f32⟩
  | 93 => ⟨S100000x128, .f32⟩
  | 94 => ⟨S800000x1, .i32⟩
  | 95 => ⟨S100000x128, .f32⟩
  | 96 => ⟨S100000x1, .f32⟩
  | 97 => ⟨S100000x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S_, .f32⟩
  | 107 => ⟨S128, .f32⟩
  | 108 => ⟨S128, .f32⟩
  | 109 => ⟨S128, .f32⟩
  | 110 => ⟨S128, .f32⟩
  | 111 => ⟨S1x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S100000x128, .f32⟩
  | 121 => ⟨S100000x128, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S100000x128, .f32⟩

abbrev hbmTy0_1 (i : Nat) : BufTy := match i % 128 with
  | 0 => ⟨S800000, .i32⟩
  | 1 => ⟨S800000x1, .i32⟩
  | 2 => ⟨S800000x128, .f32⟩
  | 3 => ⟨S800000x1, .f32⟩
  | 4 => ⟨S800000x128, .f32⟩
  | 5 => ⟨S800000x128, .f32⟩
  | 6 => ⟨S_, .f32⟩
  | 7 => ⟨S100000x128, .f32⟩
  | 8 => ⟨S800000x1, .i32⟩
  | 9 => ⟨S100000x128, .f32⟩
  | 10 => ⟨S100000x1, .f32⟩
  | 11 => ⟨S100000x128, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S128, .f32⟩
  | 22 => ⟨S128, .f32⟩
  | 23 => ⟨S128, .f32⟩
  | 24 => ⟨S128, .f32⟩
  | 25 => ⟨S1x128, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S100000x128, .f32⟩
  | 35 => ⟨S100000x2, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x2, .f32⟩
  | 45 => ⟨S800000x1, .f32⟩
  | 46 => ⟨S800000x2, .f32⟩
  | 47 => ⟨S800000x2, .f32⟩
  | 48 => ⟨S_, .f32⟩
  | 49 => ⟨S100000x2, .f32⟩
  | 50 => ⟨S800000x1, .i32⟩
  | 51 => ⟨S100000x2, .f32⟩
  | 52 => ⟨S100000x1, .f32⟩
  | 53 => ⟨S100000x2, .f32⟩
  | 54 => ⟨S100000x2, .f32⟩
  | 55 => ⟨S100000x2, .f32⟩
  | 56 => ⟨S1x2, .f32⟩
  | 57 => ⟨S100000x2, .f32⟩
  | 58 => ⟨S100000x2, .f32⟩
  | 59 => ⟨S_, .f32⟩
  | 60 => ⟨S100000, .f32⟩
  | 61 => ⟨S_, .f32⟩
  | 62 => ⟨S100000, .f32⟩
  | 63 => ⟨S100000, .f32⟩
  | 64 => ⟨S100000x1, .f32⟩
  | 65 => ⟨S100000x2, .f32⟩
  | 66 => ⟨S100000x2, .f32⟩
  | 67 => ⟨S100000x2, .f32⟩
  | 68 => ⟨S_, .f32⟩
  | 69 => ⟨S100000, .f32⟩
  | 70 => ⟨S100000x1, .f32⟩
  | 71 => ⟨S100000x1, .f32⟩
  | 72 => ⟨S100000x2, .f32⟩
  | 73 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_v28 : Ref sig .tc := ⟨.hbm, 54, rfl⟩
abbrev main_v29 : Ref sig .tc := ⟨.hbm, 55, rfl⟩
abbrev main_c_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call0_cst : Ref sig .tc := ⟨.hbm, 76, rfl⟩
abbrev main_call0_v0 : Ref sig .tc := ⟨.hbm, 77, rfl⟩
abbrev main_v48 : Ref sig .tc := ⟨.hbm, 78, rfl⟩
abbrev main_v49 : Ref sig .tc := ⟨.hbm, 79, rfl⟩
abbrev main_c_8 : Ref sig .tc := ⟨.hbm, 80, rfl⟩
abbrev main_v50 : Ref sig .tc := ⟨.hbm, 81, rfl⟩
abbrev main_v51 : Ref sig .tc := ⟨.hbm, 82, rfl⟩
abbrev main_c_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_10 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_11 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call1_cst : Ref sig .tc := ⟨.hbm, 117, rfl⟩
abbrev main_call1_v0 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_c_12 : Ref sig .tc := ⟨.hbm, 122, rfl⟩
abbrev main_v86 : Ref sig .tc := ⟨.hbm, 123, rfl⟩
abbrev main_v87 : Ref sig .tc := ⟨.hbm, 124, rfl⟩
abbrev main_c_13 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_14 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_15 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_call2_cst : Ref sig .tc := ⟨.hbm, 159, rfl⟩
abbrev main_call2_v0 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_c_16 : Ref sig .tc := ⟨.hbm, 164, rfl⟩
abbrev main_v122 : Ref sig .tc := ⟨.hbm, 165, rfl⟩
abbrev main_v123 : Ref sig .tc := ⟨.hbm, 166, rfl⟩
abbrev main_c_17 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_18 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_call3_cst : Ref sig .tc := ⟨.hbm, 187, rfl⟩
abbrev main_call3_v0 : Ref sig .tc := ⟨.hbm, 188, rfl⟩
abbrev main_call3_cst_0 : Ref sig .tc := ⟨.hbm, 189, rfl⟩
abbrev main_call3_v1 : Ref sig .tc := ⟨.hbm, 190, rfl⟩
abbrev main_call3_v2 : Ref sig .tc := ⟨.hbm, 191, rfl⟩
abbrev main_call3_v3 : Ref sig .tc := ⟨.hbm, 192, rfl⟩
abbrev main_call3_v4 : Ref sig .tc := ⟨.hbm, 193, rfl⟩
abbrev main_call3_v5 : Ref sig .tc := ⟨.hbm, 194, rfl⟩
abbrev main_call3_v6 : Ref sig .tc := ⟨.hbm, 195, rfl⟩
abbrev main_call3_cst_1 : Ref sig .tc := ⟨.hbm, 196, rfl⟩
abbrev main_call3_v7 : Ref sig .tc := ⟨.hbm, 197, rfl⟩
abbrev main_call3_v8 : Ref sig .tc := ⟨.hbm, 198, rfl⟩
abbrev main_call3_v9 : Ref sig .tc := ⟨.hbm, 199, rfl⟩
abbrev main_call3_v10 : Ref sig .tc := ⟨.hbm, 200, rfl⟩
abbrev main_v142 : Ref sig .tc := ⟨.hbm, 201, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S800000x1_S800000x2_0_1 : S800000x1.BroadcastsInDim S800000x2 (![0, 1] : Fin 2 → Fin S800000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S100000x128_S128x128_S100000x128_1_0_0_1_n_n_wf : DotDims.WF S100000x128 S128x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x2_S100000x2_1_0_0_1_n_n_wf : DotDims.WF S100000x128 S128x2 S100000x2 [1] [0] [0] [1] [] []
  gather_S100000x2_S800000x1_S800000x2_1_0_n_n_0_1_12_wf : GatherDims.WF S100000x2 S800000x1 S800000x2 [1] [0] [] [0] [] 1 ![1, 2]
  scatter_S100000x2_S800000x1_S800000x2_1_0_0_1_wf : ScatterDims.WF S100000x2 S800000x1 S800000x2 [1] [0] [0] 1

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S800000x1_S800000x2_1_0_n_n_0_1_12 : GatherDims S100000x2 S800000x1 S800000x2 where
  offsetDims := [1]
  collapsedSliceDims := [0]
  operandBatchingDims := []
  startIndicesBatchingDims := []
  startIndexMap := [0]
  indexVectorDim := 1
  sliceSizes := ![1, 2]
  wf := gather_S100000x2_S800000x1_S800000x2_1_0_n_n_0_1_12_wf
def scatter_S100000x2_S800000x1_S800000x2_1_0_0_1 : ScatterDims S100000x2 S800000x1 S800000x2 where
  updateWindowDims := [1]
  insertedWindowDims := [0]
  scatterDimsToOperandDims := [0]
  indexVectorDim := 1
  wf := scatter_S100000x2_S800000x1_S800000x2_1_0_0_1_wf

class Facts : Prop extends Facts₀ where

variable [Facts]
-- ==== Proof.KernelRun.lean ====
/-
  The idealized kernel program's run, with every buffer named at the return.

  The program is six kernel launches among stretches of host operations. Its generated frame follows the contents of
  every buffer from the launch to the return as a fold `W0 … W12` (a stretch of host operations applies them in order;
  a kernel launch replaces its arrays by what its write-backs leave). The frame itself keeps only "the arguments end as
  launched"; here the same run is stated with its whole final memory: every unscoped buffer of every core ends at the
  last stage `W12` of the fold. The result array's value is then a computation on the fold.
-/
import proofs.«145619_j27719718928688_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state every unscoped
    buffer of every core holds the last stage of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The same run read at one TensorCore buffer that no scope owns. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W12 m ρ c (Proc.devRef .tc b)) :=
  (θ_run defs _ _).mono (fun r h c => h c _ (mem_uc b hb)) (run_all m ρ)

end Cert.KernelIdeal.Whole

end
-- ==== Proof.KFoldKeep.lean ====
/-
  The buffers that cross the whole program unchanged.

  The eighteen arguments are written by nothing. The source column, the target column, `dis` and `dis` as a column are
  written once, by the first stretch of host operations, and only read afterwards. A kernel launch meets such a buffer
  either not at all or as the array of an input window, which its write-backs leave as found; a later stretch of host
  operations writes other buffers only. So at every later boundary of the program's fold each of them holds what it held
  after the first stretch.
-/
import proofs.«145619_j27719718928688_2_alg».proof.Proof.Gen.KernelIdeal.Frame

set_option maxRecDepth 16384

noncomputable section

namespace Cert.KernelIdeal.Fold

open Cert.KernelIdeal Cert.KernelIdeal.Gen
open Idealize.ShloMosaic Idealize.ShloMosaic.TcCoe Idealize.SL.Sem
open Idealize.ShloMosaic.Pipeline (Dat)

variable {F : FTy → Type} [FloatOps F]

/-- The carried buffers: the arguments, then the source column, the target column, `dis`, and `dis` as a column. -/
def keepRef : Fin 22 → Ref sig .tc
  | ⟨0, _⟩ => main_arg0 | ⟨1, _⟩ => main_arg1 | ⟨2, _⟩ => main_arg2 | ⟨3, _⟩ => main_arg3 | ⟨4, _⟩ => main_arg4
  | ⟨5, _⟩ => main_arg5 | ⟨6, _⟩ => main_arg6 | ⟨7, _⟩ => main_arg7 | ⟨8, _⟩ => main_arg8 | ⟨9, _⟩ => main_arg9
  | ⟨10, _⟩ => main_arg10 | ⟨11, _⟩ => main_arg11 | ⟨12, _⟩ => main_arg12 | ⟨13, _⟩ => main_arg13 | ⟨14, _⟩ => main_arg14
  | ⟨15, _⟩ => main_arg15 | ⟨16, _⟩ => main_arg16 | ⟨17, _⟩ => main_arg17
  | ⟨18, _⟩ => main_v1 | ⟨19, _⟩ => main_v3 | ⟨20, _⟩ => main_v10 | ⟨21, _⟩ => main_v11
  | ⟨n + 22, h⟩ => absurd h (by omega)

/-- The arguments among the carried buffers. -/
abbrev argRef (j : Fin 18) : Ref sig .tc := keepRef (j.castLE (by decide))

/-- No operation of `hostOps0` writes a carried buffer. -/
theorem keep_h0 (W : Valuation τ sig (Elt F)) (j : Fin 18) :
    StableHlo.after (hostOps0 : List (HloOp τ sig (Elt F))) W (Proc.devRef .tc (argRef j)) = W (Proc.devRef .tc (argRef j)) :=
  StableHlo.after_of_forall_not_mem (b := Proc.devRef .tc (argRef j)) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by revert j; decide)))

/-- No operation of `hostOps1` writes a carried buffer. -/
theorem keep_h1 (W : Valuation τ sig (Elt F)) (j : Fin 22) :
    StableHlo.after (hostOps1 : List (HloOp τ sig (Elt F))) W (Proc.devRef .tc (keepRef j)) = W (Proc.devRef .tc (keepRef j)) :=
  StableHlo.after_of_forall_not_mem (b := Proc.devRef .tc (keepRef j)) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by revert j; decide)))

/-- No operation of `hostOps3` writes a carried buffer. -/
theorem keep_h3 (W : Valuation τ sig (Elt F)) (j : Fin 22) :
    StableHlo.after (hostOps3 : List (HloOp τ sig (Elt F))) W (Proc.devRef .tc (keepRef j)) = W (Proc.devRef .tc (keepRef j)) :=
  StableHlo.after_of_forall_not_mem (b := Proc.devRef .tc (keepRef j)) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by revert j; decide)))

/-- No operation of `hostOps5` writes a carried buffer. -/
theorem keep_h5 (W : Valuation τ sig (Elt F)) (j : Fin 22) :
    StableHlo.after (hostOps5 : List (HloOp τ sig (Elt F))) W (Proc.devRef .tc (keepRef j)) = W (Proc.devRef .tc (keepRef j)) :=
  StableHlo.after_of_forall_not_mem (b := Proc.devRef .tc (keepRef j)) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by revert j; decide)))

variable (m : (ℓ : Loc nD τ sig) → Buf (Elt F) ℓ) (ρ : Dev nD → PrngReg) (c : Dev nD)

/-- Launch 0 leaves every carried buffer as it found it: an array it does not touch, or the array of one of its
    input windows. -/
theorem keep_r0 (j : Fin 22) :
    W2 m ρ c (Proc.devRef .tc (keepRef j)) = W1 m ρ c (Proc.devRef .tc (keepRef j)) := by
  fin_cases j <;> first
    | exact W2_of_ne m ρ c _ (by decide)
    | exact (W2_arr m ρ c 0).trans (((dat0 (V1 m ρ) c).arrAt_in 0 rfl _).trans (A_eq0 (V1 m ρ) c 0))
    | exact (W2_arr m ρ c 1).trans (((dat0 (V1 m ρ) c).arrAt_in 1 rfl _).trans (A_eq0 (V1 m ρ) c 1))
    | exact (W2_arr m ρ c 2).trans (((dat0 (V1 m ρ) c).arrAt_in 2 rfl _).trans (A_eq0 (V1 m ρ) c 2))

/-- Launch 1 leaves every carried buffer as it found it: an array it does not touch, or the array of one of its
    input windows. -/
theorem keep_r1 (j : Fin 22) :
    W4 m ρ c (Proc.devRef .tc (keepRef j)) = W3 m ρ c (Proc.devRef .tc (keepRef j)) := by
  fin_cases j <;> first
    | exact W4_of_ne m ρ c _ (by decide)
    | exact (W4_arr m ρ c 0).trans (((dat1 (V3 m ρ) c).arrAt_in 0 rfl _).trans (A_eq1 (V3 m ρ) c 0))
    | exact (W4_arr m ρ c 1).trans (((dat1 (V3 m ρ) c).arrAt_in 1 rfl _).trans (A_eq1 (V3 m ρ) c 1))
    | exact (W4_arr m ρ c 2).trans (((dat1 (V3 m ρ) c).arrAt_in 2 rfl _).trans (A_eq1 (V3 m ρ) c 2))
    | exact (W4_arr m ρ c 3).trans (((dat1 (V3 m ρ) c).arrAt_in 3 rfl _).trans (A_eq1 (V3 m ρ) c 3))

/-- Launch 2 leaves every carried buffer as it found it: an array it does not touch, or the array of one of its
    input windows. -/
theorem keep_r2 (j : Fin 22) :
    W5 m ρ c (Proc.devRef .tc (keepRef j)) = W4 m ρ c (Proc.devRef .tc (keepRef j)) := by
  fin_cases j <;> first
    | exact W5_of_ne m ρ c _ (by decide)
    | exact (W5_arr m ρ c 0).trans (((dat2 (V4 m ρ) c).arrAt_in 0 rfl _).trans (A_eq2 (V4 m ρ) c 0))
    | exact (W5_arr m ρ c 1).trans (((dat2 (V4 m ρ) c).arrAt_in 1 rfl _).trans (A_eq2 (V4 m ρ) c 1))
    | exact (W5_arr m ρ c 2).trans (((dat2 (V4 m ρ) c).arrAt_in 2 rfl _).trans (A_eq2 (V4 m ρ) c 2))

/-- Launch 3 leaves every carried buffer as it found it: an array it does not touch, or the array of one of its
    input windows. -/
theorem keep_r3 (j : Fin 22) :
    W7 m ρ c (Proc.devRef .tc (keepRef j)) = W6 m ρ c (Proc.devRef .tc (keepRef j)) := by
  fin_cases j <;> first
    | exact W7_of_ne m ρ c _ (by decide)
    | exact (W7_arr m ρ c 0).trans (((dat3 (V6 m ρ) c).arrAt_in 0 rfl _).trans (A_eq3 (V6 m ρ) c 0))
    | exact (W7_arr m ρ c 1).trans (((dat3 (V6 m ρ) c).arrAt_in 1 rfl _).trans (A_eq3 (V6 m ρ) c 1))
    | exact (W7_arr m ρ c 2).trans (((dat3 (V6 m ρ) c).arrAt_in 2 rfl _).trans (A_eq3 (V6 m ρ) c 2))
    | exact (W7_arr m ρ c 3).trans (((dat3 (V6 m ρ) c).arrAt_in 3 rfl _).trans (A_eq3 (V6 m ρ) c 3))
    | exact (W7_arr m ρ c 4).trans (((dat3 (V6 m ρ) c).arrAt_in 4 rfl _).trans (A_eq3 (V6 m ρ) c 4))
    | exact (W7_arr m ρ c 5).trans (((dat3 (V6 m ρ) c).arrAt_in 5 rfl _).trans (A_eq3 (V6 m ρ) c 5))
    | exact (W7_arr m ρ c 6).trans (((dat3 (V6 m ρ) c).arrAt_in 6 rfl _).trans (A_eq3 (V6 m ρ) c 6))
    | exact (W7_arr m ρ c 7).trans (((dat3 (V6 m ρ) c).arrAt_in 7 rfl _).trans (A_eq3 (V6 m ρ) c 7))
    | exact (W7_arr m ρ c 8).trans (((dat3 (V6 m ρ) c).arrAt_in 8 rfl _).trans (A_eq3 (V6 m ρ) c 8))

/-- Launch 4 leaves every carried buffer as it found it: an array it does not touch, or the array of one of its
    input windows. -/
theorem keep_r4 (j : Fin 22) :
    W8 m ρ c (Proc.devRef .tc (keepRef j)) = W7 m ρ c (Proc.devRef .tc (keepRef j)) := by
  fin_cases j <;> first
    | exact W8_of_ne m ρ c _ (by decide)
    | exact (W8_arr m ρ c 0).trans (((dat4 (V7 m ρ) c).arrAt_in 0 rfl _).trans (A_eq4 (V7 m ρ) c 0))
    | exact (W8_arr m ρ c 1).trans (((dat4 (V7 m ρ) c).arrAt_in 1 rfl _).trans (A_eq4 (V7 m ρ) c 1))
    | exact (W8_arr m ρ c 2).trans (((dat4 (V7 m ρ) c).arrAt_in 2 rfl _).trans (A_eq4 (V7 m ρ) c 2))

/-- Launch 5 leaves every carried buffer as it found it: an array it does not touch, or the array of one of its
    input windows. -/
theorem keep_r5 (j : Fin 22) :
    W10 m ρ c (Proc.devRef .tc (keepRef j)) = W9 m ρ c (Proc.devRef .tc (keepRef j)) := by
  fin_cases j <;> first
    | exact W10_of_ne m ρ c _ (by decide)
    | exact (W10_arr m ρ c 0).trans (((dat5 (V9 m ρ) c).arrAt_in 0 rfl _).trans (A_eq5 (V9 m ρ) c 0))
    | exact (W10_arr m ρ c 1).trans (((dat5 (V9 m ρ) c).arrAt_in 1 rfl _).trans (A_eq5 (V9 m ρ) c 1))
    | exact (W10_arr m ρ c 2).trans (((dat5 (V9 m ρ) c).arrAt_in 2 rfl _).trans (A_eq5 (V9 m ρ) c 2))
    | exact (W10_arr m ρ c 3).trans (((dat5 (V9 m ρ) c).arrAt_in 3 rfl _).trans (A_eq5 (V9 m ρ) c 3))
    | exact (W10_arr m ρ c 4).trans (((dat5 (V9 m ρ) c).arrAt_in 4 rfl _).trans (A_eq5 (V9 m ρ) c 4))
    | exact (W10_arr m ρ c 5).trans (((dat5 (V9 m ρ) c).arrAt_in 5 rfl _).trans (A_eq5 (V9 m ρ) c 5))
    | exact (W10_arr m ρ c 6).trans (((dat5 (V9 m ρ) c).arrAt_in 6 rfl _).trans (A_eq5 (V9 m ρ) c 6))
    | exact (W10_arr m ρ c 7).trans (((dat5 (V9 m ρ) c).arrAt_in 7 rfl _).trans (A_eq5 (V9 m ρ) c 7))
    | exact (W10_arr m ρ c 8).trans (((dat5 (V9 m ρ) c).arrAt_in 8 rfl _).trans (A_eq5 (V9 m ρ) c 8))

/-- An argument after the first stretch of host operations is the launch contents. -/
theorem arg_W1 (j : Fin 18) : W1 m ρ c (Proc.devRef .tc (argRef j)) = m ((c : Thread nD τ).loc (argRef j)) :=
  keep_h0 (W0 m ρ c) j

/-- A carried buffer at every later boundary is what it was after the first stretch. -/
theorem keep_W2 (j : Fin 22) : W2 m ρ c (Proc.devRef .tc (keepRef j)) = W1 m ρ c (Proc.devRef .tc (keepRef j)) := keep_r0 m ρ c j
theorem keep_W3 (j : Fin 22) : W3 m ρ c (Proc.devRef .tc (keepRef j)) = W1 m ρ c (Proc.devRef .tc (keepRef j)) :=
  (keep_h1 (W2 m ρ c) j).trans (keep_W2 m ρ c j)
theorem keep_W4 (j : Fin 22) : W4 m ρ c (Proc.devRef .tc (keepRef j)) = W1 m ρ c (Proc.devRef .tc (keepRef j)) :=
  (keep_r1 m ρ c j).trans (keep_W3 m ρ c j)
theorem keep_W5 (j : Fin 22) : W5 m ρ c (Proc.devRef .tc (keepRef j)) = W1 m ρ c (Proc.devRef .tc (keepRef j)) :=
  (keep_r2 m ρ c j).trans (keep_W4 m ρ c j)
theorem keep_W6 (j : Fin 22) : W6 m ρ c (Proc.devRef .tc (keepRef j)) = W1 m ρ c (Proc.devRef .tc (keepRef j)) :=
  (keep_h3 (W5 m ρ c) j).trans (keep_W5 m ρ c j)
theorem keep_W7 (j : Fin 22) : W7 m ρ c (Proc.devRef .tc (keepRef j)) = W1 m ρ c (Proc.devRef .tc (keepRef j)) :=
  (keep_r3 m ρ c j).trans (keep_W6 m ρ c j)
theorem keep_W8 (j : Fin 22) : W8 m ρ c (Proc.devRef .tc (keepRef j)) = W1 m ρ c (Proc.devRef .tc (keepRef j)) :=
  (keep_r4 m ρ c j).trans (keep_W7 m ρ c j)
theorem keep_W9 (j : Fin 22) : W9 m ρ c (Proc.devRef .tc (keepRef j)) = W1 m ρ c (Proc.devRef .tc (keepRef j)) :=
  (keep_h5 (W8 m ρ c) j).trans (keep_W8 m ρ c j)
theorem keep_W10 (j : Fin 22) : W10 m ρ c (Proc.devRef .tc (keepRef j)) = W1 m ρ c (Proc.devRef .tc (keepRef j)) :=
  (keep_r5 m ρ c j).trans (keep_W9 m ρ c j)

end Cert.KernelIdeal.Fold

end
-- ==== Proof.RefLayers.lean ====
/-
  The reference network, layer by layer, as functions of a layer's INPUT.

  The reference computes, for node features `h`, weights `W` and bias `b`,
  `conv h = A_norm · (h W) + (h W) ⊙ (dis · dis) + b`: the edge sum of the gathered rows of `h W`, each multiplied by
  its edge's `dis[src] · dis[dst]`, plus the self-loop term and the bias. The first layer rectifies `conv x`; the two
  middle layers normalise `conv h` per column with the running statistics, rectify and add `h`; the last layer is
  `conv` into two columns followed by the logarithm of the softmax over them. Everything that depends only on the edge
  list (the source and target columns, the per-edge and per-node scales, the zero arrays) is the program's own stage;
  only the layer's input, weights and bias vary. The program's stages are these functions, by unfolding.
-/
import proofs.«145619_j27719718928688_2_alg».proof.Proof.RefRead

noncomputable section

namespace Cert.ReferenceIdeal.Layers

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- The product `h W`. -/
def hw (h : (⟨S100000x128, .f32⟩ : BufTy).Contents (Elt F)) (W : (⟨S128x128, .f32⟩ : BufTy).Contents (Elt F)) : (⟨S100000x128, .f32⟩ : BufTy).Contents (Elt F) :=
  Host.dotGeneral dot_S100000x128_S128x128_S100000x128_1_0_0_1_n_n none h W

/-- A layer before its activation: the edge sum of the gathered, edge-scaled rows of `h W`, plus `h W` scaled by
    `dis · dis`, plus the bias. -/
def conv (x1 : (⟨S2x800000, .i32⟩ : BufTy).Contents (Elt F)) (h : (⟨S100000x128, .f32⟩ : BufTy).Contents (Elt F)) (W : (⟨S128x128, .f32⟩ : BufTy).Contents (Elt F))
    (b : (⟨S128, .f32⟩ : BufTy).Contents (Elt F)) : (⟨S100000x128, .f32⟩ : BufTy).Contents (Elt F) :=
  addf (addf
      (Host.scatterAdd scatter_S100000x128_S800000x1_S800000x128_1_0_0_1 (val_main_v38 (F := F)) (val_main_v39 (F := F) x1)
        (mulf (Host.gather gather_S100000x128_S800000x1_S800000x128_1_0_n_n_0_1_1128 (hw h W) (val_main_v33 (F := F) x1))
          (val_main_v36 (F := F) x1)))
      (mulf (hw h W) (val_main_v42 (F := F) x1)))
    (val_main_v46 (F := F) b)

/-- The rectifier. -/
def relu (y : (⟨S100000x128, .f32⟩ : BufTy).Contents (Elt F)) : (⟨S100000x128, .f32⟩ : BufTy).Contents (Elt F) :=
  maximumf y (val_main_call0_v0 (F := F))

/-- A middle layer's activation: per column `(· - mean) · (γ · rsqrt (var + 1e-5)) + β`, rectified, plus the layer's
    input. -/
def bnAct (pre : (⟨S100000x128, .f32⟩ : BufTy).Contents (Elt F)) (g beta mean var : (⟨S128, .f32⟩ : BufTy).Contents (Elt F)) (hprev : (⟨S100000x128, .f32⟩ : BufTy).Contents (Elt F)) :
    (⟨S100000x128, .f32⟩ : BufTy).Contents (Elt F) :=
  addf (maximumf (addf (mulf (subf pre (val_main_v71 (F := F) mean)) (val_main_v78 (F := F) g var)) (val_main_v81 (F := F) beta))
      (val_main_call1_v0 (F := F))) hprev

/-- The logarithm of the softmax over the two columns: `y - max - log (∑ exp (y - max))`, row by row. -/
def logSoftmax (y : (⟨S100000x2, .f32⟩ : BufTy).Contents (Elt F)) : (⟨S100000x2, .f32⟩ : BufTy).Contents (Elt F) :=
  let s : (⟨S100000x2, .f32⟩ : BufTy).Contents (Elt F) := subf y
    (broadcastInDim S100000x2 ![0, 1] bcast_S100000x1_S100000x2_0_1
      (broadcastInDim S100000x1 ![0] bcast_S100000_S100000x1_0
        (maximumf (val_main_call3_v1 (F := F))
          (Host.reduce FloatOps.maximumf y (val_main_call3_cst (F := F)) reducesTo_S100000x2_S100000_d1 h_S_))))
  subf s
    (broadcastInDim S100000x2 ![0, 1] bcast_S100000x1_S100000x2_0_1
      (Host.log (broadcastInDim S100000x1 ![0] bcast_S100000_S100000x1_0
        (Host.reduceAdd (Host.exp s) (val_main_call3_cst_1 (F := F)) reducesTo_S100000x2_S100000_d1 h_S_))))

/-- The last layer: `conv` into two columns, then `logSoftmax`. -/
def outLayer (x1 : (⟨S2x800000, .i32⟩ : BufTy).Contents (Elt F)) (h : (⟨S100000x128, .f32⟩ : BufTy).Contents (Elt F)) (W : (⟨S128x2, .f32⟩ : BufTy).Contents (Elt F))
    (b : (⟨S2, .f32⟩ : BufTy).Contents (Elt F)) : (⟨S100000x2, .f32⟩ : BufTy).Contents (Elt F) :=
  logSoftmax (addf (addf
      (Host.scatterAdd scatter_S100000x2_S800000x1_S800000x2_1_0_0_1 (val_main_v132 (F := F)) (val_main_v133 (F := F) x1)
        (mulf (Host.gather gather_S100000x2_S800000x1_S800000x2_1_0_n_n_0_1_12
            (Host.dotGeneral dot_S100000x128_S128x2_S100000x2_1_0_0_1_n_n none h W) (val_main_v127 (F := F) x1))
          (val_main_v130 (F := F) x1)))
      (mulf (Host.dotGeneral dot_S100000x128_S128x2_S100000x2_1_0_0_1_n_n none h W) (val_main_v136 (F := F) x1)))
    (val_main_v140 (F := F) b))

variable (x0 : (⟨S100000x128, .f32⟩ : BufTy).Contents (Elt F)) (x1 : (⟨S2x800000, .i32⟩ : BufTy).Contents (Elt F))
  (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F))
  (x8 : (⟨S128x2, .f32⟩ : BufTy).Contents (Elt F)) (x9 : (⟨S2, .f32⟩ : BufTy).Contents (Elt F)) (x10 x11 x12 x13 x14 x15 x16 x17 : (⟨S128, .f32⟩ : BufTy).Contents (Elt F))

/-- The first layer's output. -/
theorem layer0_eq : val_main_v48 (F := F) x0 x1 x2 x3 = relu (conv x1 x0 x2 x3) := rfl

/-- The second layer's output. -/
theorem layer1_eq : val_main_v84 (F := F) x0 x1 x2 x3 x4 x5 x10 x11 x12 x13
    = bnAct (conv x1 (val_main_v48 (F := F) x0 x1 x2 x3) x4 x5) x10 x11 x12 x13 (val_main_v48 (F := F) x0 x1 x2 x3) := rfl

/-- The third layer's output. -/
theorem layer2_eq : val_main_v120 (F := F) x0 x1 x2 x3 x4 x5 x6 x7 x10 x11 x12 x13 x14 x15 x16 x17
    = bnAct (conv x1 (val_main_v84 (F := F) x0 x1 x2 x3 x4 x5 x10 x11 x12 x13) x6 x7) x14 x15 x16 x17
        (val_main_v84 (F := F) x0 x1 x2 x3 x4 x5 x10 x11 x12 x13) := rfl

/-- The program's result. -/
theorem out_eq : val_main_v142 (F := F) x0 x1 x2 x3 x4 x5 x6 x7 x8 x9 x10 x11 x12 x13 x14 x15 x16 x17
    = outLayer x1 (val_main_v120 (F := F) x0 x1 x2 x3 x4 x5 x6 x7 x10 x11 x12 x13 x14 x15 x16 x17) x8 x9 := rfl

end Cert.ReferenceIdeal.Layers

end
-- ==== Proof.Spec.lean ====
/-
  The three kernel bodies of the graph network as whole-array functions on the extended reals, index by index.

  Every layer of the network sends node features `h : [100000, 128]` to
  `dis ⊙ (A · ((h W) ⊙ dis) + (h W) ⊙ dis) + b`, where `A` adds, for every edge, the source row into the target row and
  `dis : [100000, 1]` is the inverse square root of the node degrees. The first body is the scaled product
  `(h W) ⊙ dis`; the second and third take the scaled product `hws`, the edge sum `agg` of its gathered rows, the column
  `dis` and the bias row, and finish the layer: a rectifier, or batch normalisation with the running statistics, a
  rectifier and the residual `hprev`. The float literals stay as their words: `0x00000000` is zero, `0x3727C5AC` the
  single-precision `1e-5`.
-/
import Idealize.ShloMosaic.PureOps.Ideal
import Idealize.ShloMosaic.Lib.ValueIdx

noncomputable section

namespace Cert.Spec

open Idealize.ShloMosaic Idealize.ShloMosaic.ValueIdx

/-- Node features: one row of 128 columns per node. -/
abbrev SNodes128 : Shape := ⟨2, ![100000, 128]⟩
/-- One entry per node, as a column. -/
abbrev SNodes1 : Shape := ⟨2, ![100000, 1]⟩
/-- A layer's weights. -/
abbrev SW : Shape := ⟨2, ![128, 128]⟩
/-- A per-column parameter, as a row. -/
abbrev SRow : Shape := ⟨2, ![1, 128]⟩

/-- The row of an entry of a node-feature array. -/
abbrev nodeOf (i : SNodes128.Idx) : Fin 100000 := i 0
/-- The column of an entry of a node-feature array. -/
abbrev colOf (i : SNodes128.Idx) : Fin 128 := i 1

/-- The scaled product: entry `(r, c)` is `(∑ k, h[r, k] · W[k, c]) · dis[r]`. -/
def mmScaled (h : FVec Ideal SNodes128 .f32) (W : FVec Ideal SW .f32) (d2 : FVec Ideal SNodes1 .f32) :
    FVec Ideal SNodes128 .f32 :=
  fun i => (∑ k : Fin 128, h (ix2 (nodeOf i) k) * W (ix2 k (colOf i))) * d2 (ix2 (nodeOf i) (0 : Fin 1))

/-- A layer before its activation: entry `(r, c)` is `dis[r] · (agg[r, c] + hws[r, c]) + b[c]`. -/
def combine (hws agg : FVec Ideal SNodes128 .f32) (d2 : FVec Ideal SNodes1 .f32) (b2 : FVec Ideal SRow .f32) :
    FVec Ideal SNodes128 .f32 :=
  fun i => d2 (ix2 (nodeOf i) (0 : Fin 1)) * (agg i + hws i) + b2 (ix2 (0 : Fin 1) (colOf i))

/-- The first layer: the rectifier of `combine`. -/
def combRelu (hws agg : FVec Ideal SNodes128 .f32) (d2 : FVec Ideal SNodes1 .f32) (b2 : FVec Ideal SRow .f32) :
    FVec Ideal SNodes128 .f32 :=
  fun i => max (combine hws agg d2 b2 i) (Ideal.ofBits .f32 0x00000000#32)

/-- The middle layers: `combine`, normalised per column as `(· - mean) · (γ · rsqrt (var + 1e-5)) + β`, rectified, plus
    the residual. -/
def combBn (hws agg : FVec Ideal SNodes128 .f32) (d2 : FVec Ideal SNodes1 .f32)
    (b2 g2 beta2 m2 v2 : FVec Ideal SRow .f32) (hprev : FVec Ideal SNodes128 .f32) : FVec Ideal SNodes128 .f32 :=
  fun i =>
    max ((combine hws agg d2 b2 i - m2 (ix2 (0 : Fin 1) (colOf i)))
          * (g2 (ix2 (0 : Fin 1) (colOf i))
              * Ideal.rsqrt (v2 (ix2 (0 : Fin 1) (colOf i)) + Ideal.ofBits .f32 0x3727C5AC#32))
        + beta2 (ix2 (0 : Fin 1) (colOf i)))
      (Ideal.ofBits .f32 0x00000000#32)
    + hprev i

end Cert.Spec

end
-- ==== Proof.KStages.lean ====
/-
  What the kernel program holds after each layer, as functions of the program's arguments.

  `dis` (the inverse square root of one plus the number of edges into a node) and the source and target columns are
  computed from the edge list by the same host operations in both programs; they are named here by the reference's
  stages. A layer of the kernel program is: the scaled product `hws = (h W) ⊙ dis` (a kernel launch), the edge sum
  `agg` of the rows of `hws` gathered at the sources and added at the targets (host operations), and the finishing
  launch (`combRelu` for the first layer, `combBn` with the residual for the two middle ones). The last layer is the
  reference's own `outLayer` applied to the third layer's output.
-/
import proofs.«145619_j27719718928688_2_alg».proof.Proof.RefLayers
import proofs.«145619_j27719718928688_2_alg».proof.Proof.Gen.KernelIdeal
import proofs.«145619_j27719718928688_2_alg».proof.Proof.Spec

noncomputable section

namespace Cert.Stages

open Idealize.ShloMosaic Idealize.ShloMosaic.TcCoe
open Cert.ReferenceIdeal.ReadP Cert.ReferenceIdeal.Layers

/-- The edge list `[2, 800000]`. -/
abbrev EdgeList := (⟨Cert.ReferenceIdeal.S2x800000, .i32⟩ : BufTy).Contents (Elt Ideal)
/-- Node features `[100000, 128]`. -/
abbrev Feat := (⟨Cert.ReferenceIdeal.S100000x128, .f32⟩ : BufTy).Contents (Elt Ideal)
/-- A layer's weights `[128, 128]`. -/
abbrev Wts := (⟨Cert.ReferenceIdeal.S128x128, .f32⟩ : BufTy).Contents (Elt Ideal)
/-- A per-column parameter `[128]`. -/
abbrev Par := (⟨Cert.ReferenceIdeal.S128, .f32⟩ : BufTy).Contents (Elt Ideal)

/-- `dis` as a column `[100000, 1]`. -/
def dcol (x1 : EdgeList) : (⟨Cert.KernelIdeal.S100000x1, .f32⟩ : BufTy).Contents (Elt Ideal) :=
  shapeCast _ (val_main_v10 (F := Ideal) x1) Cert.KernelIdeal.Facts₀.shapeCasts_S100000_S100000x1

/-- A per-column parameter as a row `[1, 128]`. -/
def prow (b : Par) : (⟨Cert.KernelIdeal.S1x128, .f32⟩ : BufTy).Contents (Elt Ideal) :=
  shapeCast _ b Cert.KernelIdeal.Facts₀.shapeCasts_S128_S1x128

/-- The scaled product `(h W) ⊙ dis`. -/
def hws (x1 : EdgeList) (h : Feat) (W : Wts) : Feat := Cert.Spec.mmScaled h W (dcol x1)

/-- The edge sum: the rows of `y` gathered at the edges' sources, added at their targets into zeros. -/
def agg (x1 : EdgeList) (y : Feat) : Feat :=
  Host.scatterAdd (F := Ideal) (φ := .f32) Cert.ReferenceIdeal.scatter_S100000x128_S800000x1_S800000x128_1_0_0_1 (val_main_v38 (F := Ideal))
    (val_main_v39 (F := Ideal) x1)
    (Host.gather Cert.ReferenceIdeal.gather_S100000x128_S800000x1_S800000x128_1_0_n_n_0_1_1128 (y : FVec Ideal Cert.ReferenceIdeal.S100000x128 .f32) (val_main_v33 (F := Ideal) x1))

/-- The first layer. -/
def layerRelu (x1 : EdgeList) (h : Feat) (W : Wts) (b : Par) : Feat :=
  Cert.Spec.combRelu (hws x1 h W) (agg x1 (hws x1 h W)) (dcol x1) (prow b)

/-- A middle layer. -/
def layerBn (x1 : EdgeList) (h : Feat) (W : Wts) (b g beta mean var : Par) : Feat :=
  Cert.Spec.combBn (hws x1 h W) (agg x1 (hws x1 h W)) (dcol x1) (prow b) (prow g) (prow beta) (prow mean) (prow var) h

variable (x0 : Feat) (x1 : EdgeList) (x2 : Wts) (x3 : Par) (x4 : Wts) (x5 : Par) (x6 : Wts) (x7 : Par)
  (x8 : (⟨Cert.ReferenceIdeal.S128x2, .f32⟩ : BufTy).Contents (Elt Ideal)) (x9 : (⟨Cert.ReferenceIdeal.S2, .f32⟩ : BufTy).Contents (Elt Ideal))
  (x10 x11 x12 x13 x14 x15 x16 x17 : Par)

/-- After the first layer. -/
def h1 : Feat := layerRelu x1 x0 x2 x3
/-- After the second layer. -/
def h2 : Feat := layerBn x1 (h1 x0 x1 x2 x3) x4 x5 x10 x11 x12 x13
/-- After the third layer. -/
def h3 : Feat := layerBn x1 (h2 x0 x1 x2 x3 x4 x5 x10 x11 x12 x13) x6 x7 x14 x15 x16 x17
/-- The kernel program's result. -/
def out : (⟨Cert.ReferenceIdeal.S100000x2, .f32⟩ : BufTy).Contents (Elt Ideal) :=
  outLayer x1 (h3 x0 x1 x2 x3 x4 x5 x6 x7 x10 x11 x12 x13 x14 x15 x16 x17) x8 x9

end Cert.Stages

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.RegionMatmulPay.lean ====
/-
  The scaled product's body at an index.

  A block of 5000 rows of the features, the whole 128×128 weights and the rows' 5000 scale entries go in; entry `(p, q)`
  of what the body stores is `(∑ k, x[p, k] · w[k, q]) · d[p]`: the two roundings to half precision are the identity on
  the extended reals, the product into the zero accumulator is the plain sum over the contraction index, the scale
  column is spread over the 128 columns, and the cast of a block to its own shape is the identity. The three scaled
  products of the network have this body (the later two read their features through one more identity cast). The
  second lemma reads the block entry as an entry of the whole-array scaled product, given where the three operand
  entries sit in the arrays.
-/
import proofs.«145619_j27719718928688_2_alg».proof.Proof.Gen.KernelIdeal.Skeleton
import proofs.«145619_j27719718928688_2_alg».proof.Proof.Spec
import proofs.«145619_j27719718928688_2_alg».proof.Proof.LibPlainDot
import proofs.«145619_j27719718928688_2_alg».proof.Proof.LibKeepdims
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.ValueIdx Idealize.ShloMosaic.TcCoe
open Cert.Spec

/-- The printed dimension numbers are those of a plain `5000×128` by `128×128` product. -/
theorem dot_plain : dot_S5000x128_S128x128_S5000x128_1_0_0_1_n_n = DotDims.plain 5000 128 128 := rfl

/-- The first scaled product's body at `(p, q)`: the row-by-column sum, times the row's scale. -/
theorem k0_pay1_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  show matmul (F := Ideal) dot_S5000x128_S128x128_S5000x128_1_0_0_1_n_n none (truncf (F := Ideal) .bf16 x0 bitsLt_bf16_f32)
        (truncf (F := Ideal) .bf16 x1 bitsLt_bf16_f32) (constant (F := Ideal) S5000x128 .f32 0x00000000#32) (ix2 p q)
      * broadcastTo S5000x128 (shapeCast S5000x1 x2 shapeCasts_S5000x1_S5000x1) broadcasts_S5000x1_S5000x128 (ix2 p q) = _
  rw [shapeCast_self, Cert.Lib.broadcastTo_a1_ab_apply, dot_plain]
  exact congrArg (· * x2 (ix2 p (0 : Fin 1))) (Cert.Lib.plain_matmul_zero_apply 5000 128 128 none _ _ p q)

/-- The second scaled product's body is the first's: its one extra cast of the features is the identity. -/
theorem k2_pay1_eq (x0 : Vec Ideal S5000x128 .f32) (x1 : Vec Ideal S128x128 .f32) (x2 : Vec Ideal S5000x1 .f32) :
    k2_pay1 x0 x1 x2 = k0_pay1 x0 x1 x2 := by
  unfold k2_pay1 k0_pay1
  rw [shapeCast_self x0]

/-- So is the third's. -/
theorem k4_pay1_eq (x0 : Vec Ideal S5000x128 .f32) (x1 : Vec Ideal S128x128 .f32) (x2 : Vec Ideal S5000x1 .f32) :
    k4_pay1 x0 x1 x2 = k0_pay1 x0 x1 x2 := by
  unfold k4_pay1 k0_pay1
  rw [shapeCast_self x0]

/-- Both offsets of a whole-buffer access are zero. -/
theorem hz : (![0, 0] : Fin 2 → Nat) = fun _ => 0 := funext fun a => by fin_cases a <;> rfl

/-- A block entry of the body is the whole-array scaled product at `i`, when row `p` of the feature block is row
    `i 0` of the features, column `q` of the weights' block is column `i 1` of the weights, and entry `p` of the scale
    block is entry `i 0` of the scale column. -/
theorem mmScaled_of_blocks (x0 : Vec Ideal S5000x128 .f32) (x1 : Vec Ideal S128x128 .f32) (x2 : Vec Ideal S5000x1 .f32)
    (A0 : FVec Ideal SNodes128 .f32) (A1 : FVec Ideal SW .f32) (A2 : FVec Ideal SNodes1 .f32)
    (p : Fin 5000) (q : Fin 128) (i : SNodes128.Idx)
    (h0 : ∀ k : Fin 128, x0 (ix2 p k) = A0 (ix2 (nodeOf i) k))
    (h1 : ∀ k : Fin 128, x1 (ix2 k q) = A1 (ix2 k (colOf i)))
    (h2 : x2 (ix2 p (0 : Fin 1)) = A2 (ix2 (nodeOf i) (0 : Fin 1))) :
    k0_pay1 x0 x1 x2 (ix2 p q) = mmScaled A0 A1 A2 i := by
  rw [k0_pay1_apply, h2]
  exact congrArg (· * A2 (ix2 (nodeOf i) (0 : Fin 1))) (Finset.sum_congr rfl fun k _ => by rw [h0 k, h1 k])

end Cert.KernelIdeal.RegionValue

end
-- ==== Proof.RegionMatmul0.lean ====
/-
  The first scaled product as one array.

  The grid has 20 points; point `t` takes rows `5000·t … 5000·t + 4999` of the features and of the scale column and the
  whole weights, and writes back rows `5000·t … 5000·t + 4999` of the result. What it writes back is that block of the
  whole-array scaled product of the three arrays as the region finds them: each operand entry the body reads sits in
  its array at the block's row offset. The 20 blocks cover all 100000 rows (row `r` is in block `r / 5000`), so the
  result array ends as the scaled product.
-/
import proofs.«145619_j27719718928688_2_alg».proof.Proof.Gen.KernelIdeal.Frame
import proofs.«145619_j27719718928688_2_alg».proof.Proof.RegionMatmulPay
import Idealize.ShloMosaic.Lib.Pipeline.Value

noncomputable section

namespace Cert.KernelIdeal.RegionValue

open Cert.KernelIdeal Cert.KernelIdeal.Gen Idealize.ShloMosaic Idealize.ShloMosaic.ValueIdx Idealize.ShloMosaic.TcCoe
open Cert.Spec

/-- The block indices over the grid: the three row-blocked windows sit at block row `t`, the weights at their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point `t` writes back is block `t` of the scaled product of the arrays as the region finds them. -/
theorem flushed0 (c : Dev nD) (t : Fin cfg0.N) :
    (dat0 (F := Ideal) V c).flushed 3 t
      = ((cfg0.win 3).blk t).view.read (Elt Ideal)
          (mmScaled (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨e00, e01, e10, e11, e20, e21, e30, e31⟩ := idx_facts0 t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
      = mmScaled (V c (Pipeline.arrRef spec0 0)) (V c (Pipeline.arrRef spec0 1)) (V c (Pipeline.arrRef spec0 2))
          (((cfg0.win 3).blk t).view.emb (ix2 p q))
  refine mmScaled_of_blocks (iblk0 V c 0 t) (iblk0 V c 1 t) (iblk0 V c 2 t) _ _ _ p q _ (fun k => ?_) (fun k => ?_) ?_
  · show V c (Pipeline.arrRef spec0 0) (((cfg0.win 0).blk t).view.emb (ix2 p k)) = V c (Pipeline.arrRef spec0 0) _
    refine congrArg _ (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  · show V c (Pipeline.arrRef spec0 1) (((cfg0.win 1).blk t).view.emb (ix2 k q)) = V c (Pipeline.arrRef spec0 1) _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  · show V c (Pipeline.arrRef spec0 2) (((cfg0.win 2).blk t).view.emb (ix2 p (0 : Fin 1))) = V c (Pipeline.arrRef spec0 2) _
    refine congrArg _ (funext fun a => Fin.ext ?_)
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega

/-- THE RESULT ARRAY after the region: the scaled product of the three arrays the region finds. -/
theorem final0 (c : Dev nD) :
    (dat0 (F := Ideal) V c).arrAt 3 cfg0.N
      = mmScaled (V c (Pipeline.arrRef spec0 0)) (V c (Pipeline.arrRef spec0 1)) (V c (Pipeline.arrRef spec0 2)) :=
  (dat0 V c).arrAt_eq_of_cover 3 _ (fun t _ => flushed0 V c t) fun i => by
    have hi0 : (i 0).val < 100000 := (i 0).isLt
    have hi1 : (i 1).val < 128 := (i 1).isLt
    obtain ⟨t, ht⟩ : ∃ t : Fin cfg0.N, t.val = (i 0).val / 5000 :=
      ⟨⟨(i 0).val / 5000, by rw [show cfg0.N = 20 from N_0]; omega⟩, rfl⟩
    obtain ⟨e00, e01, e10, e11, e20, e21, e30, e31⟩ := idx_facts0 t
    refine ⟨t, flush0_3 t, ?_⟩
    show i ∈ ((View.whole main_v12).slice (win0_3.rect t)).set
    rw [View.set_slice_whole, Rect.mem_set_unit]
    intro a
    match a with
    | ⟨0, _⟩ => show win0_3.index t (0 : Fin 2) * 5000 ≤ (i 0).val ∧ (i 0).val < win0_3.index t (0 : Fin 2) * 5000 + 5000; omega
    | ⟨1, _⟩ => show win0_3.index t (1 : Fin 2) * 128 ≤ (i 1).val ∧ (i 1).val < win0_3.index t (1 : Fin 2) * 128 + 128; omega

end Cert.KernelIdeal.RegionValue

end
-- ==== Proof.RegionCombPay.lean ====
/-
  The layers' closing bodies at an index.

  Each takes a block of 5000 rows of the scaled product `hws` and of the edge sum `agg`, the rows' scale entries and
  the per-column parameter rows. The first layer's leaves `max (d[p] · (agg[p, q] + hws[p, q]) + b[q]) 0`; the middle
  and last layers' normalise that combination with the column's running mean and variance,
  `(· - mean[q]) · (γ[q] · rsqrt (var[q] + ε)) + β[q]`, rectify, and add the residual entry. The scale column is spread
  over the columns and each parameter row over the rows; a cast of a block to its own shape is the identity. The body
  loads the scale first, then the edge sum, then the scaled product: the lemmas keep that order of arguments.
-/
import proofs.«145619_j27719718928688_2_alg».proof.Proof.Gen.KernelIdeal.Skeleton
import proofs.«145619_j27719718928688_2_alg».proof.Proof.Spec
import proofs.«145619_j27719718928688_2_alg».proof.Proof.LibKeepdims
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen Idealize.ShloMosaic Idealize.ShloMosaic.ValueIdx Idealize.ShloMosaic.TcCoe
open Cert.Spec

/-- The first layer's closing body at `(p, q)`: the scale of row `p` times the sum of the edge sum and the scaled
    product there, plus the bias of column `q`, rectified. -/
theorem k1_pay1_apply (v0 : Vec Ideal S5000x1 .f32) (v2 v4 : Vec Ideal S5000x128 .f32) (v9 : Vec Ideal S1x128 .f32)
    (p : Fin 5000) (q : Fin 128) :
    k1_pay1 v0 v2 v4 v9 (ix2 p q)
      = max (v0 (ix2 p (0 : Fin 1)) * (v2 (ix2 p q) + v4 (ix2 p q)) + v9 (ix2 (0 : Fin 1) q))
          (Ideal.ofBits .f32 0x00000000#32) := by
  unfold k1_pay1
  show max (broadcastTo S5000x128 (shapeCast S5000x1 v0 shapeCasts_S5000x1_S5000x1) broadcasts_S5000x1_S5000x128 (ix2 p q)
            * (shapeCast S5000x128 v2 shapeCasts_S5000x128_S5000x128 (ix2 p q)
                + shapeCast S5000x128 v4 shapeCasts_S5000x128_S5000x128 (ix2 p q))
          + broadcastTo S5000x128 (shapeCast S1x128 v9 shapeCasts_S1x128_S1x128) broadcasts_S1x128_S5000x128 (ix2 p q))
        (Ideal.ofBits .f32 0x00000000#32) = _
  simp only [shapeCast_self]
  rw [Cert.Lib.broadcastTo_a1_ab_apply, broadcastTo_1b_ab_apply]

/-- The middle layers' closing body at `(p, q)`: the same combination, normalised with column `q`'s statistics,
    rectified, plus the residual. -/
theorem k3_pay1_apply (v0 : Vec Ideal S5000x1 .f32) (v2 v4 : Vec Ideal S5000x128 .f32)
    (v9 v13 v15 v21 v27 : Vec Ideal S1x128 .f32) (v33 : Vec Ideal S5000x128 .f32) (p : Fin 5000) (q : Fin 128) :
    k3_pay1 v0 v2 v4 v9 v13 v15 v21 v27 v33 (ix2 p q)
      = max ((v0 (ix2 p (0 : Fin 1)) * (v2 (ix2 p q) + v4 (ix2 p q)) + v9 (ix2 (0 : Fin 1) q) - v21 (ix2 (0 : Fin 1) q))
              * (v13 (ix2 (0 : Fin 1) q)
                  * Ideal.rsqrt (v15 (ix2 (0 : Fin 1) q) + Ideal.ofBits .f32 0x3727C5AC#32))
            + v27 (ix2 (0 : Fin 1) q))
          (Ideal.ofBits .f32 0x00000000#32)
        + v33 (ix2 p q) := by
  unfold k3_pay1
  show max ((broadcastTo S5000x128 (shapeCast S5000x1 v0 shapeCasts_S5000x1_S5000x1) broadcasts_S5000x1_S5000x128 (ix2 p q)
                * (shapeCast S5000x128 v2 shapeCasts_S5000x128_S5000x128 (ix2 p q)
                    + shapeCast S5000x128 v4 shapeCasts_S5000x128_S5000x128 (ix2 p q))
              + broadcastTo S5000x128 (shapeCast S1x128 v9 shapeCasts_S1x128_S1x128) broadcasts_S1x128_S5000x128 (ix2 p q)
              - broadcastTo S5000x128 (shapeCast S1x128 v21 shapeCasts_S1x128_S1x128) broadcasts_S1x128_S5000x128 (ix2 p q))
            * broadcastTo S5000x128
                (fun i : S1x128.Idx => shapeCast S1x128 v13 shapeCasts_S1x128_S1x128 i
                  * Ideal.rsqrt (shapeCast S1x128 v15 shapeCasts_S1x128_S1x128 i + Ideal.ofBits .f32 0x3727C5AC#32))
                broadcasts_S1x128_S5000x128 (ix2 p q)
            + broadcastTo S5000x128 (shapeCast S1x128 v27 shapeCasts_S1x128_S1x128) broadcasts_S1x128_S5000x128 (ix2 p q))
          (Ideal.ofBits .f32 0x00000000#32)
        + shapeCast S5000x128 v33 shapeCasts_S5000x128_S5000x128 (ix2 p q) = _
  simp only [shapeCast_self]
  simp only [Cert.Lib.broadcastTo_a1_ab_apply, broadcastTo_1b_ab_apply]

/-- The last layer's closing body is the middle one's, term for term. -/
theorem k5_pay1_eq (v0 : Vec Ideal S5000x1 .f32) (v2 v4 : Vec Ideal S5000x128 .f32)
    (v9 v13 v15 v21 v27 : Vec Ideal S1x128 .f32) (v33 : Vec Ideal S5000x128 .f32) :
    k5_pay1 v0 v2 v4 v9 v13 v15 v21 v27 v33 = k3_pay1 v0 v2 v4 v9 v13 v15 v21 v27 v33 := rfl

/-- Both offsets of a whole-buffer access are zero. -/
theorem offsets_zero : (![0, 0] : Fin 2 → Nat) = fun _ => 0 := funext fun a => by fin_cases a <;> rfl

/-- A block entry of the first layer's closing body is the whole-array `combRelu` at `i`, when the scaled product's
    and the edge sum's block entries are the arrays' entries at `i`, entry `p` of the scale block is entry `i 0` of the
    scale column, and entry `q` of the bias row is its entry `i 1`. The blocks come in window order (scaled product,
    edge sum, scale, bias); the body takes them in its load order. -/
theorem combRelu_of_blocks (x0 x1 : Vec Ideal S5000x128 .f32) (x2 : Vec Ideal S5000x1 .f32) (x3 : Vec Ideal S1x128 .f32)
    (hws agg : FVec Ideal SNodes128 .f32) (d2 : FVec Ideal SNodes1 .f32) (b2 : FVec Ideal SRow .f32)
    (p : Fin 5000) (q : Fin 128) (i : SNodes128.Idx)
    (h0 : x0 (ix2 p q) = hws i) (h1 : x1 (ix2 p q) = agg i)
    (h2 : x2 (ix2 p (0 : Fin 1)) = d2 (ix2 (nodeOf i) (0 : Fin 1)))
    (h3 : x3 (ix2 (0 : Fin 1) q) = b2 (ix2 (0 : Fin 1) (colOf i))) :
    k1_pay1 x2 x1 x0 x3 (ix2 p q) = combRelu hws agg d2 b2 i := by
  rw [k1_pay1_apply, h0, h1, h2, h3]
  rfl

/-- The same for the middle and last layers' closing body and `combBn`: the blocks in window order (scaled product,
    edge sum, scale, bias, γ, β, mean, variance, residual), each parameter row's entry `q` its entry `i 1`, the
    residual's block entry the array's entry at `i`. -/
theorem combBn_of_blocks (x0 x1 : Vec Ideal S5000x128 .f32) (x2 : Vec Ideal S5000x1 .f32)
    (x3 x4 x5 x6 x7 : Vec Ideal S1x128 .f32) (x8 : Vec Ideal S5000x128 .f32)
    (hws agg : FVec Ideal SNodes128 .f32) (d2 : FVec Ideal SNodes1 .f32) (b2 g2 beta2 m2 v2 : FVec Ideal SRow .f32)
    (hprev : FVec Ideal SNodes128 .f32)
    (p : Fin 5000) (q : Fin 128) (i : SNodes128.Idx)
    (h0 : x0 (ix2 p q) = hws i) (h1 : x1 (ix2 p q) = agg i)
    (h2 : x2 (ix2 p (0 : Fin 1)) = d2 (ix2 (nodeOf i) (0 : Fin 1)))
    (h3 : x3 (ix2 (0 : Fin 1) q) = b2 (ix2 (0 : Fin 1) (colOf i)))
    (h4 : x4 (ix2 (0 : Fin 1) q) = g2 (ix2 (0 : Fin 1) (colOf i)))
    (h5 : x5 (ix2 (0 : Fin 1) q) = beta2 (ix2 (0 : Fin 1) (colOf i)))
    (h6 : x6 (ix2 (0 : Fin 1) q) = m2 (ix2 (0 : Fin 1) (colOf i)))
    (h7 : x7 (ix2 (0 : Fin 1) q) = v2 (ix2 (0 : Fin 1) (colOf i)))
    (h8 : x8 (ix2 p q) = hprev i) :
    k3_pay1 x2 x1 x0 x3 x4 x7 x6 x5 x8 (ix2 p q) = combBn hws agg d2 b2 g2 beta2 m2 v2 hprev i := by
  rw [k3_pay1_apply, h0, h1, h2, h3, h4, h5, h6, h7, h8]
  rfl

end Cert.KernelIdeal.RegionValue

end
-- ==== Proof.RegionRelu.lean ====
/-
  The first layer's closing region as one array.

  The grid has 20 points; point `t` takes rows `5000·t … 5000·t + 4999` of the scaled product, of the edge sum and of
  the scale column, and the whole bias row, and writes back the same rows of the result. What it writes back is that
  block of `combRelu` of the four arrays as the region finds them: every entry the body reads sits in its array at the
  block's row offset (the bias row at its own column). The 20 blocks cover all 100000 rows, so the result array ends
  as `combRelu` of the four arrays.
-/
import proofs.«145619_j27719718928688_2_alg».proof.Proof.Gen.KernelIdeal.Frame
import proofs.«145619_j27719718928688_2_alg».proof.Proof.RegionCombPay
import Idealize.ShloMosaic.Lib.Pipeline.Value

noncomputable section

namespace Cert.KernelIdeal.RegionValue

open Cert.KernelIdeal Cert.KernelIdeal.Gen Idealize.ShloMosaic Idealize.ShloMosaic.ValueIdx Idealize.ShloMosaic.TcCoe
open Cert.Spec

/-- The block indices over the grid: the row-blocked windows sit at block row `t`, the parameter rows at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- What point `t` writes back is block `t` of `combRelu` of the arrays as the region finds them. -/
theorem flushed1 (c : Dev nD) (t : Fin cfg1.N) :
    (dat1 (F := Ideal) V c).flushed 4 t
      = ((cfg1.win 4).blk t).view.read (Elt Ideal)
          (combRelu (V c (Pipeline.arrRef spec1 0)) (V c (Pipeline.arrRef spec1 1)) (V c (Pipeline.arrRef spec1 2)) (V c (Pipeline.arrRef spec1 3))) := by
  show (cfg1.win 4).cut (grid1.coords t) ((dat1 V c).after 4 t) = _
  rw [after1_4]
  unfold out1_4
  rw [View.canon_unit_zero offsets_zero]
  simp only [View.ld_unit_zero (S := S5000x128) offsets_zero, View.ld_unit_zero (S := S5000x1) offsets_zero,
    View.ld_unit_zero (S := S1x128) offsets_zero]
  obtain ⟨e00, e01, e10, e11, e20, e21, e30, e31, e40, e41⟩ := idx_facts1 t
  funext j
  obtain ⟨p, q, rfl⟩ : ∃ (p : Fin 5000) (q : Fin 128), j = ix2 p q := ⟨j 0, j 1, eq_ix2 j⟩
  show k1_pay1 (iblk1 V c 2 t) (iblk1 V c 1 t) (iblk1 V c 0 t) (iblk1 V c 3 t) (ix2 p q)
      = combRelu (V c (Pipeline.arrRef spec1 0)) (V c (Pipeline.arrRef spec1 1)) (V c (Pipeline.arrRef spec1 2)) (V c (Pipeline.arrRef spec1 3))
          (((cfg1.win 4).blk t).view.emb (ix2 p q))
  refine combRelu_of_blocks (iblk1 V c 0 t) (iblk1 V c 1 t) (iblk1 V c 2 t) (iblk1 V c 3 t) _ _ _ _ p q _ ?_ ?_ ?_ ?_
  · show V c (Pipeline.arrRef spec1 0) (((cfg1.win 0).blk t).view.emb (ix2 p q)) = V c (Pipeline.arrRef spec1 0) _
    refine congrArg _ (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  · show V c (Pipeline.arrRef spec1 1) (((cfg1.win 1).blk t).view.emb (ix2 p q)) = V c (Pipeline.arrRef spec1 1) _
    refine congrArg _ (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 128 + 1 * q.val = win1_4.index t (1 : Fin 2) * 128 + 1 * q.val; omega
  · show V c (Pipeline.arrRef spec1 2) (((cfg1.win 2).blk t).view.emb (ix2 p (0 : Fin 1))) = V c (Pipeline.arrRef spec1 2) _
    refine congrArg _ (funext fun a => Fin.ext ?_)
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  · show V c (Pipeline.arrRef spec1 3) (((cfg1.win 3).blk t).view.emb (ix2 (0 : Fin 1) q)) = V c (Pipeline.arrRef spec1 3) _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = win1_4.index t (1 : Fin 2) * 128 + 1 * q.val; omega

/-- THE RESULT ARRAY after the region: `combRelu` of the arrays the region finds. -/
theorem final1 (c : Dev nD) :
    (dat1 (F := Ideal) V c).arrAt 4 cfg1.N
      = combRelu (V c (Pipeline.arrRef spec1 0)) (V c (Pipeline.arrRef spec1 1)) (V c (Pipeline.arrRef spec1 2)) (V c (Pipeline.arrRef spec1 3)) :=
  (dat1 V c).arrAt_eq_of_cover 4 _ (fun t _ => flushed1 V c t) fun i => by
    have hi0 : (i 0).val < 100000 := (i 0).isLt
    have hi1 : (i 1).val < 128 := (i 1).isLt
    obtain ⟨t, ht⟩ : ∃ t : Fin cfg1.N, t.val = (i 0).val / 5000 :=
      ⟨⟨(i 0).val / 5000, by rw [show cfg1.N = 20 from N_1]; omega⟩, rfl⟩
    obtain ⟨e00, e01, e10, e11, e20, e21, e30, e31, e40, e41⟩ := idx_facts1 t
    refine ⟨t, flush1_4 t, ?_⟩
    show i ∈ ((View.whole main_v24).slice (win1_4.rect t)).set
    rw [View.set_slice_whole, Rect.mem_set_unit]
    intro a
    match a with
    | ⟨0, _⟩ => show win1_4.index t (0 : Fin 2) * 5000 ≤ (i 0).val ∧ (i 0).val < win1_4.index t (0 : Fin 2) * 5000 + 5000; omega
    | ⟨1, _⟩ => show win1_4.index t (1 : Fin 2) * 128 ≤ (i 1).val ∧ (i 1).val < win1_4.index t (1 : Fin 2) * 128 + 128; omega

end Cert.KernelIdeal.RegionValue

end
-- ==== Proof.KFoldA.lean ====
/-
  The kernel program's buffers through the first layer.

  After the first stretch of host operations the source and target columns and `dis` are the reference's own stages of
  the edge list, and they and the arguments are carried unchanged to every later boundary. The first launch leaves the
  scaled product `(x W0) ⊙ dis` in its output array; the stretch after it gathers its rows at the sources, adds them at
  the targets and reshapes the bias; the second launch finishes the layer: `Stages.h1`.
-/
import proofs.«145619_j27719718928688_2_alg».proof.Proof.KFoldKeep
import proofs.«145619_j27719718928688_2_alg».proof.Proof.KStages
import proofs.«145619_j27719718928688_2_alg».proof.Proof.RegionMatmul0
import proofs.«145619_j27719718928688_2_alg».proof.Proof.RegionRelu

set_option maxRecDepth 16384
set_option maxHeartbeats 4000000

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## After the first stretch: the edge list's columns and `dis` -/

theorem src_W1 : W1 m ρ c (Proc.devRef .tc main_v1) = val_main_v1 (F := Ideal) (m ((c : Thread nD τ).loc main_arg1)) := by
  dsimp only [W1, hostOps0]; after_results; rfl
theorem dst_W1 : W1 m ρ c (Proc.devRef .tc main_v3) = val_main_v3 (F := Ideal) (m ((c : Thread nD τ).loc main_arg1)) := by
  dsimp only [W1, hostOps0]; after_results; rfl
theorem dis_W1 : W1 m ρ c (Proc.devRef .tc main_v10) = val_main_v10 (F := Ideal) (m ((c : Thread nD τ).loc main_arg1)) := by
  dsimp only [W1, hostOps0]; after_results; rfl
theorem dcol_W1 : W1 m ρ c (Proc.devRef .tc main_v11) = Cert.Stages.dcol (m ((c : Thread nD τ).loc main_arg1)) := by
  dsimp only [W1, hostOps0]; after_results; rfl

/-- The carried buffers at boundary 2. -/
theorem src_W2 : W2 m ρ c (Proc.devRef .tc main_v1) = val_main_v1 (F := Ideal) (m ((c : Thread nD τ).loc main_arg1)) := (keep_W2 m ρ c ⟨18, by decide⟩).trans (src_W1 m ρ c)
theorem dst_W2 : W2 m ρ c (Proc.devRef .tc main_v3) = val_main_v3 (F := Ideal) (m ((c : Thread nD τ).loc main_arg1)) := (keep_W2 m ρ c ⟨19, by decide⟩).trans (dst_W1 m ρ c)
theorem dis_W2 : W2 m ρ c (Proc.devRef .tc main_v10) = val_main_v10 (F := Ideal) (m ((c : Thread nD τ).loc main_arg1)) := (keep_W2 m ρ c ⟨20, by decide⟩).trans (dis_W1 m ρ c)
theorem dcol_W2 : W2 m ρ c (Proc.devRef .tc main_v11) = Cert.Stages.dcol (m ((c : Thread nD τ).loc main_arg1)) := (keep_W2 m ρ c ⟨21, by decide⟩).trans (dcol_W1 m ρ c)

/-- The carried buffers at boundary 3. -/
theorem src_W3 : W3 m ρ c (Proc.devRef .tc main_v1) = val_main_v1 (F := Ideal) (m ((c : Thread nD τ).loc main_arg1)) := (keep_W3 m ρ c ⟨18, by decide⟩).trans (src_W1 m ρ c)
theorem dst_W3 : W3 m ρ c (Proc.devRef .tc main_v3) = val_main_v3 (F := Ideal) (m ((c : Thread nD τ).loc main_arg1)) := (keep_W3 m ρ c ⟨19, by decide⟩).trans (dst_W1 m ρ c)
theorem dis_W3 : W3 m ρ c (Proc.devRef .tc main_v10) = val_main_v10 (F := Ideal) (m ((c : Thread nD τ).loc main_arg1)) := (keep_W3 m ρ c ⟨20, by decide⟩).trans (dis_W1 m ρ c)
theorem dcol_W3 : W3 m ρ c (Proc.devRef .tc main_v11) = Cert.Stages.dcol (m ((c : Thread nD τ).loc main_arg1)) := (keep_W3 m ρ c ⟨21, by decide⟩).trans (dcol_W1 m ρ c)

/-- The carried buffers at boundary 4. -/
theorem src_W4 : W4 m ρ c (Proc.devRef .tc main_v1) = val_main_v1 (F := Ideal) (m ((c : Thread nD τ).loc main_arg1)) := (keep_W4 m ρ c ⟨18, by decide⟩).trans (src_W1 m ρ c)
theorem dst_W4 : W4 m ρ c (Proc.devRef .tc main_v3) = val_main_v3 (F := Ideal) (m ((c : Thread nD τ).loc main_arg1)) := (keep_W4 m ρ c ⟨19, by decide⟩).trans (dst_W1 m ρ c)
theorem dis_W4 : W4 m ρ c (Proc.devRef .tc main_v10) = val_main_v10 (F := Ideal) (m ((c : Thread nD τ).loc main_arg1)) := (keep_W4 m ρ c ⟨20, by decide⟩).trans (dis_W1 m ρ c)
theorem dcol_W4 : W4 m ρ c (Proc.devRef .tc main_v11) = Cert.Stages.dcol (m ((c : Thread nD τ).loc main_arg1)) := (keep_W4 m ρ c ⟨21, by decide⟩).trans (dcol_W1 m ρ c)

/-- The carried buffers at boundary 5. -/
theorem src_W5 : W5 m ρ c (Proc.devRef .tc main_v1) = val_main_v1 (F := Ideal) (m ((c : Thread nD τ).loc main_arg1)) := (keep_W5 m ρ c ⟨18, by decide⟩).trans (src_W1 m ρ c)
theorem dst_W5 : W5 m ρ c (Proc.devRef .tc main_v3) = val_main_v3 (F := Ideal) (m ((c : Thread nD τ).loc main_arg1)) := (keep_W5 m ρ c ⟨19, by decide⟩).trans (dst_W1 m ρ c)
theorem dis_W5 : W5 m ρ c (Proc.devRef .tc main_v10) = val_main_v10 (F := Ideal) (m ((c : Thread nD τ).loc main_arg1)) := (keep_W5 m ρ c ⟨20, by decide⟩).trans (dis_W1 m ρ c)
theorem dcol_W5 : W5 m ρ c (Proc.devRef .tc main_v11) = Cert.Stages.dcol (m ((c : Thread nD τ).loc main_arg1)) := (keep_W5 m ρ c ⟨21, by decide⟩).trans (dcol_W1 m ρ c)

/-- The carried buffers at boundary 6. -/
theorem src_W6 : W6 m ρ c (Proc.devRef .tc main_v1) = val_main_v1 (F := Ideal) (m ((c : Thread nD τ).loc main_arg1)) := (keep_W6 m ρ c ⟨18, by decide⟩).trans (src_W1 m ρ c)
theorem dst_W6 : W6 m ρ c (Proc.devRef .tc main_v3) = val_main_v3 (F := Ideal) (m ((c : Thread nD τ).loc main_arg1)) := (keep_W6 m ρ c ⟨19, by decide⟩).trans (dst_W1 m ρ c)
theorem dis_W6 : W6 m ρ c (Proc.devRef .tc main_v10) = val_main_v10 (F := Ideal) (m ((c : Thread nD τ).loc main_arg1)) := (keep_W6 m ρ c ⟨20, by decide⟩).trans (dis_W1 m ρ c)
theorem dcol_W6 : W6 m ρ c (Proc.devRef .tc main_v11) = Cert.Stages.dcol (m ((c : Thread nD τ).loc main_arg1)) := (keep_W6 m ρ c ⟨21, by decide⟩).trans (dcol_W1 m ρ c)

/-- The carried buffers at boundary 7. -/
theorem src_W7 : W7 m ρ c (Proc.devRef .tc main_v1) = val_main_v1 (F := Ideal) (m ((c : Thread nD τ).loc main_arg1)) := (keep_W7 m ρ c ⟨18, by decide⟩).trans (src_W1 m ρ c)
theorem dst_W7 : W7 m ρ c (Proc.devRef .tc main_v3) = val_main_v3 (F := Ideal) (m ((c : Thread nD τ).loc main_arg1)) := (keep_W7 m ρ c ⟨19, by decide⟩).trans (dst_W1 m ρ c)
theorem dis_W7 : W7 m ρ c (Proc.devRef .tc main_v10) = val_main_v10 (F := Ideal) (m ((c : Thread nD τ).loc main_arg1)) := (keep_W7 m ρ c ⟨20, by decide⟩).trans (dis_W1 m ρ c)
theorem dcol_W7 : W7 m ρ c (Proc.devRef .tc main_v11) = Cert.Stages.dcol (m ((c : Thread nD τ).loc main_arg1)) := (keep_W7 m ρ c ⟨21, by decide⟩).trans (dcol_W1 m ρ c)

/-- The carried buffers at boundary 8. -/
theorem src_W8 : W8 m ρ c (Proc.devRef .tc main_v1) = val_main_v1 (F := Ideal) (m ((c : Thread nD τ).loc main_arg1)) := (keep_W8 m ρ c ⟨18, by decide⟩).trans (src_W1 m ρ c)
theorem dst_W8 : W8 m ρ c (Proc.devRef .tc main_v3) = val_main_v3 (F := Ideal) (m ((c : Thread nD τ).loc main_arg1)) := (keep_W8 m ρ c ⟨19, by decide⟩).trans (dst_W1 m ρ c)
theorem dis_W8 : W8 m ρ c (Proc.devRef .tc main_v10) = val_main_v10 (F := Ideal) (m ((c : Thread nD τ).loc main_arg1)) := (keep_W8 m ρ c ⟨20, by decide⟩).trans (dis_W1 m ρ c)
theorem dcol_W8 : W8 m ρ c (Proc.devRef .tc main_v11) = Cert.Stages.dcol (m ((c : Thread nD τ).loc main_arg1)) := (keep_W8 m ρ c ⟨21, by decide⟩).trans (dcol_W1 m ρ c)

/-- The carried buffers at boundary 9. -/
theorem src_W9 : W9 m ρ c (Proc.devRef .tc main_v1) = val_main_v1 (F := Ideal) (m ((c : Thread nD τ).loc main_arg1)) := (keep_W9 m ρ c ⟨18, by decide⟩).trans (src_W1 m ρ c)
theorem dst_W9 : W9 m ρ c (Proc.devRef .tc main_v3) = val_main_v3 (F := Ideal) (m ((c : Thread nD τ).loc main_arg1)) := (keep_W9 m ρ c ⟨19, by decide⟩).trans (dst_W1 m ρ c)
theorem dis_W9 : W9 m ρ c (Proc.devRef .tc main_v10) = val_main_v10 (F := Ideal) (m ((c : Thread nD τ).loc main_arg1)) := (keep_W9 m ρ c ⟨20, by decide⟩).trans (dis_W1 m ρ c)
theorem dcol_W9 : W9 m ρ c (Proc.devRef .tc main_v11) = Cert.Stages.dcol (m ((c : Thread nD τ).loc main_arg1)) := (keep_W9 m ρ c ⟨21, by decide⟩).trans (dcol_W1 m ρ c)

/-- The carried buffers at boundary 10. -/
theorem src_W10 : W10 m ρ c (Proc.devRef .tc main_v1) = val_main_v1 (F := Ideal) (m ((c : Thread nD τ).loc main_arg1)) := (keep_W10 m ρ c ⟨18, by decide⟩).trans (src_W1 m ρ c)
theorem dst_W10 : W10 m ρ c (Proc.devRef .tc main_v3) = val_main_v3 (F := Ideal) (m ((c : Thread nD τ).loc main_arg1)) := (keep_W10 m ρ c ⟨19, by decide⟩).trans (dst_W1 m ρ c)
theorem dis_W10 : W10 m ρ c (Proc.devRef .tc main_v10) = val_main_v10 (F := Ideal) (m ((c : Thread nD τ).loc main_arg1)) := (keep_W10 m ρ c ⟨20, by decide⟩).trans (dis_W1 m ρ c)
theorem dcol_W10 : W10 m ρ c (Proc.devRef .tc main_v11) = Cert.Stages.dcol (m ((c : Thread nD τ).loc main_arg1)) := (keep_W10 m ρ c ⟨21, by decide⟩).trans (dcol_W1 m ρ c)

/-! ## The arguments where the program reads them -/

theorem arg3_W2 : W2 m ρ c (Proc.devRef .tc main_arg3) = (m ((c : Thread nD τ).loc main_arg3)) := (keep_W2 m ρ c ⟨3, by decide⟩).trans (arg_W1 m ρ c ⟨3, by decide⟩)
theorem arg4_W4 : W4 m ρ c (Proc.devRef .tc main_arg4) = (m ((c : Thread nD τ).loc main_arg4)) := (keep_W4 m ρ c ⟨4, by decide⟩).trans (arg_W1 m ρ c ⟨4, by decide⟩)
theorem arg5_W5 : W5 m ρ c (Proc.devRef .tc main_arg5) = (m ((c : Thread nD τ).loc main_arg5)) := (keep_W5 m ρ c ⟨5, by decide⟩).trans (arg_W1 m ρ c ⟨5, by decide⟩)
theorem arg10_W5 : W5 m ρ c (Proc.devRef .tc main_arg10) = (m ((c : Thread nD τ).loc main_arg10)) := (keep_W5 m ρ c ⟨10, by decide⟩).trans (arg_W1 m ρ c ⟨10, by decide⟩)
theorem arg11_W5 : W5 m ρ c (Proc.devRef .tc main_arg11) = (m ((c : Thread nD τ).loc main_arg11)) := (keep_W5 m ρ c ⟨11, by decide⟩).trans (arg_W1 m ρ c ⟨11, by decide⟩)
theorem arg12_W5 : W5 m ρ c (Proc.devRef .tc main_arg12) = (m ((c : Thread nD τ).loc main_arg12)) := (keep_W5 m ρ c ⟨12, by decide⟩).trans (arg_W1 m ρ c ⟨12, by decide⟩)
theorem arg13_W5 : W5 m ρ c (Proc.devRef .tc main_arg13) = (m ((c : Thread nD τ).loc main_arg13)) := (keep_W5 m ρ c ⟨13, by decide⟩).trans (arg_W1 m ρ c ⟨13, by decide⟩)
theorem arg6_W7 : W7 m ρ c (Proc.devRef .tc main_arg6) = (m ((c : Thread nD τ).loc main_arg6)) := (keep_W7 m ρ c ⟨6, by decide⟩).trans (arg_W1 m ρ c ⟨6, by decide⟩)
theorem arg7_W8 : W8 m ρ c (Proc.devRef .tc main_arg7) = (m ((c : Thread nD τ).loc main_arg7)) := (keep_W8 m ρ c ⟨7, by decide⟩).trans (arg_W1 m ρ c ⟨7, by decide⟩)
theorem arg14_W8 : W8 m ρ c (Proc.devRef .tc main_arg14) = (m ((c : Thread nD τ).loc main_arg14)) := (keep_W8 m ρ c ⟨14, by decide⟩).trans (arg_W1 m ρ c ⟨14, by decide⟩)
theorem arg15_W8 : W8 m ρ c (Proc.devRef .tc main_arg15) = (m ((c : Thread nD τ).loc main_arg15)) := (keep_W8 m ρ c ⟨15, by decide⟩).trans (arg_W1 m ρ c ⟨15, by decide⟩)
theorem arg16_W8 : W8 m ρ c (Proc.devRef .tc main_arg16) = (m ((c : Thread nD τ).loc main_arg16)) := (keep_W8 m ρ c ⟨16, by decide⟩).trans (arg_W1 m ρ c ⟨16, by decide⟩)
theorem arg17_W8 : W8 m ρ c (Proc.devRef .tc main_arg17) = (m ((c : Thread nD τ).loc main_arg17)) := (keep_W8 m ρ c ⟨17, by decide⟩).trans (arg_W1 m ρ c ⟨17, by decide⟩)
theorem arg8_W10 : W10 m ρ c (Proc.devRef .tc main_arg8) = (m ((c : Thread nD τ).loc main_arg8)) := (keep_W10 m ρ c ⟨8, by decide⟩).trans (arg_W1 m ρ c ⟨8, by decide⟩)
theorem arg9_W10 : W10 m ρ c (Proc.devRef .tc main_arg9) = (m ((c : Thread nD τ).loc main_arg9)) := (keep_W10 m ρ c ⟨9, by decide⟩).trans (arg_W1 m ρ c ⟨9, by decide⟩)

/-! ## The first layer -/

theorem hws0_W2 : W2 m ρ c (Proc.devRef .tc main_v12) = (Cert.Stages.hws (m ((c : Thread nD τ).loc main_arg1)) (m ((c : Thread nD τ).loc main_arg0)) (m ((c : Thread nD τ).loc main_arg2))) := by
  refine (W2_arr m ρ c 3).trans ((Cert.KernelIdeal.RegionValue.final0 (V1 m ρ) c).trans ?_)
  have e0 : V1 m ρ c (Pipeline.arrRef spec0 0) = (m ((c : Thread nD τ).loc main_arg0)) := arg_W1 m ρ c ⟨0, by decide⟩
  have e1 : V1 m ρ c (Pipeline.arrRef spec0 1) = (m ((c : Thread nD τ).loc main_arg2)) := arg_W1 m ρ c ⟨2, by decide⟩
  have e2 : V1 m ρ c (Pipeline.arrRef spec0 2) = Cert.Stages.dcol (m ((c : Thread nD τ).loc main_arg1)) := dcol_W1 m ρ c
  rw [e0, e1, e2]; rfl

theorem hws0_W3 : W3 m ρ c (Proc.devRef .tc main_v12) = (Cert.Stages.hws (m ((c : Thread nD τ).loc main_arg1)) (m ((c : Thread nD τ).loc main_arg0)) (m ((c : Thread nD τ).loc main_arg2))) := by
  dsimp only [W3, hostOps1]; after_results; exact hws0_W2 m ρ c

theorem agg0_W3 : W3 m ρ c (Proc.devRef .tc main_v22) = (Cert.Stages.agg (m ((c : Thread nD τ).loc main_arg1)) (Cert.Stages.hws (m ((c : Thread nD τ).loc main_arg1)) (m ((c : Thread nD τ).loc main_arg0)) (m ((c : Thread nD τ).loc main_arg2)))) := by
  dsimp only [W3, hostOps1]
  after_results_simp
  rw [hws0_W2 m ρ c, src_W2 m ρ c, dst_W2 m ρ c]
  rfl

theorem b0_W3 : W3 m ρ c (Proc.devRef .tc main_v23) = Cert.Stages.prow (m ((c : Thread nD τ).loc main_arg3)) := by
  dsimp only [W3, hostOps1]
  after_results
  rw [arg3_W2 m ρ c]
  rfl

theorem h1_W4 : W4 m ρ c (Proc.devRef .tc main_v24) = (Cert.Stages.h1 (m ((c : Thread nD τ).loc main_arg0)) (m ((c : Thread nD τ).loc main_arg1)) (m ((c : Thread nD τ).loc main_arg2)) (m ((c : Thread nD τ).loc main_arg3))) := by
  refine (W4_arr m ρ c 4).trans ((Cert.KernelIdeal.RegionValue.final1 (V3 m ρ) c).trans ?_)
  have e0 : V3 m ρ c (Pipeline.arrRef spec1 0) = _ := hws0_W3 m ρ c
  have e1 : V3 m ρ c (Pipeline.arrRef spec1 1) = _ := agg0_W3 m ρ c
  have e2 : V3 m ρ c (Pipeline.arrRef spec1 2) = _ := dcol_W3 m ρ c
  have e3 : V3 m ρ c (Pipeline.arrRef spec1 3) = _ := b0_W3 m ρ c
  rw [e0, e1, e2, e3]; rfl

end Cert.KernelIdeal.Fold

end
-- ==== Proof.RegionMatmul2.lean ====
/-
  The second scaled product as one array.

  The grid has 20 points; point `t` takes rows `5000·t … 5000·t + 4999` of the features and of the scale column and the
  whole weights, and writes back rows `5000·t … 5000·t + 4999` of the result. What it writes back is that block of the
  whole-array scaled product of the three arrays as the region finds them: each operand entry the body reads sits in
  its array at the block's row offset. The 20 blocks cover all 100000 rows (row `r` is in block `r / 5000`), so the
  result array ends as the scaled product.
-/
import proofs.«145619_j27719718928688_2_alg».proof.Proof.Gen.KernelIdeal.Frame
import proofs.«145619_j27719718928688_2_alg».proof.Proof.RegionMatmulPay
import Idealize.ShloMosaic.Lib.Pipeline.Value

noncomputable section

namespace Cert.KernelIdeal.RegionValue

open Cert.KernelIdeal Cert.KernelIdeal.Gen Idealize.ShloMosaic Idealize.ShloMosaic.ValueIdx Idealize.ShloMosaic.TcCoe
open Cert.Spec

/-- The block indices over the grid: the three row-blocked windows sit at block row `t`, the weights at their one block. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What point `t` writes back is block `t` of the scaled product of the arrays as the region finds them. -/
theorem flushed2 (c : Dev nD) (t : Fin cfg2.N) :
    (dat2 (F := Ideal) V c).flushed 3 t
      = ((cfg2.win 3).blk t).view.read (Elt Ideal)
          (mmScaled (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S5000x1) hz]
  obtain ⟨e00, e01, e10, e11, e20, e21, e30, e31⟩ := idx_facts2 t
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
      = mmScaled (V c (Pipeline.arrRef spec2 0)) (V c (Pipeline.arrRef spec2 1)) (V c (Pipeline.arrRef spec2 2))
          (((cfg2.win 3).blk t).view.emb (ix2 p q))
  refine (congrFun (k2_pay1_eq (iblk2 V c 0 t) (iblk2 V c 1 t) (iblk2 V c 2 t)) (ix2 p q)).trans ?_
  refine mmScaled_of_blocks (iblk2 V c 0 t) (iblk2 V c 1 t) (iblk2 V c 2 t) _ _ _ p q _ (fun k => ?_) (fun k => ?_) ?_
  · show V c (Pipeline.arrRef spec2 0) (((cfg2.win 0).blk t).view.emb (ix2 p k)) = V c (Pipeline.arrRef spec2 0) _
    refine congrArg _ (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * k.val = k.val; omega
  · show V c (Pipeline.arrRef spec2 1) (((cfg2.win 1).blk t).view.emb (ix2 k q)) = V c (Pipeline.arrRef spec2 1) _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = win2_3.index t (1 : Fin 2) * 128 + 1 * q.val; omega
  · show V c (Pipeline.arrRef spec2 2) (((cfg2.win 2).blk t).view.emb (ix2 p (0 : Fin 1))) = V c (Pipeline.arrRef spec2 2) _
    refine congrArg _ (funext fun a => Fin.ext ?_)
    match a with
    | ⟨0, _⟩ => show win2_2.index t (0 : Fin 2) * 5000 + 1 * p.val = win2_3.index t (0 : Fin 2) * 5000 + 1 * p.val; omega
    | ⟨1, _⟩ => show win2_2.index t (1 : Fin 2) * 1 + 1 * 0 = 0; omega

/-- THE RESULT ARRAY after the region: the scaled product of the three arrays the region finds. -/
theorem final2 (c : Dev nD) :
    (dat2 (F := Ideal) V c).arrAt 3 cfg2.N
      = mmScaled (V c (Pipeline.arrRef spec2 0)) (V c (Pipeline.arrRef spec2 1)) (V c (Pipeline.arrRef spec2 2)) :=
  (dat2 V c).arrAt_eq_of_cover 3 _ (fun t _ => flushed2 V c t) fun i => by
    have hi0 : (i 0).val < 100000 := (i 0).isLt
    have hi1 : (i 1).val < 128 := (i 1).isLt
    obtain ⟨t, ht⟩ : ∃ t : Fin cfg2.N, t.val = (i 0).val / 5000 :=
      ⟨⟨(i 0).val / 5000, by rw [show cfg2.N = 20 from N_2]; omega⟩, rfl⟩
    obtain ⟨e00, e01, e10, e11, e20, e21, e30, e31⟩ := idx_facts2 t
    refine ⟨t, flush2_3 t, ?_⟩
    show i ∈ ((View.whole main_v25).slice (win2_3.rect t)).set
    rw [View.set_slice_whole, Rect.mem_set_unit]
    intro a
    match a with
    | ⟨0, _⟩ => show win2_3.index t (0 : Fin 2) * 5000 ≤ (i 0).val ∧ (i 0).val < win2_3.index t (0 : Fin 2) * 5000 + 5000; omega
    | ⟨1, _⟩ => show win2_3.index t (1 : Fin 2) * 128 ≤ (i 1).val ∧ (i 1).val < win2_3.index t (1 : Fin 2) * 128 + 128; omega

end Cert.KernelIdeal.RegionValue

end
-- ==== Proof.RegionBn3Reads.lean ====
/-
  The second layer's closing region: each window's block as entries of its array.

  At grid point `t` the four row-blocked windows (scaled product, edge sum, residual: 5000×128; scale: 5000×1) sit at
  block row `t`, so entry `(p, ·)` of such a block is row `5000·t + p` of its array; the five parameter rows have one
  block, the whole row. The arrays are named once at their literal types, and each block read is stated for a
  variable array index with its two coordinates given, so that it serves whatever index the output block names.
-/
import proofs.«145619_j27719718928688_2_alg».proof.Proof.Gen.KernelIdeal.Frame
import proofs.«145619_j27719718928688_2_alg».proof.Proof.Spec
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.ValueIdx Idealize.ShloMosaic.TcCoe
open Cert.Spec

/-- The block indices over the grid: the row-blocked windows sit at block row `t`, the parameter rows at their one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = t.val ∧ win3_8.index t (1 : Fin 2) = 0
    ∧ win3_9.index t (0 : Fin 2) = t.val ∧ win3_9.index t (1 : Fin 2) = 0 :=
  (by decide +kernel : ∀ t : Fin grid3.N, _)

variable (V : (c : Dev nD) → (b : Ref sig .tc) → Buf (Elt Ideal) ((c : Thread nD τ).loc b))

/-- Window 0's array as the region finds it, at its literal type. -/
abbrev arr3_0 (c : Dev nD) : FVec Ideal SNodes128 .f32 := V c (Pipeline.arrRef spec3 0)
/-- Window 1's array as the region finds it, at its literal type. -/
abbrev arr3_1 (c : Dev nD) : FVec Ideal SNodes128 .f32 := V c (Pipeline.arrRef spec3 1)
/-- Window 2's array as the region finds it, at its literal type. -/
abbrev arr3_2 (c : Dev nD) : FVec Ideal SNodes1 .f32 := V c (Pipeline.arrRef spec3 2)
/-- Window 3's array as the region finds it, at its literal type. -/
abbrev arr3_3 (c : Dev nD) : FVec Ideal SRow .f32 := V c (Pipeline.arrRef spec3 3)
/-- Window 4's array as the region finds it, at its literal type. -/
abbrev arr3_4 (c : Dev nD) : FVec Ideal SRow .f32 := V c (Pipeline.arrRef spec3 4)
/-- Window 5's array as the region finds it, at its literal type. -/
abbrev arr3_5 (c : Dev nD) : FVec Ideal SRow .f32 := V c (Pipeline.arrRef spec3 5)
/-- Window 6's array as the region finds it, at its literal type. -/
abbrev arr3_6 (c : Dev nD) : FVec Ideal SRow .f32 := V c (Pipeline.arrRef spec3 6)
/-- Window 7's array as the region finds it, at its literal type. -/
abbrev arr3_7 (c : Dev nD) : FVec Ideal SRow .f32 := V c (Pipeline.arrRef spec3 7)
/-- Window 8's array as the region finds it, at its literal type. -/
abbrev arr3_8 (c : Dev nD) : FVec Ideal SNodes128 .f32 := V c (Pipeline.arrRef spec3 8)

/-- Window 0's block at `(p, q)` is its array at row `5000·t + p`, column `q`. -/
theorem read3_0 (c : Dev nD) (t : Fin cfg3.N) (p : Fin 5000) (q : Fin 128) (i : SNodes128.Idx)
    (h0 : (i 0).val = t.val * 5000 + p.val) (h1 : (i 1).val = q.val) :
    iblk3 V c 0 t (ix2 p q) = arr3_0 V c i := by
  obtain ⟨e00, e01, e10, e11, e20, e21, e30, e31, e40, e41, e50, e51, e60, e61, e70, e71, e80, e81, e90, e91⟩ := idx_facts3 t
  show V c (Pipeline.arrRef spec3 0) (((cfg3.win 0).blk t).view.emb (ix2 p q)) = V c (Pipeline.arrRef spec3 0) i
  refine congrArg _ (funext fun a => Fin.ext ?_)
  match a with
  | ⟨0, _⟩ => show win3_0.index t (0 : Fin 2) * 5000 + 1 * p.val = (i 0).val; omega
  | ⟨1, _⟩ => show win3_0.index t (1 : Fin 2) * 128 + 1 * q.val = (i 1).val; omega

/-- Window 1's block at `(p, q)` is its array at row `5000·t + p`, column `q`. -/
theorem read3_1 (c : Dev nD) (t : Fin cfg3.N) (p : Fin 5000) (q : Fin 128) (i : SNodes128.Idx)
    (h0 : (i 0).val = t.val * 5000 + p.val) (h1 : (i 1).val = q.val) :
    iblk3 V c 1 t (ix2 p q) = arr3_1 V c i := by
  obtain ⟨e00, e01, e10, e11, e20, e21, e30, e31, e40, e41, e50, e51, e60, e61, e70, e71, e80, e81, e90, e91⟩ := idx_facts3 t
  show V c (Pipeline.arrRef spec3 1) (((cfg3.win 1).blk t).view.emb (ix2 p q)) = V c (Pipeline.arrRef spec3 1) i
  refine congrArg _ (funext fun a => Fin.ext ?_)
  match a with
  | ⟨0, _⟩ => show win3_1.index t (0 : Fin 2) * 5000 + 1 * p.val = (i 0).val; omega
  | ⟨1, _⟩ => show win3_1.index t (1 : Fin 2) * 128 + 1 * q.val = (i 1).val; omega

/-- Window 2's block at `(p, 0)` is its column at row `5000·t + p`. -/
theorem read3_2 (c : Dev nD) (t : Fin cfg3.N) (p : Fin 5000) (i : SNodes128.Idx)
    (h0 : (i 0).val = t.val * 5000 + p.val) :
    iblk3 V c 2 t (ix2 p (0 : Fin 1)) = arr3_2 V c (ix2 (nodeOf i) (0 : Fin 1)) := by
  obtain ⟨e00, e01, e10, e11, e20, e21, e30, e31, e40, e41, e50, e51, e60, e61, e70, e71, e80, e81, e90, e91⟩ := idx_facts3 t
  show V c (Pipeline.arrRef spec3 2) (((cfg3.win 2).blk t).view.emb (ix2 p (0 : Fin 1)))
      = V c (Pipeline.arrRef spec3 2) (ix2 (nodeOf i) (0 : Fin 1))
  refine congrArg _ (funext fun a => Fin.ext ?_)
  match a with
  | ⟨0, _⟩ => show win3_2.index t (0 : Fin 2) * 5000 + 1 * p.val = (i 0).val; omega
  | ⟨1, _⟩ => show win3_2.index t (1 : Fin 2) * 1 + 1 * 0 = 0; omega

/-- Window 3's one block at `(0, q)` is its row at column `q`. -/
theorem read3_3 (c : Dev nD) (t : Fin cfg3.N) (q : Fin 128) (i : SNodes128.Idx) (h1 : (i 1).val = q.val) :
    iblk3 V c 3 t (ix2 (0 : Fin 1) q) = arr3_3 V c (ix2 (0 : Fin 1) (colOf i)) := by
  obtain ⟨e00, e01, e10, e11, e20, e21, e30, e31, e40, e41, e50, e51, e60, e61, e70, e71, e80, e81, e90, e91⟩ := idx_facts3 t
  show V c (Pipeline.arrRef spec3 3) (((cfg3.win 3).blk t).view.emb (ix2 (0 : Fin 1) q))
      = V c (Pipeline.arrRef spec3 3) (ix2 (0 : Fin 1) (colOf i))
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * q.val = (i 1).val; omega

/-- Window 4's one block at `(0, q)` is its row at column `q`. -/
theorem read3_4 (c : Dev nD) (t : Fin cfg3.N) (q : Fin 128) (i : SNodes128.Idx) (h1 : (i 1).val = q.val) :
    iblk3 V c 4 t (ix2 (0 : Fin 1) q) = arr3_4 V c (ix2 (0 : Fin 1) (colOf i)) := by
  obtain ⟨e00, e01, e10, e11, e20, e21, e30, e31, e40, e41, e50, e51, e60, e61, e70, e71, e80, e81, e90, e91⟩ := idx_facts3 t
  show V c (Pipeline.arrRef spec3 4) (((cfg3.win 4).blk t).view.emb (ix2 (0 : Fin 1) q))
      = V c (Pipeline.arrRef spec3 4) (ix2 (0 : Fin 1) (colOf i))
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * q.val = (i 1).val; omega

/-- Window 5's one block at `(0, q)` is its row at column `q`. -/
theorem read3_5 (c : Dev nD) (t : Fin cfg3.N) (q : Fin 128) (i : SNodes128.Idx) (h1 : (i 1).val = q.val) :
    iblk3 V c 5 t (ix2 (0 : Fin 1) q) = arr3_5 V c (ix2 (0 : Fin 1) (colOf i)) := by
  obtain ⟨e00, e01, e10, e11, e20, e21, e30, e31, e40, e41, e50, e51, e60, e61, e70, e71, e80, e81, e90, e91⟩ := idx_facts3 t
  show V c (Pipeline.arrRef spec3 5) (((cfg3.win 5).blk t).view.emb (ix2 (0 : Fin 1) q))
      = V c (Pipeline.arrRef spec3 5) (ix2 (0 : Fin 1) (colOf i))
  refine congrArg _ (funext fun a => Fin.ext ?_)
  match a with
  | ⟨0, _⟩ => show win3_5.index t (0 : Fin 2) * 1 + 1 * 0 = 0; omega
  | ⟨1, _⟩ => show win3_5.index t (1 : Fin 2) * 128 + 1 * q.val = (i 1).val; omega

/-- Window 6's one block at `(0, q)` is its row at column `q`. -/
theorem read3_6 (c : Dev nD) (t : Fin cfg3.N) (q : Fin 128) (i : SNodes128.Idx) (h1 : (i 1).val = q.val) :
    iblk3 V c 6 t (ix2 (0 : Fin 1) q) = arr3_6 V c (ix2 (0 : Fin 1) (colOf i)) := by
  obtain ⟨e00, e01, e10, e11, e20, e21, e30, e31, e40, e41, e50, e51, e60, e61, e70, e71, e80, e81, e90, e91⟩ := idx_facts3 t
  show V c (Pipeline.arrRef spec3 6) (((cfg3.win 6).blk t).view.emb (ix2 (0 : Fin 1) q))
      = V c (Pipeline.arrRef spec3 6) (ix2 (0 : Fin 1) (colOf i))
  refine congrArg _ (funext fun a => Fin.ext ?_)
  match a with
  | ⟨0, _⟩ => show win3_6.index t (0 : Fin 2) * 1 + 1 * 0 = 0; omega
  | ⟨1, _⟩ => show win3_6.index t (1 : Fin 2) * 128 + 1 * q.val = (i 1).val; omega

/-- Window 7's one block at `(0, q)` is its row at column `q`. -/
theorem read3_7 (c : Dev nD) (t : Fin cfg3.N) (q : Fin 128) (i : SNodes128.Idx) (h1 : (i 1).val = q.val) :
    iblk3 V c 7 t (ix2 (0 : Fin 1) q) = arr3_7 V c (ix2 (0 : Fin 1) (colOf i)) := by
  obtain ⟨e00, e01, e10, e11, e20, e21, e30, e31, e40, e41, e50, e51, e60, e61, e70, e71, e80, e81, e90, e91⟩ := idx_facts3 t
  show V c (Pipeline.arrRef spec3 7) (((cfg3.win 7).blk t).view.emb (ix2 (0 : Fin 1) q))
      = V c (Pipeline.arrRef spec3 7) (ix2 (0 : Fin 1) (colOf i))
  refine congrArg _ (funext fun a => Fin.ext ?_)
  match a with
  | ⟨0, _⟩ => show win3_7.index t (0 : Fin 2) * 1 + 1 * 0 = 0; omega
  | ⟨1, _⟩ => show win3_7.index t (1 : Fin 2) * 128 + 1 * q.val = (i 1).val; omega

/-- Window 8's block at `(p, q)` is its array at row `5000·t + p`, column `q`. -/
theorem read3_8 (c : Dev nD) (t : Fin cfg3.N) (p : Fin 5000) (q : Fin 128) (i : SNodes128.Idx)
    (h0 : (i 0).val = t.val * 5000 + p.val) (h1 : (i 1).val = q.val) :
    iblk3 V c 8 t (ix2 p q) = arr3_8 V c i := by
  obtain ⟨e00, e01, e10, e11, e20, e21, e30, e31, e40, e41, e50, e51, e60, e61, e70, e71, e80, e81, e90, e91⟩ := idx_facts3 t
  show V c (Pipeline.arrRef spec3 8) (((cfg3.win 8).blk t).view.emb (ix2 p q)) = V c (Pipeline.arrRef spec3 8) i
  refine congrArg _ (funext fun a => Fin.ext ?_)
  match a with
  | ⟨0, _⟩ => show win3_8.index t (0 : Fin 2) * 5000 + 1 * p.val = (i 0).val; omega
  | ⟨1, _⟩ => show win3_8.index t (1 : Fin 2) * 128 + 1 * q.val = (i 1).val; omega

end Cert.KernelIdeal.RegionValue

end
-- ==== Proof.RegionBn3.lean ====
/-
  The second layer's closing region as one array.

  The grid has 20 points; point `t` takes rows `5000·t … 5000·t + 4999` of the scaled product, of the edge sum, of the
  scale column and of the residual, and the five whole parameter rows (bias, γ, β, running mean, running variance),
  and writes back the same rows of the result. What it writes back is that block of `combBn` of the nine arrays as the
  region finds them: every entry the body reads sits in its array at the block's row offset (a parameter row's at its
  own column). The 20 blocks cover all 100000 rows, so the result array ends as `combBn` of the nine arrays.
-/
import proofs.«145619_j27719718928688_2_alg».proof.Proof.Gen.KernelIdeal.Frame
import proofs.«145619_j27719718928688_2_alg».proof.Proof.RegionCombPay
import proofs.«145619_j27719718928688_2_alg».proof.Proof.RegionBn3Reads
import Idealize.ShloMosaic.Lib.Pipeline.Value

noncomputable section

namespace Cert.KernelIdeal.RegionValue

open Cert.KernelIdeal Cert.KernelIdeal.Gen Idealize.ShloMosaic Idealize.ShloMosaic.ValueIdx Idealize.ShloMosaic.TcCoe
open Cert.Spec

variable (V : (c : Dev nD) → (b : Ref sig .tc) → Buf (Elt Ideal) ((c : Thread nD τ).loc b))

/-- What point `t` writes back is the body's result of the nine input blocks at `t`. -/
theorem body3 (c : Dev nD) (t : Fin cfg3.N) :
    (dat3 (F := Ideal) V c).flushed 9 t
      = k3_pay1 (iblk3 V c 2 t) (iblk3 V c 1 t) (iblk3 V c 0 t) (iblk3 V c 3 t) (iblk3 V c 4 t) (iblk3 V c 7 t) (iblk3 V c 6 t) (iblk3 V c 5 t) (iblk3 V c 8 t) := by
  show (cfg3.win 9).cut (grid3.coords t) ((dat3 V c).after 9 t) = _
  rw [after3_9]
  unfold out3_9
  rw [View.canon_unit_zero offsets_zero]
  simp only [View.ld_unit_zero (S := S5000x128) offsets_zero, View.ld_unit_zero (S := S5000x1) offsets_zero,
    View.ld_unit_zero (S := S1x128) offsets_zero]
  rfl

/-- Reading a whole-array function through the output's block at `t` evaluates it at the block's place in the array. -/
theorem read_out3 (G : FVec Ideal SNodes128 .f32) (t : Fin cfg3.N) (y : S5000x128.Idx) :
    ((cfg3.win 9).blk t).view.read (Elt Ideal) G y = G (((cfg3.win 9).blk t).view.emb y) := rfl

/-- The output block's entry `(p, q)` sits at row `5000·t + p`, column `q` of the array. -/
theorem emb_out3 (t : Fin cfg3.N) (p : Fin 5000) (q : Fin 128) (i : SNodes128.Idx)
    (hi : i = ((cfg3.win 9).blk t).view.emb (ix2 p q)) :
    (i 0).val = t.val * 5000 + p.val ∧ (i 1).val = q.val := by
  obtain ⟨e00, e01, e10, e11, e20, e21, e30, e31, e40, e41, e50, e51, e60, e61, e70, e71, e80, e81, e90, e91⟩ := idx_facts3 t
  subst hi
  constructor
  · show win3_9.index t (0 : Fin 2) * 5000 + 1 * p.val = _; omega
  · show win3_9.index t (1 : Fin 2) * 128 + 1 * q.val = _; omega

/-- What point `t` writes back is block `t` of `combBn` of the arrays as the region finds them. -/
theorem flushed3 (c : Dev nD) (t : Fin cfg3.N) :
    (dat3 (F := Ideal) V c).flushed 9 t
      = ((cfg3.win 9).blk t).view.read (Elt Ideal) (combBn (arr3_0 V c) (arr3_1 V c) (arr3_2 V c) (arr3_3 V c) (arr3_4 V c) (arr3_5 V c) (arr3_6 V c) (arr3_7 V c) (arr3_8 V c)) := by
  refine (body3 V c t).trans (funext fun j => ?_)
  obtain ⟨p, q, rfl⟩ : ∃ (p : Fin 5000) (q : Fin 128), j = ix2 p q := ⟨j 0, j 1, eq_ix2 j⟩
  rw [read_out3]
  generalize hi : ((cfg3.win 9).blk t).view.emb (ix2 p q) = i
  obtain ⟨h0, h1⟩ := emb_out3 t p q i hi.symm
  exact combBn_of_blocks (iblk3 V c 0 t) (iblk3 V c 1 t) (iblk3 V c 2 t) (iblk3 V c 3 t) (iblk3 V c 4 t) (iblk3 V c 5 t) (iblk3 V c 6 t) (iblk3 V c 7 t) (iblk3 V c 8 t) (arr3_0 V c) (arr3_1 V c) (arr3_2 V c) (arr3_3 V c) (arr3_4 V c) (arr3_5 V c) (arr3_6 V c) (arr3_7 V c) (arr3_8 V c) p q i
    (read3_0 V c t p q i h0 h1) (read3_1 V c t p q i h0 h1) (read3_2 V c t p i h0)
    (read3_3 V c t q i h1) (read3_4 V c t q i h1) (read3_5 V c t q i h1) (read3_6 V c t q i h1)
    (read3_7 V c t q i h1) (read3_8 V c t p q i h0 h1)

/-- THE RESULT ARRAY after the region: `combBn` of the nine arrays the region finds. -/
theorem final3 (c : Dev nD) :
    (dat3 (F := Ideal) V c).arrAt 9 cfg3.N
      = combBn (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) :=
  (dat3 V c).arrAt_eq_of_cover 9 (combBn (arr3_0 V c) (arr3_1 V c) (arr3_2 V c) (arr3_3 V c) (arr3_4 V c) (arr3_5 V c) (arr3_6 V c) (arr3_7 V c) (arr3_8 V c)) (fun t _ => flushed3 V c t) fun i => by
    have hi0 : (i 0).val < 100000 := (i 0).isLt
    have hi1 : (i 1).val < 128 := (i 1).isLt
    obtain ⟨t, ht⟩ : ∃ t : Fin cfg3.N, t.val = (i 0).val / 5000 :=
      ⟨⟨(i 0).val / 5000, by rw [show cfg3.N = 20 from N_3]; omega⟩, rfl⟩
    obtain ⟨e00, e01, e10, e11, e20, e21, e30, e31, e40, e41, e50, e51, e60, e61, e70, e71, e80, e81, e90, e91⟩ := idx_facts3 t
    refine ⟨t, flush3_9 t, ?_⟩
    show i ∈ ((View.whole main_v41).slice (win3_9.rect t)).set
    rw [View.set_slice_whole, Rect.mem_set_unit]
    intro a
    match a with
    | ⟨0, _⟩ => show win3_9.index t (0 : Fin 2) * 5000 ≤ (i 0).val ∧ (i 0).val < win3_9.index t (0 : Fin 2) * 5000 + 5000; omega
    | ⟨1, _⟩ => show win3_9.index t (1 : Fin 2) * 128 ≤ (i 1).val ∧ (i 1).val < win3_9.index t (1 : Fin 2) * 128 + 128; omega

end Cert.KernelIdeal.RegionValue

end
-- ==== Proof.KFoldB.lean ====
/-
  The kernel program's buffers through the second layer: the scaled product of the first layer's output, the edge sum of
  its gathered rows, the reshaped bias and batch-normalisation parameters, and the launch that finishes the layer with the
  first layer's output as the residual: `Stages.h2`.
-/
import proofs.«145619_j27719718928688_2_alg».proof.Proof.KFoldA
import proofs.«145619_j27719718928688_2_alg».proof.Proof.RegionMatmul2
import proofs.«145619_j27719718928688_2_alg».proof.Proof.RegionBn3

set_option maxRecDepth 16384
set_option maxHeartbeats 4000000

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

theorem hws1_W5 : W5 m ρ c (Proc.devRef .tc main_v25) = (Cert.Stages.hws (m ((c : Thread nD τ).loc main_arg1)) (Cert.Stages.h1 (m ((c : Thread nD τ).loc main_arg0)) (m ((c : Thread nD τ).loc main_arg1)) (m ((c : Thread nD τ).loc main_arg2)) (m ((c : Thread nD τ).loc main_arg3))) (m ((c : Thread nD τ).loc main_arg4))) := by
  refine (W5_arr m ρ c 3).trans ((Cert.KernelIdeal.RegionValue.final2 (V4 m ρ) c).trans ?_)
  have e0 : V4 m ρ c (Pipeline.arrRef spec2 0) = _ := h1_W4 m ρ c
  have e1 : V4 m ρ c (Pipeline.arrRef spec2 1) = (m ((c : Thread nD τ).loc main_arg4)) := arg4_W4 m ρ c
  have e2 : V4 m ρ c (Pipeline.arrRef spec2 2) = _ := dcol_W4 m ρ c
  rw [e0, e1, e2]; rfl

/-- The launch that forms the product reads the previous layer's output through an input window and leaves it as found. -/
theorem h1_W5 : W5 m ρ c (Proc.devRef .tc main_v24) = (Cert.Stages.h1 (m ((c : Thread nD τ).loc main_arg0)) (m ((c : Thread nD τ).loc main_arg1)) (m ((c : Thread nD τ).loc main_arg2)) (m ((c : Thread nD τ).loc main_arg3))) :=
  (W5_arr m ρ c 0).trans (((dat2 (V4 m ρ) c).arrAt_in 0 rfl _).trans ((A_eq2 (V4 m ρ) c 0).trans (h1_W4 m ρ c)))

theorem h1_W6 : W6 m ρ c (Proc.devRef .tc main_v24) = (Cert.Stages.h1 (m ((c : Thread nD τ).loc main_arg0)) (m ((c : Thread nD τ).loc main_arg1)) (m ((c : Thread nD τ).loc main_arg2)) (m ((c : Thread nD τ).loc main_arg3))) := by
  dsimp only [W6, hostOps3]; after_results; exact h1_W5 m ρ c

theorem hws1_W6 : W6 m ρ c (Proc.devRef .tc main_v25) = (Cert.Stages.hws (m ((c : Thread nD τ).loc main_arg1)) (Cert.Stages.h1 (m ((c : Thread nD τ).loc main_arg0)) (m ((c : Thread nD τ).loc main_arg1)) (m ((c : Thread nD τ).loc main_arg2)) (m ((c : Thread nD τ).loc main_arg3))) (m ((c : Thread nD τ).loc main_arg4))) := by
  dsimp only [W6, hostOps3]; after_results; exact hws1_W5 m ρ c

theorem agg1_W6 : W6 m ρ c (Proc.devRef .tc main_v35) = (Cert.Stages.agg (m ((c : Thread nD τ).loc main_arg1)) (Cert.Stages.hws (m ((c : Thread nD τ).loc main_arg1)) (Cert.Stages.h1 (m ((c : Thread nD τ).loc main_arg0)) (m ((c : Thread nD τ).loc main_arg1)) (m ((c : Thread nD τ).loc main_arg2)) (m ((c : Thread nD τ).loc main_arg3))) (m ((c : Thread nD τ).loc main_arg4)))) := by
  dsimp only [W6, hostOps3]
  after_results_simp
  rw [hws1_W5 m ρ c, src_W5 m ρ c, dst_W5 m ρ c]
  rfl

theorem b1_W6 : W6 m ρ c (Proc.devRef .tc main_v36) = Cert.Stages.prow (m ((c : Thread nD τ).loc main_arg5)) := by
  dsimp only [W6, hostOps3]
  after_results
  rw [arg5_W5 m ρ c]
  rfl

theorem g0_W6 : W6 m ρ c (Proc.devRef .tc main_v37) = Cert.Stages.prow (m ((c : Thread nD τ).loc main_arg10)) := by
  dsimp only [W6, hostOps3]
  after_results
  rw [arg10_W5 m ρ c]
  rfl

theorem beta0_W6 : W6 m ρ c (Proc.devRef .tc main_v38) = Cert.Stages.prow (m ((c : Thread nD τ).loc main_arg11)) := by
  dsimp only [W6, hostOps3]
  after_results
  rw [arg11_W5 m ρ c]
  rfl

theorem mean0_W6 : W6 m ρ c (Proc.devRef .tc main_v39) = Cert.Stages.prow (m ((c : Thread nD τ).loc main_arg12)) := by
  dsimp only [W6, hostOps3]
  after_results
  rw [arg12_W5 m ρ c]
  rfl

theorem var0_W6 : W6 m ρ c (Proc.devRef .tc main_v40) = Cert.Stages.prow (m ((c : Thread nD τ).loc main_arg13)) := by
  dsimp only [W6, hostOps3]
  after_results
  rw [arg13_W5 m ρ c]
  rfl

theorem h2_W7 : W7 m ρ c (Proc.devRef .tc main_v41) = (Cert.Stages.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13))) := by
  refine (W7_arr m ρ c 9).trans ((Cert.KernelIdeal.RegionValue.final3 (V6 m ρ) c).trans ?_)
  have e0 : V6 m ρ c (Pipeline.arrRef spec3 0) = _ := hws1_W6 m ρ c
  have e1 : V6 m ρ c (Pipeline.arrRef spec3 1) = _ := agg1_W6 m ρ c
  have e2 : V6 m ρ c (Pipeline.arrRef spec3 2) = _ := dcol_W6 m ρ c
  have e3 : V6 m ρ c (Pipeline.arrRef spec3 3) = _ := b1_W6 m ρ c
  have e4 : V6 m ρ c (Pipeline.arrRef spec3 4) = _ := g0_W6 m ρ c
  have e5 : V6 m ρ c (Pipeline.arrRef spec3 5) = _ := beta0_W6 m ρ c
  have e6 : V6 m ρ c (Pipeline.arrRef spec3 6) = _ := mean0_W6 m ρ c
  have e7 : V6 m ρ c (Pipeline.arrRef spec3 7) = _ := var0_W6 m ρ c
  have e8 : V6 m ρ c (Pipeline.arrRef spec3 8) = _ := h1_W6 m ρ c
  rw [e0, e1, e2, e3, e4, e5, e6, e7, e8]; rfl

end Cert.KernelIdeal.Fold

end
-- ==== Proof.RegionMatmul4.lean ====
/-
  The third scaled product as one array.

  The grid has 20 points; point `t` takes rows `5000·t … 5000·t + 4999` of the features and of the scale column and the
  whole weights, and writes back rows `5000·t … 5000·t + 4999` of the result. What it writes back is that block of the
  whole-array scaled product of the three arrays as the region finds them: each operand entry the body reads sits in
  its array at the block's row offset. The 20 blocks cover all 100000 rows (row `r` is in block `r / 5000`), so the
  result array ends as the scaled product.
-/
import proofs.«145619_j27719718928688_2_alg».proof.Proof.Gen.KernelIdeal.Frame
import proofs.«145619_j27719718928688_2_alg».proof.Proof.RegionMatmulPay
import Idealize.ShloMosaic.Lib.Pipeline.Value

noncomputable section

namespace Cert.KernelIdeal.RegionValue

open Cert.KernelIdeal Cert.KernelIdeal.Gen Idealize.ShloMosaic Idealize.ShloMosaic.ValueIdx Idealize.ShloMosaic.TcCoe
open Cert.Spec

/-- The block indices over the grid: the three row-blocked windows sit at block row `t`, the weights at their one block. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- What point `t` writes back is block `t` of the scaled product of the arrays as the region finds them. -/
theorem flushed4 (c : Dev nD) (t : Fin cfg4.N) :
    (dat4 (F := Ideal) V c).flushed 3 t
      = ((cfg4.win 3).blk t).view.read (Elt Ideal)
          (mmScaled (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x128) hz, View.ld_unit_zero (S := S5000x1) hz]
  obtain ⟨e00, e01, e10, e11, e20, e21, e30, e31⟩ := idx_facts4 t
  funext j
  obtain ⟨p, q, rfl⟩ : ∃ (p : Fin 5000) (q : Fin 128), j = ix2 p q := ⟨j 0, j 1, eq_ix2 j⟩
  show k4_pay1 (iblk4 V c 0 t) (iblk4 V c 1 t) (iblk4 V c 2 t) (ix2 p q)
      = mmScaled (V c (Pipeline.arrRef spec4 0)) (V c (Pipeline.arrRef spec4 1)) (V c (Pipeline.arrRef spec4 2))
          (((cfg4.win 3).blk t).view.emb (ix2 p q))
  refine (congrFun (k4_pay1_eq (iblk4 V c 0 t) (iblk4 V c 1 t) (iblk4 V c 2 t)) (ix2 p q)).trans ?_
  refine mmScaled_of_blocks (iblk4 V c 0 t) (iblk4 V c 1 t) (iblk4 V c 2 t) _ _ _ p q _ (fun k => ?_) (fun k => ?_) ?_
  · show V c (Pipeline.arrRef spec4 0) (((cfg4.win 0).blk t).view.emb (ix2 p k)) = V c (Pipeline.arrRef spec4 0) _
    refine congrArg _ (funext fun a => Fin.ext ?_)
    match a with
    | ⟨0, _⟩ => show win4_0.index t (0 : Fin 2) * 5000 + 1 * p.val = win4_3.index t (0 : Fin 2) * 5000 + 1 * p.val; omega
    | ⟨1, _⟩ => show win4_0.index t (1 : Fin 2) * 128 + 1 * k.val = k.val; omega
  · show V c (Pipeline.arrRef spec4 1) (((cfg4.win 1).blk t).view.emb (ix2 k q)) = V c (Pipeline.arrRef spec4 1) _
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q.val = win4_3.index t (1 : Fin 2) * 128 + 1 * q.val; omega
  · show V c (Pipeline.arrRef spec4 2) (((cfg4.win 2).blk t).view.emb (ix2 p (0 : Fin 1))) = V c (Pipeline.arrRef spec4 2) _
    refine congrArg _ (funext fun a => Fin.ext ?_)
    match a with
    | ⟨0, _⟩ => show win4_2.index t (0 : Fin 2) * 5000 + 1 * p.val = win4_3.index t (0 : Fin 2) * 5000 + 1 * p.val; omega
    | ⟨1, _⟩ => show win4_2.index t (1 : Fin 2) * 1 + 1 * 0 = 0; omega

/-- THE RESULT ARRAY after the region: the scaled product of the three arrays the region finds. -/
theorem final4 (c : Dev nD) :
    (dat4 (F := Ideal) V c).arrAt 3 cfg4.N
      = mmScaled (V c (Pipeline.arrRef spec4 0)) (V c (Pipeline.arrRef spec4 1)) (V c (Pipeline.arrRef spec4 2)) :=
  (dat4 V c).arrAt_eq_of_cover 3 _ (fun t _ => flushed4 V c t) fun i => by
    have hi0 : (i 0).val < 100000 := (i 0).isLt
    have hi1 : (i 1).val < 128 := (i 1).isLt
    obtain ⟨t, ht⟩ : ∃ t : Fin cfg4.N, t.val = (i 0).val / 5000 :=
      ⟨⟨(i 0).val / 5000, by rw [show cfg4.N = 20 from N_4]; omega⟩, rfl⟩
    obtain ⟨e00, e01, e10, e11, e20, e21, e30, e31⟩ := idx_facts4 t
    refine ⟨t, flush4_3 t, ?_⟩
    show i ∈ ((View.whole main_v42).slice (win4_3.rect t)).set
    rw [View.set_slice_whole, Rect.mem_set_unit]
    intro a
    match a with
    | ⟨0, _⟩ => show win4_3.index t (0 : Fin 2) * 5000 ≤ (i 0).val ∧ (i 0).val < win4_3.index t (0 : Fin 2) * 5000 + 5000; omega
    | ⟨1, _⟩ => show win4_3.index t (1 : Fin 2) * 128 ≤ (i 1).val ∧ (i 1).val < win4_3.index t (1 : Fin 2) * 128 + 128; omega

end Cert.KernelIdeal.RegionValue

end
-- ==== Proof.RegionBn5Reads.lean ====
/-
  The third layer's closing region: each window's block as entries of its array.

  At grid point `t` the four row-blocked windows (scaled product, edge sum, residual: 5000×128; scale: 5000×1) sit at
  block row `t`, so entry `(p, ·)` of such a block is row `5000·t + p` of its array; the five parameter rows have one
  block, the whole row. The arrays are named once at their literal types, and each block read is stated for a
  variable array index with its two coordinates given, so that it serves whatever index the output block names.
-/
import proofs.«145619_j27719718928688_2_alg».proof.Proof.Gen.KernelIdeal.Frame
import proofs.«145619_j27719718928688_2_alg».proof.Proof.Spec
import Idealize.ShloMosaic.Lib.Pipeline.Value
import Idealize.ShloMosaic.Lib.ValueIdx

noncomputable section

namespace Cert.KernelIdeal.RegionValue

open Cert.KernelIdeal Cert.KernelIdeal.Gen Idealize.ShloMosaic Idealize.ShloMosaic.ValueIdx Idealize.ShloMosaic.TcCoe
open Cert.Spec

/-- The block indices over the grid: the row-blocked windows sit at block row `t`, the parameter rows at their one block. -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = t.val ∧ win5_8.index t (1 : Fin 2) = 0
    ∧ win5_9.index t (0 : Fin 2) = t.val ∧ win5_9.index t (1 : Fin 2) = 0 :=
  (by decide +kernel : ∀ t : Fin grid5.N, _)

variable (V : (c : Dev nD) → (b : Ref sig .tc) → Buf (Elt Ideal) ((c : Thread nD τ).loc b))

/-- Window 0's array as the region finds it, at its literal type. -/
abbrev arr5_0 (c : Dev nD) : FVec Ideal SNodes128 .f32 := V c (Pipeline.arrRef spec5 0)
/-- Window 1's array as the region finds it, at its literal type. -/
abbrev arr5_1 (c : Dev nD) : FVec Ideal SNodes128 .f32 := V c (Pipeline.arrRef spec5 1)
/-- Window 2's array as the region finds it, at its literal type. -/
abbrev arr5_2 (c : Dev nD) : FVec Ideal SNodes1 .f32 := V c (Pipeline.arrRef spec5 2)
/-- Window 3's array as the region finds it, at its literal type. -/
abbrev arr5_3 (c : Dev nD) : FVec Ideal SRow .f32 := V c (Pipeline.arrRef spec5 3)
/-- Window 4's array as the region finds it, at its literal type. -/
abbrev arr5_4 (c : Dev nD) : FVec Ideal SRow .f32 := V c (Pipeline.arrRef spec5 4)
/-- Window 5's array as the region finds it, at its literal type. -/
abbrev arr5_5 (c : Dev nD) : FVec Ideal SRow .f32 := V c (Pipeline.arrRef spec5 5)
/-- Window 6's array as the region finds it, at its literal type. -/
abbrev arr5_6 (c : Dev nD) : FVec Ideal SRow .f32 := V c (Pipeline.arrRef spec5 6)
/-- Window 7's array as the region finds it, at its literal type. -/
abbrev arr5_7 (c : Dev nD) : FVec Ideal SRow .f32 := V c (Pipeline.arrRef spec5 7)
/-- Window 8's array as the region finds it, at its literal type. -/
abbrev arr5_8 (c : Dev nD) : FVec Ideal SNodes128 .f32 := V c (Pipeline.arrRef spec5 8)

/-- Window 0's block at `(p, q)` is its array at row `5000·t + p`, column `q`. -/
theorem read5_0 (c : Dev nD) (t : Fin cfg5.N) (p : Fin 5000) (q : Fin 128) (i : SNodes128.Idx)
    (h0 : (i 0).val = t.val * 5000 + p.val) (h1 : (i 1).val = q.val) :
    iblk5 V c 0 t (ix2 p q) = arr5_0 V c i := by
  obtain ⟨e00, e01, e10, e11, e20, e21, e30, e31, e40, e41, e50, e51, e60, e61, e70, e71, e80, e81, e90, e91⟩ := idx_facts5 t
  show V c (Pipeline.arrRef spec5 0) (((cfg5.win 0).blk t).view.emb (ix2 p q)) = V c (Pipeline.arrRef spec5 0) i
  refine congrArg _ (funext fun a => Fin.ext ?_)
  match a with
  | ⟨0, _⟩ => show win5_0.index t (0 : Fin 2) * 5000 + 1 * p.val = (i 0).val; omega
  | ⟨1, _⟩ => show win5_0.index t (1 : Fin 2) * 128 + 1 * q.val = (i 1).val; omega

/-- Window 1's block at `(p, q)` is its array at row `5000·t + p`, column `q`. -/
theorem read5_1 (c : Dev nD) (t : Fin cfg5.N) (p : Fin 5000) (q : Fin 128) (i : SNodes128.Idx)
    (h0 : (i 0).val = t.val * 5000 + p.val) (h1 : (i 1).val = q.val) :
    iblk5 V c 1 t (ix2 p q) = arr5_1 V c i := by
  obtain ⟨e00, e01, e10, e11, e20, e21, e30, e31, e40, e41, e50, e51, e60, e61, e70, e71, e80, e81, e90, e91⟩ := idx_facts5 t
  show V c (Pipeline.arrRef spec5 1) (((cfg5.win 1).blk t).view.emb (ix2 p q)) = V c (Pipeline.arrRef spec5 1) i
  refine congrArg _ (funext fun a => Fin.ext ?_)
  match a with
  | ⟨0, _⟩ => show win5_1.index t (0 : Fin 2) * 5000 + 1 * p.val = (i 0).val; omega
  | ⟨1, _⟩ => show win5_1.index t (1 : Fin 2) * 128 + 1 * q.val = (i 1).val; omega

/-- Window 2's block at `(p, 0)` is its column at row `5000·t + p`. -/
theorem read5_2 (c : Dev nD) (t : Fin cfg5.N) (p : Fin 5000) (i : SNodes128.Idx)
    (h0 : (i 0).val = t.val * 5000 + p.val) :
    iblk5 V c 2 t (ix2 p (0 : Fin 1)) = arr5_2 V c (ix2 (nodeOf i) (0 : Fin 1)) := by
  obtain ⟨e00, e01, e10, e11, e20, e21, e30, e31, e40, e41, e50, e51, e60, e61, e70, e71, e80, e81, e90, e91⟩ := idx_facts5 t
  show V c (Pipeline.arrRef spec5 2) (((cfg5.win 2).blk t).view.emb (ix2 p (0 : Fin 1)))
      = V c (Pipeline.arrRef spec5 2) (ix2 (nodeOf i) (0 : Fin 1))
  refine congrArg _ (funext fun a => Fin.ext ?_)
  match a with
  | ⟨0, _⟩ => show win5_2.index t (0 : Fin 2) * 5000 + 1 * p.val = (i 0).val; omega
  | ⟨1, _⟩ => show win5_2.index t (1 : Fin 2) * 1 + 1 * 0 = 0; omega

/-- Window 3's one block at `(0, q)` is its row at column `q`. -/
theorem read5_3 (c : Dev nD) (t : Fin cfg5.N) (q : Fin 128) (i : SNodes128.Idx) (h1 : (i 1).val = q.val) :
    iblk5 V c 3 t (ix2 (0 : Fin 1) q) = arr5_3 V c (ix2 (0 : Fin 1) (colOf i)) := by
  obtain ⟨e00, e01, e10, e11, e20, e21, e30, e31, e40, e41, e50, e51, e60, e61, e70, e71, e80, e81, e90, e91⟩ := idx_facts5 t
  show V c (Pipeline.arrRef spec5 3) (((cfg5.win 3).blk t).view.emb (ix2 (0 : Fin 1) q))
      = V c (Pipeline.arrRef spec5 3) (ix2 (0 : Fin 1) (colOf i))
  refine congrArg _ (funext fun a => Fin.ext ?_)
  match a with
  | ⟨0, _⟩ => show win5_3.index t (0 : Fin 2) * 1 + 1 * 0 = 0; omega
  | ⟨1, _⟩ => show win5_3.index t (1 : Fin 2) * 128 + 1 * q.val = (i 1).val; omega

/-- Window 4's one block at `(0, q)` is its row at column `q`. -/
theorem read5_4 (c : Dev nD) (t : Fin cfg5.N) (q : Fin 128) (i : SNodes128.Idx) (h1 : (i 1).val = q.val) :
    iblk5 V c 4 t (ix2 (0 : Fin 1) q) = arr5_4 V c (ix2 (0 : Fin 1) (colOf i)) := by
  obtain ⟨e00, e01, e10, e11, e20, e21, e30, e31, e40, e41, e50, e51, e60, e61, e70, e71, e80, e81, e90, e91⟩ := idx_facts5 t
  show V c (Pipeline.arrRef spec5 4) (((cfg5.win 4).blk t).view.emb (ix2 (0 : Fin 1) q))
      = V c (Pipeline.arrRef spec5 4) (ix2 (0 : Fin 1) (colOf i))
  refine congrArg _ (funext fun a => Fin.ext ?_)
  match a with
  | ⟨0, _⟩ => show win5_4.index t (0 : Fin 2) * 1 + 1 * 0 = 0; omega
  | ⟨1, _⟩ => show win5_4.index t (1 : Fin 2) * 128 + 1 * q.val = (i 1).val; omega

/-- Window 5's one block at `(0, q)` is its row at column `q`. -/
theorem read5_5 (c : Dev nD) (t : Fin cfg5.N) (q : Fin 128) (i : SNodes128.Idx) (h1 : (i 1).val = q.val) :
    iblk5 V c 5 t (ix2 (0 : Fin 1) q) = arr5_5 V c (ix2 (0 : Fin 1) (colOf i)) := by
  obtain ⟨e00, e01, e10, e11, e20, e21, e30, e31, e40, e41, e50, e51, e60, e61, e70, e71, e80, e81, e90, e91⟩ := idx_facts5 t
  show V c (Pipeline.arrRef spec5 5) (((cfg5.win 5).blk t).view.emb (ix2 (0 : Fin 1) q))
      = V c (Pipeline.arrRef spec5 5) (ix2 (0 : Fin 1) (colOf i))
  refine congrArg _ (funext fun a => Fin.ext ?_)
  match a with
  | ⟨0, _⟩ => show win5_5.index t (0 : Fin 2) * 1 + 1 * 0 = 0; omega
  | ⟨1, _⟩ => show win5_5.index t (1 : Fin 2) * 128 + 1 * q.val = (i 1).val; omega

/-- Window 6's one block at `(0, q)` is its row at column `q`. -/
theorem read5_6 (c : Dev nD) (t : Fin cfg5.N) (q : Fin 128) (i : SNodes128.Idx) (h1 : (i 1).val = q.val) :
    iblk5 V c 6 t (ix2 (0 : Fin 1) q) = arr5_6 V c (ix2 (0 : Fin 1) (colOf i)) := by
  obtain ⟨e00, e01, e10, e11, e20, e21, e30, e31, e40, e41, e50, e51, e60, e61, e70, e71, e80, e81, e90, e91⟩ := idx_facts5 t
  show V c (Pipeline.arrRef spec5 6) (((cfg5.win 6).blk t).view.emb (ix2 (0 : Fin 1) q))
      = V c (Pipeline.arrRef spec5 6) (ix2 (0 : Fin 1) (colOf i))
  refine congrArg _ (funext fun a => Fin.ext ?_)
  match a with
  | ⟨0, _⟩ => show win5_6.index t (0 : Fin 2) * 1 + 1 * 0 = 0; omega
  | ⟨1, _⟩ => show win5_6.index t (1 : Fin 2) * 128 + 1 * q.val = (i 1).val; omega

/-- Window 7's one block at `(0, q)` is its row at column `q`. -/
theorem read5_7 (c : Dev nD) (t : Fin cfg5.N) (q : Fin 128) (i : SNodes128.Idx) (h1 : (i 1).val = q.val) :
    iblk5 V c 7 t (ix2 (0 : Fin 1) q) = arr5_7 V c (ix2 (0 : Fin 1) (colOf i)) := by
  obtain ⟨e00, e01, e10, e11, e20, e21, e30, e31, e40, e41, e50, e51, e60, e61, e70, e71, e80, e81, e90, e91⟩ := idx_facts5 t
  show V c (Pipeline.arrRef spec5 7) (((cfg5.win 7).blk t).view.emb (ix2 (0 : Fin 1) q))
      = V c (Pipeline.arrRef spec5 7) (ix2 (0 : Fin 1) (colOf i))
  refine congrArg _ (funext fun a => Fin.ext ?_)
  match a with
  | ⟨0, _⟩ => show win5_7.index t (0 : Fin 2) * 1 + 1 * 0 = 0; omega
  | ⟨1, _⟩ => show win5_7.index t (1 : Fin 2) * 128 + 1 * q.val = (i 1).val; omega

/-- Window 8's block at `(p, q)` is its array at row `5000·t + p`, column `q`. -/
theorem read5_8 (c : Dev nD) (t : Fin cfg5.N) (p : Fin 5000) (q : Fin 128) (i : SNodes128.Idx)
    (h0 : (i 0).val = t.val * 5000 + p.val) (h1 : (i 1).val = q.val) :
    iblk5 V c 8 t (ix2 p q) = arr5_8 V c i := by
  obtain ⟨e00, e01, e10, e11, e20, e21, e30, e31, e40, e41, e50, e51, e60, e61, e70, e71, e80, e81, e90, e91⟩ := idx_facts5 t
  show V c (Pipeline.arrRef spec5 8) (((cfg5.win 8).blk t).view.emb (ix2 p q)) = V c (Pipeline.arrRef spec5 8) i
  refine congrArg _ (funext fun a => Fin.ext ?_)
  match a with
  | ⟨0, _⟩ => show win5_8.index t (0 : Fin 2) * 5000 + 1 * p.val = (i 0).val; omega
  | ⟨1, _⟩ => show win5_8.index t (1 : Fin 2) * 128 + 1 * q.val = (i 1).val; omega

end Cert.KernelIdeal.RegionValue

end
-- ==== Proof.RegionBn5.lean ====
/-
  The third layer's closing region as one array.

  The grid has 20 points; point `t` takes rows `5000·t … 5000·t + 4999` of the scaled product, of the edge sum, of the
  scale column and of the residual, and the five whole parameter rows (bias, γ, β, running mean, running variance),
  and writes back the same rows of the result. What it writes back is that block of `combBn` of the nine arrays as the
  region finds them: every entry the body reads sits in its array at the block's row offset (a parameter row's at its
  own column). The 20 blocks cover all 100000 rows, so the result array ends as `combBn` of the nine arrays.
-/
import proofs.«145619_j27719718928688_2_alg».proof.Proof.Gen.KernelIdeal.Frame
import proofs.«145619_j27719718928688_2_alg».proof.Proof.RegionCombPay
import proofs.«145619_j27719718928688_2_alg».proof.Proof.RegionBn5Reads
import Idealize.ShloMosaic.Lib.Pipeline.Value

noncomputable section

namespace Cert.KernelIdeal.RegionValue

open Cert.KernelIdeal Cert.KernelIdeal.Gen Idealize.ShloMosaic Idealize.ShloMosaic.ValueIdx Idealize.ShloMosaic.TcCoe
open Cert.Spec

variable (V : (c : Dev nD) → (b : Ref sig .tc) → Buf (Elt Ideal) ((c : Thread nD τ).loc b))

/-- What point `t` writes back is the body's result of the nine input blocks at `t`. -/
theorem body5 (c : Dev nD) (t : Fin cfg5.N) :
    (dat5 (F := Ideal) V c).flushed 9 t
      = k5_pay1 (iblk5 V c 2 t) (iblk5 V c 1 t) (iblk5 V c 0 t) (iblk5 V c 3 t) (iblk5 V c 4 t) (iblk5 V c 7 t) (iblk5 V c 6 t) (iblk5 V c 5 t) (iblk5 V c 8 t) := by
  show (cfg5.win 9).cut (grid5.coords t) ((dat5 V c).after 9 t) = _
  rw [after5_9]
  unfold out5_9
  rw [View.canon_unit_zero offsets_zero]
  simp only [View.ld_unit_zero (S := S5000x128) offsets_zero, View.ld_unit_zero (S := S5000x1) offsets_zero,
    View.ld_unit_zero (S := S1x128) offsets_zero]
  rfl

/-- Reading a whole-array function through the output's block at `t` evaluates it at the block's place in the array. -/
theorem read_out5 (G : FVec Ideal SNodes128 .f32) (t : Fin cfg5.N) (y : S5000x128.Idx) :
    ((cfg5.win 9).blk t).view.read (Elt Ideal) G y = G (((cfg5.win 9).blk t).view.emb y) := rfl

/-- The output block's entry `(p, q)` sits at row `5000·t + p`, column `q` of the array. -/
theorem emb_out5 (t : Fin cfg5.N) (p : Fin 5000) (q : Fin 128) (i : SNodes128.Idx)
    (hi : i = ((cfg5.win 9).blk t).view.emb (ix2 p q)) :
    (i 0).val = t.val * 5000 + p.val ∧ (i 1).val = q.val := by
  obtain ⟨e00, e01, e10, e11, e20, e21, e30, e31, e40, e41, e50, e51, e60, e61, e70, e71, e80, e81, e90, e91⟩ := idx_facts5 t
  subst hi
  constructor
  · show win5_9.index t (0 : Fin 2) * 5000 + 1 * p.val = _; omega
  · show win5_9.index t (1 : Fin 2) * 128 + 1 * q.val = _; omega

/-- What point `t` writes back is block `t` of `combBn` of the arrays as the region finds them. -/
theorem flushed5 (c : Dev nD) (t : Fin cfg5.N) :
    (dat5 (F := Ideal) V c).flushed 9 t
      = ((cfg5.win 9).blk t).view.read (Elt Ideal) (combBn (arr5_0 V c) (arr5_1 V c) (arr5_2 V c) (arr5_3 V c) (arr5_4 V c) (arr5_5 V c) (arr5_6 V c) (arr5_7 V c) (arr5_8 V c)) := by
  refine (body5 V c t).trans (funext fun j => ?_)
  obtain ⟨p, q, rfl⟩ : ∃ (p : Fin 5000) (q : Fin 128), j = ix2 p q := ⟨j 0, j 1, eq_ix2 j⟩
  rw [read_out5]
  generalize hi : ((cfg5.win 9).blk t).view.emb (ix2 p q) = i
  obtain ⟨h0, h1⟩ := emb_out5 t p q i hi.symm
  refine (congrFun (k5_pay1_eq (iblk5 V c 2 t) (iblk5 V c 1 t) (iblk5 V c 0 t) (iblk5 V c 3 t) (iblk5 V c 4 t) (iblk5 V c 7 t) (iblk5 V c 6 t) (iblk5 V c 5 t) (iblk5 V c 8 t)) (ix2 p q)).trans ?_
  exact combBn_of_blocks (iblk5 V c 0 t) (iblk5 V c 1 t) (iblk5 V c 2 t) (iblk5 V c 3 t) (iblk5 V c 4 t) (iblk5 V c 5 t) (iblk5 V c 6 t) (iblk5 V c 7 t) (iblk5 V c 8 t) (arr5_0 V c) (arr5_1 V c) (arr5_2 V c) (arr5_3 V c) (arr5_4 V c) (arr5_5 V c) (arr5_6 V c) (arr5_7 V c) (arr5_8 V c) p q i
    (read5_0 V c t p q i h0 h1) (read5_1 V c t p q i h0 h1) (read5_2 V c t p i h0)
    (read5_3 V c t q i h1) (read5_4 V c t q i h1) (read5_5 V c t q i h1) (read5_6 V c t q i h1)
    (read5_7 V c t q i h1) (read5_8 V c t p q i h0 h1)

/-- THE RESULT ARRAY after the region: `combBn` of the nine arrays the region finds. -/
theorem final5 (c : Dev nD) :
    (dat5 (F := Ideal) V c).arrAt 9 cfg5.N
      = combBn (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) :=
  (dat5 V c).arrAt_eq_of_cover 9 (combBn (arr5_0 V c) (arr5_1 V c) (arr5_2 V c) (arr5_3 V c) (arr5_4 V c) (arr5_5 V c) (arr5_6 V c) (arr5_7 V c) (arr5_8 V c)) (fun t _ => flushed5 V c t) fun i => by
    have hi0 : (i 0).val < 100000 := (i 0).isLt
    have hi1 : (i 1).val < 128 := (i 1).isLt
    obtain ⟨t, ht⟩ : ∃ t : Fin cfg5.N, t.val = (i 0).val / 5000 :=
      ⟨⟨(i 0).val / 5000, by rw [show cfg5.N = 20 from N_5]; omega⟩, rfl⟩
    obtain ⟨e00, e01, e10, e11, e20, e21, e30, e31, e40, e41, e50, e51, e60, e61, e70, e71, e80, e81, e90, e91⟩ := idx_facts5 t
    refine ⟨t, flush5_9 t, ?_⟩
    show i ∈ ((View.whole main_v58).slice (win5_9.rect t)).set
    rw [View.set_slice_whole, Rect.mem_set_unit]
    intro a
    match a with
    | ⟨0, _⟩ => show win5_9.index t (0 : Fin 2) * 5000 ≤ (i 0).val ∧ (i 0).val < win5_9.index t (0 : Fin 2) * 5000 + 5000; omega
    | ⟨1, _⟩ => show win5_9.index t (1 : Fin 2) * 128 ≤ (i 1).val ∧ (i 1).val < win5_9.index t (1 : Fin 2) * 128 + 128; omega

end Cert.KernelIdeal.RegionValue

end
-- ==== Proof.KFoldC.lean ====
/-
  The kernel program's buffers through the third layer, in the same steps as the second, with the second layer's output
  as the input and the residual: `Stages.h3`.
-/
import proofs.«145619_j27719718928688_2_alg».proof.Proof.KFoldB
import proofs.«145619_j27719718928688_2_alg».proof.Proof.RegionMatmul4
import proofs.«145619_j27719718928688_2_alg».proof.Proof.RegionBn5

set_option maxRecDepth 16384
set_option maxHeartbeats 4000000

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

theorem hws2_W8 : W8 m ρ c (Proc.devRef .tc main_v42) = (Cert.Stages.hws (m ((c : Thread nD τ).loc main_arg1)) (Cert.Stages.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13))) (m ((c : Thread nD τ).loc main_arg6))) := by
  refine (W8_arr m ρ c 3).trans ((Cert.KernelIdeal.RegionValue.final4 (V7 m ρ) c).trans ?_)
  have e0 : V7 m ρ c (Pipeline.arrRef spec4 0) = _ := h2_W7 m ρ c
  have e1 : V7 m ρ c (Pipeline.arrRef spec4 1) = (m ((c : Thread nD τ).loc main_arg6)) := arg6_W7 m ρ c
  have e2 : V7 m ρ c (Pipeline.arrRef spec4 2) = _ := dcol_W7 m ρ c
  rw [e0, e1, e2]; rfl

/-- The launch that forms the product reads the previous layer's output through an input window and leaves it as found. -/
theorem h2_W8 : W8 m ρ c (Proc.devRef .tc main_v41) = (Cert.Stages.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13))) :=
  (W8_arr m ρ c 0).trans (((dat4 (V7 m ρ) c).arrAt_in 0 rfl _).trans ((A_eq4 (V7 m ρ) c 0).trans (h2_W7 m ρ c)))

theorem h2_W9 : W9 m ρ c (Proc.devRef .tc main_v41) = (Cert.Stages.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13))) := by
  dsimp only [W9, hostOps5]; after_results; exact h2_W8 m ρ c

theorem hws2_W9 : W9 m ρ c (Proc.devRef .tc main_v42) = (Cert.Stages.hws (m ((c : Thread nD τ).loc main_arg1)) (Cert.Stages.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13))) (m ((c : Thread nD τ).loc main_arg6))) := by
  dsimp only [W9, hostOps5]; after_results; exact hws2_W8 m ρ c

theorem agg2_W9 : W9 m ρ c (Proc.devRef .tc main_v52) = (Cert.Stages.agg (m ((c : Thread nD τ).loc main_arg1)) (Cert.Stages.hws (m ((c : Thread nD τ).loc main_arg1)) (Cert.Stages.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13))) (m ((c : Thread nD τ).loc main_arg6)))) := by
  dsimp only [W9, hostOps5]
  after_results_simp
  rw [hws2_W8 m ρ c, src_W8 m ρ c, dst_W8 m ρ c]
  rfl

theorem b2_W9 : W9 m ρ c (Proc.devRef .tc main_v53) = Cert.Stages.prow (m ((c : Thread nD τ).loc main_arg7)) := by
  dsimp only [W9, hostOps5]
  after_results
  rw [arg7_W8 m ρ c]
  rfl

theorem g1_W9 : W9 m ρ c (Proc.devRef .tc main_v54) = Cert.Stages.prow (m ((c : Thread nD τ).loc main_arg14)) := by
  dsimp only [W9, hostOps5]
  after_results
  rw [arg14_W8 m ρ c]
  rfl

theorem beta1_W9 : W9 m ρ c (Proc.devRef .tc main_v55) = Cert.Stages.prow (m ((c : Thread nD τ).loc main_arg15)) := by
  dsimp only [W9, hostOps5]
  after_results
  rw [arg15_W8 m ρ c]
  rfl

theorem mean1_W9 : W9 m ρ c (Proc.devRef .tc main_v56) = Cert.Stages.prow (m ((c : Thread nD τ).loc main_arg16)) := by
  dsimp only [W9, hostOps5]
  after_results
  rw [arg16_W8 m ρ c]
  rfl

theorem var1_W9 : W9 m ρ c (Proc.devRef .tc main_v57) = Cert.Stages.prow (m ((c : Thread nD τ).loc main_arg17)) := by
  dsimp only [W9, hostOps5]
  after_results
  rw [arg17_W8 m ρ c]
  rfl

theorem h3_W10 : W10 m ρ c (Proc.devRef .tc main_v58) = (Cert.Stages.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  refine (W10_arr m ρ c 9).trans ((Cert.KernelIdeal.RegionValue.final5 (V9 m ρ) c).trans ?_)
  have e0 : V9 m ρ c (Pipeline.arrRef spec5 0) = _ := hws2_W9 m ρ c
  have e1 : V9 m ρ c (Pipeline.arrRef spec5 1) = _ := agg2_W9 m ρ c
  have e2 : V9 m ρ c (Pipeline.arrRef spec5 2) = _ := dcol_W9 m ρ c
  have e3 : V9 m ρ c (Pipeline.arrRef spec5 3) = _ := b2_W9 m ρ c
  have e4 : V9 m ρ c (Pipeline.arrRef spec5 4) = _ := g1_W9 m ρ c
  have e5 : V9 m ρ c (Pipeline.arrRef spec5 5) = _ := beta1_W9 m ρ c
  have e6 : V9 m ρ c (Pipeline.arrRef spec5 6) = _ := mean1_W9 m ρ c
  have e7 : V9 m ρ c (Pipeline.arrRef spec5 7) = _ := var1_W9 m ρ c
  have e8 : V9 m ρ c (Pipeline.arrRef spec5 8) = _ := h2_W9 m ρ c
  rw [e0, e1, e2, e3, e4, e5, e6, e7, e8]; rfl

end Cert.KernelIdeal.Fold

end
-- ==== Proof.LibTRefCast.lean ====
/-
  A typed reference's two transports cancel.

  A reference that carries the type `T` of the tensor value it holds moves contents at `T` to contents at the buffer's
  own type and back along the equation between the two types. Going there and back is the identity, whatever the
  reference: the equation can be taken to be `rfl`. General in the signature, the value type and the contents.
-/
import Idealize.ShloMosaic.Lib.StableHlo

namespace Cert.Lib

open Idealize.ShloMosaic Idealize.ShloMosaic.StableHlo

/-- Contents moved to the buffer's type and back are the contents. -/
theorem ofBuf_toBuf {sig : RefSig} {Val : EltTy → Type} {T : BufTy} (x : TRef sig T) (v : T.Contents Val) :
    x.ofBuf (x.toBuf v) = v := by
  obtain ⟨r, rfl, _, _⟩ := x
  rfl

/-- Contents moved from the buffer's type and back are the contents. -/
theorem toBuf_ofBuf {sig : RefSig} {Val : EltTy → Type} {T : BufTy} (x : TRef sig T) (v : x.ref.ty.Contents Val) :
    x.toBuf (x.ofBuf v) = v := by
  obtain ⟨r, rfl, _, _⟩ := x
  rfl

end Cert.Lib
-- ==== Proof.KFoldD.lean ====
/-
  The kernel program's result buffer at the return: the last two stretches of host operations are the output layer and
  the logarithm of the softmax, applied to the third layer's output with the carried columns and `dis`: `Stages.out`.
-/
import proofs.«145619_j27719718928688_2_alg».proof.Proof.KFoldC
import proofs.«145619_j27719718928688_2_alg».proof.Proof.LibTRefCast

set_option maxRecDepth 16384
set_option maxHeartbeats 4000000

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-- The result buffer at the return. -/
theorem result_W12 : W12 m ρ c (Proc.devRef .tc main_v96)
    = Cert.Stages.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  dsimp only [W12, W11, hostOps6, hostOps6_1]
  after_results_simp
  simp only [Cert.Lib.ofBuf_toBuf]
  rw [h3_W10 m ρ c, src_W10 m ρ c, dst_W10 m ρ c, dis_W10 m ρ c, arg8_W10 m ρ c, arg9_W10 m ρ c]
  rfl

end Cert.KernelIdeal.Fold

end
-- ==== Proof.RefRun.lean ====
/-
  The reference program's fold of buffers through its three hidden layers.

  The reference is a straight line of 184 host operations, so every weakly fair execution terminates with each buffer at
  the fold of the operations over the launch memory. The fold is read in four stretches — through the first layer's
  output, the second's, the third's, and the rest —: after each stretch the layer's output buffer holds the program's
  stage of the arguments (each stage a function of earlier stages, so the layers' shared subterms are stated once),
  the edge list's columns and scales hold theirs, and no operation writes an argument.
-/
import proofs.«145619_j27719718928688_2_alg».proof.Proof.RefRead

set_option maxRecDepth 16384
set_option maxHeartbeats 4000000

noncomputable section

namespace Cert.ReferenceIdeal.RunP

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The operations through the first layer's output. -/
def opsA : List (HloOp τ sig (Elt F)) := (ops (F := F)).take 61
/-- The second layer's operations. -/
def opsB : List (HloOp τ sig (Elt F)) := ((ops (F := F)).drop 61).take 42
/-- The third layer's operations. -/
def opsC : List (HloOp τ sig (Elt F)) := ((ops (F := F)).drop 103).take 42
/-- The output layer's operations. -/
def opsD : List (HloOp τ sig (Elt F)) := (ops (F := F)).drop 145

theorem ops_split : (ops (F := F)) = opsA ++ (opsB ++ (opsC ++ opsD)) := rfl

variable (m : (ℓ : Loc nD τ sig) → Buf (Elt F) ℓ) (c : Dev nD)

/-- The buffers after each stretch. -/
def RA : Valuation τ sig (Elt F) := after opsA (launchContents m c)
def RB : Valuation τ sig (Elt F) := after opsB (RA m c)
def RC : Valuation τ sig (Elt F) := after opsC (RB m c)
def RD : Valuation τ sig (Elt F) := after opsD (RC m c)

theorem fold_eq : after (ops (F := F)) (launchContents m c) = RD m c := by
  rw [ops_split, after_append, after_append, after_append]; rfl

/-- Spell a stretch as the literal list of its operations. -/
macro "spell_ops" : tactic =>
  `(tactic| simp only [opsA, opsB, opsC, opsD, ops, List.take_succ_cons, List.take_zero, List.drop_succ_cons, List.drop_zero])

/-- The buffers carried through the later stretches: the arguments, then the source column, the target column, the
    per-edge scale and the per-node scale. -/
def keepRef : Fin 22 → Ref sig .tc
  | ⟨0, _⟩ => main_arg0 | ⟨1, _⟩ => main_arg1 | ⟨2, _⟩ => main_arg2 | ⟨3, _⟩ => main_arg3 | ⟨4, _⟩ => main_arg4
  | ⟨5, _⟩ => main_arg5 | ⟨6, _⟩ => main_arg6 | ⟨7, _⟩ => main_arg7 | ⟨8, _⟩ => main_arg8 | ⟨9, _⟩ => main_arg9
  | ⟨10, _⟩ => main_arg10 | ⟨11, _⟩ => main_arg11 | ⟨12, _⟩ => main_arg12 | ⟨13, _⟩ => main_arg13 | ⟨14, _⟩ => main_arg14
  | ⟨15, _⟩ => main_arg15 | ⟨16, _⟩ => main_arg16 | ⟨17, _⟩ => main_arg17
  | ⟨18, _⟩ => main_v1 | ⟨19, _⟩ => main_v3 | ⟨20, _⟩ => main_v25 | ⟨21, _⟩ => main_v26
  | ⟨n + 22, h⟩ => absurd h (by omega)

/-- The arguments among them. -/
abbrev argRef (j : Fin 18) : Ref sig .tc := keepRef (j.castLE (by decide))

/-! ## Through the first layer -/

/-- No operation of the stretch writes a carried buffer. -/
theorem keep_A (W : Valuation τ sig (Elt F)) (j : Fin 18) :
    after (opsA : List (HloOp τ sig (Elt F))) W (Proc.devRef .tc (argRef j)) = W (Proc.devRef .tc (argRef j)) :=
  after_of_forall_not_mem (b := Proc.devRef .tc (argRef j)) _ _ (List.forall_iff_forall_mem.mp (by
    spell_ops
    simp only [List.Forall, nullary_writes, unary_writes, binary_writes, ternary_writes, quaternary_writes, reshape_writes, binaryIndexed_writes, Finset.mem_singleton]
    repeat' apply And.intro
    all_goals exact devRef_ne_of_ne (by revert j; decide)))

theorem arg_RA (j : Fin 18) : RA m c (Proc.devRef .tc (argRef j)) = m ((c.tc : Thread nD τ).loc (argRef j)) := keep_A _ j

theorem src_RA : RA m c (Proc.devRef .tc main_v1) = val_main_v1 (F := F) (m ((c.tc : Thread nD τ).loc main_arg1)) := by
  dsimp only [RA]; spell_ops; after_results_simp <;> rfl
theorem dst_RA : RA m c (Proc.devRef .tc main_v3) = val_main_v3 (F := F) (m ((c.tc : Thread nD τ).loc main_arg1)) := by
  dsimp only [RA]; spell_ops; after_results_simp <;> rfl
theorem norm_RA : RA m c (Proc.devRef .tc main_v25) = val_main_v25 (F := F) (m ((c.tc : Thread nD τ).loc main_arg1)) := by
  dsimp only [RA]; spell_ops; after_results_simp <;> rfl
theorem self_RA : RA m c (Proc.devRef .tc main_v26) = val_main_v26 (F := F) (m ((c.tc : Thread nD τ).loc main_arg1)) := by
  dsimp only [RA]; spell_ops; after_results_simp <;> rfl
theorem h1_RA : RA m c (Proc.devRef .tc main_v48) = val_main_v48 (F := F) (m ((c.tc : Thread nD τ).loc main_arg0)) (m ((c.tc : Thread nD τ).loc main_arg1)) (m ((c.tc : Thread nD τ).loc main_arg2)) (m ((c.tc : Thread nD τ).loc main_arg3)) := by
  dsimp only [RA]; spell_ops; after_results_simp <;> rfl

theorem arg4_RA : RA m c (Proc.devRef .tc main_arg4) = (m ((c.tc : Thread nD τ).loc main_arg4)) := arg_RA m c ⟨4, by decide⟩
theorem arg5_RA : RA m c (Proc.devRef .tc main_arg5) = (m ((c.tc : Thread nD τ).loc main_arg5)) := arg_RA m c ⟨5, by decide⟩
theorem arg10_RA : RA m c (Proc.devRef .tc main_arg10) = (m ((c.tc : Thread nD τ).loc main_arg10)) := arg_RA m c ⟨10, by decide⟩
theorem arg11_RA : RA m c (Proc.devRef .tc main_arg11) = (m ((c.tc : Thread nD τ).loc main_arg11)) := arg_RA m c ⟨11, by decide⟩
theorem arg12_RA : RA m c (Proc.devRef .tc main_arg12) = (m ((c.tc : Thread nD τ).loc main_arg12)) := arg_RA m c ⟨12, by decide⟩
theorem arg13_RA : RA m c (Proc.devRef .tc main_arg13) = (m ((c.tc : Thread nD τ).loc main_arg13)) := arg_RA m c ⟨13, by decide⟩

/-! ## The second layer -/

/-- No operation of the stretch writes a carried buffer. -/
theorem keep_B (W : Valuation τ sig (Elt F)) (j : Fin 22) :
    after (opsB : List (HloOp τ sig (Elt F))) W (Proc.devRef .tc (keepRef j)) = W (Proc.devRef .tc (keepRef j)) :=
  after_of_forall_not_mem (b := Proc.devRef .tc (keepRef j)) _ _ (List.forall_iff_forall_mem.mp (by
    spell_ops
    simp only [List.Forall, nullary_writes, unary_writes, binary_writes, ternary_writes, quaternary_writes, reshape_writes, binaryIndexed_writes, Finset.mem_singleton]
    repeat' apply And.intro
    all_goals exact devRef_ne_of_ne (by revert j; decide)))

theorem src_RB : RB m c (Proc.devRef .tc main_v1) = val_main_v1 (F := F) (m ((c.tc : Thread nD τ).loc main_arg1)) := (keep_B _ ⟨18, by decide⟩).trans (src_RA m c)
theorem dst_RB : RB m c (Proc.devRef .tc main_v3) = val_main_v3 (F := F) (m ((c.tc : Thread nD τ).loc main_arg1)) := (keep_B _ ⟨19, by decide⟩).trans (dst_RA m c)
theorem norm_RB : RB m c (Proc.devRef .tc main_v25) = val_main_v25 (F := F) (m ((c.tc : Thread nD τ).loc main_arg1)) := (keep_B _ ⟨20, by decide⟩).trans (norm_RA m c)
theorem self_RB : RB m c (Proc.devRef .tc main_v26) = val_main_v26 (F := F) (m ((c.tc : Thread nD τ).loc main_arg1)) := (keep_B _ ⟨21, by decide⟩).trans (self_RA m c)
theorem arg_RB (j : Fin 18) : RB m c (Proc.devRef .tc (argRef j)) = m ((c.tc : Thread nD τ).loc (argRef j)) :=
  (keep_B _ (j.castLE (by decide))).trans (arg_RA m c j)
theorem arg6_RB : RB m c (Proc.devRef .tc main_arg6) = (m ((c.tc : Thread nD τ).loc main_arg6)) := arg_RB m c ⟨6, by decide⟩
theorem arg7_RB : RB m c (Proc.devRef .tc main_arg7) = (m ((c.tc : Thread nD τ).loc main_arg7)) := arg_RB m c ⟨7, by decide⟩
theorem arg14_RB : RB m c (Proc.devRef .tc main_arg14) = (m ((c.tc : Thread nD τ).loc main_arg14)) := arg_RB m c ⟨14, by decide⟩
theorem arg15_RB : RB m c (Proc.devRef .tc main_arg15) = (m ((c.tc : Thread nD τ).loc main_arg15)) := arg_RB m c ⟨15, by decide⟩
theorem arg16_RB : RB m c (Proc.devRef .tc main_arg16) = (m ((c.tc : Thread nD τ).loc main_arg16)) := arg_RB m c ⟨16, by decide⟩
theorem arg17_RB : RB m c (Proc.devRef .tc main_arg17) = (m ((c.tc : Thread nD τ).loc main_arg17)) := arg_RB m c ⟨17, by decide⟩

theorem h2_RB : RB m c (Proc.devRef .tc main_v84) = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13)) := by
  dsimp only [RB]; spell_ops; after_results_simp
  rw [h1_RA m c, src_RA m c, dst_RA m c, norm_RA m c, self_RA m c, arg4_RA m c, arg5_RA m c, arg10_RA m c, arg11_RA m c,
    arg12_RA m c, arg13_RA m c]
  rfl

/-! ## The third layer -/

/-- No operation of the stretch writes a carried buffer. -/
theorem keep_C (W : Valuation τ sig (Elt F)) (j : Fin 22) :
    after (opsC : List (HloOp τ sig (Elt F))) W (Proc.devRef .tc (keepRef j)) = W (Proc.devRef .tc (keepRef j)) :=
  after_of_forall_not_mem (b := Proc.devRef .tc (keepRef j)) _ _ (List.forall_iff_forall_mem.mp (by
    spell_ops
    simp only [List.Forall, nullary_writes, unary_writes, binary_writes, ternary_writes, quaternary_writes, reshape_writes, binaryIndexed_writes, Finset.mem_singleton]
    repeat' apply And.intro
    all_goals exact devRef_ne_of_ne (by revert j; decide)))

theorem src_RC : RC m c (Proc.devRef .tc main_v1) = val_main_v1 (F := F) (m ((c.tc : Thread nD τ).loc main_arg1)) := (keep_C _ ⟨18, by decide⟩).trans (src_RB m c)
theorem dst_RC : RC m c (Proc.devRef .tc main_v3) = val_main_v3 (F := F) (m ((c.tc : Thread nD τ).loc main_arg1)) := (keep_C _ ⟨19, by decide⟩).trans (dst_RB m c)
theorem norm_RC : RC m c (Proc.devRef .tc main_v25) = val_main_v25 (F := F) (m ((c.tc : Thread nD τ).loc main_arg1)) := (keep_C _ ⟨20, by decide⟩).trans (norm_RB m c)
theorem self_RC : RC m c (Proc.devRef .tc main_v26) = val_main_v26 (F := F) (m ((c.tc : Thread nD τ).loc main_arg1)) := (keep_C _ ⟨21, by decide⟩).trans (self_RB m c)
theorem arg_RC (j : Fin 18) : RC m c (Proc.devRef .tc (argRef j)) = m ((c.tc : Thread nD τ).loc (argRef j)) :=
  (keep_C _ (j.castLE (by decide))).trans (arg_RB m c j)
theorem arg8_RC : RC m c (Proc.devRef .tc main_arg8) = (m ((c.tc : Thread nD τ).loc main_arg8)) := arg_RC m c ⟨8, by decide⟩
theorem arg9_RC : RC m c (Proc.devRef .tc main_arg9) = (m ((c.tc : Thread nD τ).loc main_arg9)) := arg_RC m c ⟨9, by decide⟩

theorem h3_RC : RC m c (Proc.devRef .tc main_v120) = val_main_v120 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  dsimp only [RC]; spell_ops; after_results_simp
  rw [h2_RB m c, src_RB m c, dst_RB m c, norm_RB m c, self_RB m c, arg6_RB m c, arg7_RB m c, arg14_RB m c, arg15_RB m c,
    arg16_RB m c, arg17_RB m c]
  rfl

end Cert.ReferenceIdeal.RunP

end
-- ==== Proof.RefRunOut.lean ====
/-
  The reference program's run, with its result at the staged term.

  The last stretch of the reference is the output layer (the two-column `conv` of the third layer's output) followed by
  the logarithm of the softmax. Read in those two steps, the result buffer holds the program's last stage
  `val_main_v142` of the arguments. With the fold through the hidden layers this gives the run: every weakly fair
  execution terminates, the result is that stage, and no operation writes an argument.
-/
import proofs.«145619_j27719718928688_2_alg».proof.Proof.RefRun
import proofs.«145619_j27719718928688_2_alg».proof.Proof.LibTRefCast

set_option maxRecDepth 16384
set_option maxHeartbeats 4000000

noncomputable section

namespace Cert.ReferenceIdeal.RunP

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The output layer before the softmax. -/
def opsD1 : List (HloOp τ sig (Elt F)) := (opsD (F := F)).take 24
/-- The logarithm of the softmax. -/
def opsD2 : List (HloOp τ sig (Elt F)) := (opsD (F := F)).drop 24

theorem opsD_split : (opsD (F := F)) = opsD1 ++ opsD2 := (List.take_append_drop 24 _).symm

/-- Spell the last stretch's two parts as literal lists. -/
macro "spell_out" : tactic =>
  `(tactic| simp only [opsD1, opsD2, opsD, ops, List.take_succ_cons, List.take_zero, List.drop_succ_cons, List.drop_zero])

/-- No operation of the stretch writes a carried buffer. -/
theorem keep_D (W : Valuation τ sig (Elt F)) (j : Fin 22) :
    after (opsD : List (HloOp τ sig (Elt F))) W (Proc.devRef .tc (keepRef j)) = W (Proc.devRef .tc (keepRef j)) :=
  after_of_forall_not_mem (b := Proc.devRef .tc (keepRef j)) _ _ (List.forall_iff_forall_mem.mp (by
    spell_ops
    simp only [List.Forall, nullary_writes, unary_writes, binary_writes, ternary_writes, quaternary_writes, reshape_writes, binaryIndexed_writes, Finset.mem_singleton]
    repeat' apply And.intro
    all_goals exact devRef_ne_of_ne (by revert j; decide)))

variable (m : (ℓ : Loc nD τ sig) → Buf (Elt F) ℓ) (c : Dev nD)

theorem arg_RD (j : Fin 18) : RD m c (Proc.devRef .tc (argRef j)) = m ((c.tc : Thread nD τ).loc (argRef j)) :=
  (keep_D _ (j.castLE (by decide))).trans (arg_RC m c j)

/-- The buffers before the softmax. -/
def RD1 : Valuation τ sig (Elt F) := after opsD1 (RC m c)

theorem RD_eq : RD m c = after opsD2 (RD1 m c) := by
  unfold RD RD1; rw [opsD_split, after_append]

theorem pre_RD1 : RD1 m c (Proc.devRef .tc main_v141) = val_main_v141 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  dsimp only [RD1]; spell_out; after_results_simp
  rw [h3_RC m c, src_RC m c, dst_RC m c, norm_RC m c, self_RC m c, arg8_RC m c, arg9_RC m c]
  rfl

theorem out_RD : RD m c (Proc.devRef .tc main_v142) = val_main_v142 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [RD_eq]; spell_out; after_results_simp
  simp only [Cert.Lib.ofBuf_toBuf]
  rw [pre_RD1 m c]
  unfold val_main_v142 val_main_call3_v10 val_main_call3_v9 val_main_call3_v8 val_main_call3_v7 val_main_call3_v6
    val_main_call3_v5 val_main_call3_v4 val_main_call3_v3 val_main_call3_v2 val_main_call3_v1 val_main_call3_v0
    val_main_call3_cst val_main_call3_cst_0 val_main_call3_cst_1
  rfl

/-- Every weakly fair execution of the reference terminates without a fault, with its result at the last stage of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v142) = val_main_v142 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v142).trans (by rw [fold_eq]; exact out_RD m c),
      (h c main_arg0).trans (by rw [fold_eq]; exact arg_RD m c ⟨0, by decide⟩),
      (h c main_arg1).trans (by rw [fold_eq]; exact arg_RD m c ⟨1, by decide⟩),
      (h c main_arg2).trans (by rw [fold_eq]; exact arg_RD m c ⟨2, by decide⟩),
      (h c main_arg3).trans (by rw [fold_eq]; exact arg_RD m c ⟨3, by decide⟩),
      (h c main_arg4).trans (by rw [fold_eq]; exact arg_RD m c ⟨4, by decide⟩),
      (h c main_arg5).trans (by rw [fold_eq]; exact arg_RD m c ⟨5, by decide⟩),
      (h c main_arg6).trans (by rw [fold_eq]; exact arg_RD m c ⟨6, by decide⟩),
      (h c main_arg7).trans (by rw [fold_eq]; exact arg_RD m c ⟨7, by decide⟩),
      (h c main_arg8).trans (by rw [fold_eq]; exact arg_RD m c ⟨8, by decide⟩),
      (h c main_arg9).trans (by rw [fold_eq]; exact arg_RD m c ⟨9, by decide⟩),
      (h c main_arg10).trans (by rw [fold_eq]; exact arg_RD m c ⟨10, by decide⟩),
      (h c main_arg11).trans (by rw [fold_eq]; exact arg_RD m c ⟨11, by decide⟩),
      (h c main_arg12).trans (by rw [fold_eq]; exact arg_RD m c ⟨12, by decide⟩),
      (h c main_arg13).trans (by rw [fold_eq]; exact arg_RD m c ⟨13, by decide⟩),
      (h c main_arg14).trans (by rw [fold_eq]; exact arg_RD m c ⟨14, by decide⟩),
      (h c main_arg15).trans (by rw [fold_eq]; exact arg_RD m c ⟨15, by decide⟩),
      (h c main_arg16).trans (by rw [fold_eq]; exact arg_RD m c ⟨16, by decide⟩),
      (h c main_arg17).trans (by rw [fold_eq]; exact arg_RD m c ⟨17, by decide⟩)⟩)
    (run_seq scopedRefs_eq scopedSems_eq defs main (fun _ => ops) main_eq (fun _ => ops_sub) m ρ)

end Cert.ReferenceIdeal.RunP

end
-- ==== Proof.LibRowGather.lean ====
/-
  The gather of WHOLE ROWS of a matrix, read at an index.

  For a matrix `x : [N, C]` and an integer column `idx : [R, 1]`, the gather with offset axes `[1]`, collapsed slice
  axes `[0]`, start index map `[0]`, index vector axis `1` and slice sizes `[1, C]` is the matrix `[R, C]` whose
  element `(r, c)` is `x` at row `idx[r, 0]` — read as a signed integer and clamped into `[0, N − 1]`, as a gather
  clamps every start index so that the slice fits — and column `c`. The statement is general in the extents `N`, `R`,
  `C`, in the index width `w` and in the element type, and is meant to be reused: `rowGather_apply` for the dimension
  numbers written out (`rowGatherDims`), `rowGather_apply'` for ANY record of dimension numbers with those seven fields.
-/
import Idealize.ShloMosaic.PureOps.Ideal
import Idealize.ShloMosaic.Lib.ValueIdx

namespace Cert.Lib

open Idealize.ShloMosaic Idealize.ShloMosaic.ValueIdx

/-- The dimension numbers of a gather of whole rows: operand `[N, C]`, start indices `[R, 1]` (one row number per
    result row, on the index vector's axis `1`), result `[R, C]`; operand axis `0` is collapsed and is the one the
    start index addresses, operand axis `1` is the result's offset axis `1`, read whole (slice sizes `[1, C]`). Their
    conditions `wf` are decidable on literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]`, read signed and clamped into `[0, N − 1]`, and
    column `c`. On operand axis `0` (collapsed, in the start index map) the operand index is the clamped start, with
    no batching and no offset part; on operand axis `1` (the offset axis, not in the start index map) the start is `0`
    and the index is the result's column. -/
theorem rowGather_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N R C wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ =>
    show (rowGatherDims N R C wf).start (ix2 r c) idx 0 + (rowGatherDims N R C wf).batchCoord (ix2 r c) 0
        + (rowGatherDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r c) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r c) idx 1 + (rowGatherDims N R C wf).batchCoord (ix2 r c) 1
        + (rowGatherDims N R C wf).offCoord (ix2 r c) 1 = _
    rw [GatherDims.batchCoord_eq_zero _ _ _ List.not_mem_nil]
    have hst : (rowGatherDims N R C wf).start (ix2 r c) idx 1 = 0 := by
      unfold GatherDims.start
      rw [dif_neg (fun h => Nat.one_ne_zero (congrArg Fin.val (List.mem_singleton.mp h)))]
    have hmem : (1 : Fin 2) ∈ (rowGatherDims N R C wf).sKept :=
      (GatherDims.mem_sKept _ _).mpr ⟨fun h => Nat.one_ne_zero (congrArg Fin.val (List.mem_singleton.mp h)), List.not_mem_nil⟩
    have hoff : (rowGatherDims N R C wf).offCoord (ix2 r c) 1 = c.val := by
      unfold GatherDims.offCoord
      rw [dif_pos hmem]
      rfl
    rw [hst, hoff]
    simp only [Nat.add_zero, Nat.zero_add]

/-- The same for ANY record of gather dimension numbers over those three shapes whose fields are the row gather's (for a
    record given by its literal fields the seven equations hold by `rfl`). -/
theorem rowGather_apply' {α : Type} {N R C w : Nat} (hN : 0 < N)
    (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![R, 1]⟩ w) (r : Fin R) (c : Fin C) :
    Host.gather d x idx (ix2 r c)
      = x (ix2 (⟨min (idx (ix2 r (0 : Fin 1))).toInt.toNat (N - 1), by omega⟩ : Fin N) c) := by
  obtain ⟨od, cd, ob, sb, sm, iv, ss, wf⟩ := d
  simp only at h1 h2 h3 h4 h5 h6 h7
  subst h1 h2 h3 h4 h5 h6 h7
  exact rowGather_apply hN wf x idx r c

end Cert.Lib
-- ==== Proof.LibTakeGather.lean ====
/-
  The gather of SINGLE ENTRIES of a vector, read at an index.

  For a vector `x : [N]` and an integer column `idx : [R, 1]`, the gather with no offset axis, collapsed slice axes
  `[0]`, start index map `[0]`, index vector axis `1` and slice sizes `[1]` is the vector `[R]` whose element `e` is
  `x` at entry `idx[e, 0]` — read as a signed integer and clamped into `[0, N − 1]`, as a gather clamps every start
  index so that the slice fits. The statement is general in the extents `N`, `R`, in the index width `w` and in the
  element type, and is meant to be reused: `takeGather_apply` for the dimension numbers written out
  (`takeGatherDims`), `takeGather_apply'` for ANY record of dimension numbers with those seven fields.
-/
import Idealize.ShloMosaic.PureOps.Ideal
import Idealize.ShloMosaic.Lib.ValueIdx

namespace Cert.Lib

open Idealize.ShloMosaic Idealize.ShloMosaic.ValueIdx

/-- The dimension numbers of a gather of single entries of a vector: operand `[N]`, start indices `[R, 1]` (one entry
    number per result entry, on the index vector's axis `1`), result `[R]`; the operand's one axis is collapsed and is
    the one the start index addresses (slice sizes `[1]`), and there is no offset axis. Their conditions `wf` are
    decidable on literal shapes. -/
abbrev takeGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the operand at entry `idx[e, 0]`, read signed and clamped into `[0, N − 1]`. On the
    operand's one axis (collapsed, in the start index map) the operand index is the clamped start, with no batching and
    no offset part. -/
theorem takeGather_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (takeGatherDims N R wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (takeGatherDims N R wf).start (ix1 e) idx 0 + (takeGatherDims N R wf).batchCoord (ix1 e) 0
      + (takeGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeGatherDims N R wf).startIndexMap from List.mem_singleton.mpr rfl)]
  have hsi : (takeGatherDims N R wf).siIdx (ix1 e) ⟨List.idxOf (0 : Fin 1) (takeGatherDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The same for ANY record of gather dimension numbers over those three shapes whose fields are the entry gather's (for
    a record given by its literal fields the seven equations hold by `rfl`). -/
theorem takeGather_apply' {α : Type} {N R w : Nat} (hN : 0 < N)
    (d : GatherDims ⟨1, ![N]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![R, 1]⟩ w) (e : Fin R) :
    Host.gather d x idx (ix1 e)
      = x (ix1 (⟨min (idx (ix2 e (0 : Fin 1))).toInt.toNat (N - 1), by omega⟩ : Fin N)) := by
  obtain ⟨od, cd, ob, sb, sm, iv, ss, wf⟩ := d
  simp only at h1 h2 h3 h4 h5 h6 h7
  subst h1 h2 h3 h4 h5 h6 h7
  exact takeGather_apply hN wf x idx e

end Cert.Lib
-- ==== Proof.LibRowScatter.lean ====
/-
  The scatter of WHOLE ROWS into a matrix: where an update element lands.

  For an operand `[N, C]`, an integer column `idx : [R, 1]` and updates `[R, C]`, the scatter with update window
  axes `[1]`, inserted window axes `[0]`, scatter-dims-to-operand-dims map `[0]` and index vector axis `1` sends
  the update element `(e, c)` to the operand element `(idx[e, 0], c)`: the row is the start index, read as a SIGNED
  integer and NOT clamped, the column is the update's own column. When the row is outside `[0, N)` the update is
  dropped. So `resultIdx? (e, c) idx = some i` holds exactly when `idx[e, 0]`, read signed, is `i`'s row and
  `c` is `i`'s column. The statements are general in the extents `N`, `R`, `C` and in the index width `w`, and are
  meant to be reused: the unprimed ones for the dimension numbers written out (`rowScatterDims`), the primed ones for
  ANY record of dimension numbers with those four fields.
-/
import Idealize.ShloMosaic.PureOps.Ideal
import Idealize.ShloMosaic.Lib.ValueIdx

namespace Cert.Lib

open Idealize.ShloMosaic Idealize.ShloMosaic.ValueIdx

/-- The dimension numbers of a scatter of whole rows: operand `[N, C]`, scatter indices `[R, 1]` (one row number per
    update row, on the index vector's axis `1`), updates `[R, C]`; operand axis `0` is the inserted window axis and
    the one the start index addresses, the updates' axis `1` is the window axis and goes to operand axis `1`. Their
    conditions `wf` are decidable on literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On operand axis `0` (in the scatter-dims-to-operand-dims map) the window of update `(e, c)` starts at
    `idx[e, 0]`, read signed. -/
theorem rowScatter_start_zero {N R C w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) :
    (rowScatterDims N R C wf).start (ix2 e c) idx 0 = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e c)
      ⟨List.idxOf (0 : Fin 2) (rowScatterDims N R C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis `1` (not in the map) the window starts at `0`. -/
theorem rowScatter_start_one {N R C w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) :
    (rowScatterDims N R C wf).start (ix2 e c) idx 1 = 0 := by
  unfold ScatterDims.start
  rw [dif_neg (fun h => Nat.one_ne_zero (congrArg Fin.val (List.mem_singleton.mp h)))]

/-- An operand axis is kept (receives a window axis of the updates) exactly when it is not an inserted window axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

/-- On operand axis `0` (an inserted window axis) the window coordinate is `0`. -/
theorem rowScatter_window_zero {N R C : Nat}
    (wf : ScatterDims.WF ⟨2, ![N, C]⟩ ⟨2, ![R, 1]⟩ ⟨2, ![R, C]⟩ [1] [0] [0] 1) (e : Fin R) (c : Fin C) :
    (rowScatterDims N R C wf).window (ix2 e c) 0 = 0 := by
  unfold ScatterDims.window
  rw [dif_neg (fun h => (scatter_mem_sKept _ _).mp h (List.mem_singleton.mpr rfl))]

/-- On operand axis `1` (the kept axis) the window coordinate is the update's column. -/
theorem rowScatter_window_one {N R C : Nat}
    (wf : ScatterDims.WF ⟨2, ![N, C]⟩ ⟨2, ![R, 1]⟩ ⟨2, ![R, C]⟩ [1] [0] [0] 1) (e : Fin R) (c : Fin C) :
    (rowScatterDims N R C wf).window (ix2 e c) 1 = c.val := by
  unfold ScatterDims.window
  rw [dif_pos ((scatter_mem_sKept _ _).mpr
    (fun h => Nat.one_ne_zero (congrArg Fin.val (List.mem_singleton.mp h))))]
  rfl

/-- WHERE AN UPDATE LANDS: if update `(e, c)` lands on the operand element `i`, then `idx[e, 0]`, read signed, is
    `i`'s row (so it lies in `[0, N)`) and `c` is `i`'s column. -/
theorem rowScatter_resultIdx_some {N R C w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (i : (⟨2, ![N, C]⟩ : Shape).Idx)
    (h : (rowScatterDims N R C wf).resultIdx? (ix2 e c) idx = some i) :
    (idx (ix2 e (0 : Fin 1))).toInt = ((i 0).val : Int) ∧ (i 1).val = c.val := by
  unfold ScatterDims.resultIdx? at h
  split at h
  · rename_i hr
    have hi := Option.some.inj h
    subst hi
    have h0 := hr 0
    rw [rowScatter_start_zero, rowScatter_window_zero] at h0
    refine ⟨?_, ?_⟩
    · show _ = (((((rowScatterDims N R C wf).start (ix2 e c) idx 0
          + ((rowScatterDims N R C wf).window (ix2 e c) 0 : Nat)).toNat : Nat)) : Int)
      rw [rowScatter_start_zero, rowScatter_window_zero]
      omega
    · show ((rowScatterDims N R C wf).start (ix2 e c) idx 1
          + ((rowScatterDims N R C wf).window (ix2 e c) 1 : Nat)).toNat = c.val
      rw [rowScatter_start_one, rowScatter_window_one]
      omega
  · exact absurd h (by simp)

/-- The converse: when `idx[e, 0]`, read signed, is the row `n` of the operand, update `(e, c)` lands on `(n, c)`. -/
theorem rowScatter_resultIdx_of_eq {N R C w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (n : Fin N)
    (h : (idx (ix2 e (0 : Fin 1))).toInt = (n.val : Int)) :
    (rowScatterDims N R C wf).resultIdx? (ix2 e c) idx = some (ix2 n c) := by
  have hr : ∀ a, 0 ≤ (rowScatterDims N R C wf).start (ix2 e c) idx a + (rowScatterDims N R C wf).window (ix2 e c) a
      ∧ (rowScatterDims N R C wf).start (ix2 e c) idx a + (rowScatterDims N R C wf).window (ix2 e c) a
        < (⟨2, ![N, C]⟩ : Shape).size a := by
    intro a
    match a with
    | ⟨0, _⟩ =>
      show 0 ≤ (rowScatterDims N R C wf).start (ix2 e c) idx 0 + ((rowScatterDims N R C wf).window (ix2 e c) 0 : Nat)
        ∧ (rowScatterDims N R C wf).start (ix2 e c) idx 0 + ((rowScatterDims N R C wf).window (ix2 e c) 0 : Nat) < (N : Int)
      rw [rowScatter_start_zero, rowScatter_window_zero, h]
      have := n.isLt
      omega
    | ⟨1, _⟩ =>
      show 0 ≤ (rowScatterDims N R C wf).start (ix2 e c) idx 1 + ((rowScatterDims N R C wf).window (ix2 e c) 1 : Nat)
        ∧ (rowScatterDims N R C wf).start (ix2 e c) idx 1 + ((rowScatterDims N R C wf).window (ix2 e c) 1 : Nat) < (C : Int)
      rw [rowScatter_start_one, rowScatter_window_one]
      have := c.isLt
      omega
  unfold ScatterDims.resultIdx?
  rw [dif_pos hr]
  refine congrArg some ?_
  funext a
  refine Fin.ext ?_
  match a with
  | ⟨0, _⟩ =>
    show ((rowScatterDims N R C wf).start (ix2 e c) idx 0
        + ((rowScatterDims N R C wf).window (ix2 e c) 0 : Nat)).toNat = n.val
    rw [rowScatter_start_zero, rowScatter_window_zero, h]
    omega
  | ⟨1, _⟩ =>
    show ((rowScatterDims N R C wf).start (ix2 e c) idx 1
        + ((rowScatterDims N R C wf).window (ix2 e c) 1 : Nat)).toNat = c.val
    rw [rowScatter_start_one, rowScatter_window_one]
    omega

/-- `rowScatter_resultIdx_some` for ANY record of scatter dimension numbers over those three shapes whose fields are the
    row scatter's (for a record given by its literal fields the four equations hold by `rfl`). -/
theorem rowScatter_resultIdx_some' {N R C w : Nat}
    (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (idx : IVec ⟨2, ![R, 1]⟩ w) (e : Fin R) (c : Fin C) (i : (⟨2, ![N, C]⟩ : Shape).Idx)
    (h : d.resultIdx? (ix2 e c) idx = some i) :
    (idx (ix2 e (0 : Fin 1))).toInt = ((i 0).val : Int) ∧ (i 1).val = c.val := by
  obtain ⟨uw, iw, sd, iv, wf⟩ := d
  simp only at h1 h2 h3 h4
  subst h1 h2 h3 h4
  exact rowScatter_resultIdx_some wf idx e c i h

/-- `rowScatter_resultIdx_of_eq` for ANY record of scatter dimension numbers with the row scatter's four fields. -/
theorem rowScatter_resultIdx_of_eq' {N R C w : Nat}
    (d : ScatterDims ⟨2, ![N, C]⟩ ⟨2, ![R, 1]⟩ ⟨2, ![R, C]⟩)
    (h1 : d.updateWindowDims = [1]) (h2 : d.insertedWindowDims = [0]) (h3 : d.scatterDimsToOperandDims = [0])
    (h4 : d.indexVectorDim = 1)
    (idx : IVec ⟨2, ![R, 1]⟩ w) (e : Fin R) (c : Fin C) (n : Fin N)
    (h : (idx (ix2 e (0 : Fin 1))).toInt = (n.val : Int)) :
    d.resultIdx? (ix2 e c) idx = some (ix2 n c) := by
  obtain ⟨uw, iw, sd, iv, wf⟩ := d
  simp only at h1 h2 h3 h4
  subst h1 h2 h3 h4
  exact rowScatter_resultIdx_of_eq wf idx e c n h

end Cert.Lib
-- ==== Proof.LibERealCoe.lean ====
/-
  Real numbers inside the extended reals: the coercion `ℝ → EReal` commutes with finite sums and with
  the maximum of a finite family, and on a real argument inside their domains the reciprocal square
  root, the power `-1/2`, the exponential and the logarithm of the ideal instance are the coerced real
  functions.  With these a computation on finite inputs is carried out in `ℝ` once and for all.
-/
import Idealize.ShloMosaic.PureOps.Ideal

noncomputable section

namespace Cert.Lib

open Idealize.ShloMosaic

/-- A finite sum of coerced reals is the coerced sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of a finite nonempty family of coerced reals is the coerced maximum. -/
theorem coe_sup' {ι : Type*} (s : Finset ι) (h : s.Nonempty) (f : ι → ℝ) :
    ((s.sup' h f : ℝ) : EReal) = s.sup' h (fun i => ((f i : ℝ) : EReal)) :=
  Finset.comp_sup'_eq_sup'_comp h (fun x : ℝ => (x : EReal)) (fun a b => EReal.coe_strictMono.monotone.map_max)

/-- The larger of two coerced reals is the coerced larger one. -/
theorem coe_max (a b : ℝ) : max ((a : ℝ) : EReal) ((b : ℝ) : EReal) = ((max a b : ℝ) : EReal) :=
  (EReal.coe_strictMono.monotone.map_max).symm

/-- `1/√d` at a positive real. -/
theorem rsqrt_coe_pos {d : ℝ} (h : 0 < d) : Ideal.rsqrt (d : EReal) = (((Real.sqrt d)⁻¹ : ℝ) : EReal) := by
  rw [Ideal.rsqrt_coe, if_neg (not_lt.mpr h.le), if_neg h.ne']

/-- `d ^ (-1/2)` at a positive real is `1/√d`. -/
theorem pow_neg_half_coe_pos {d : ℝ} (h : 0 < d) :
    Ideal.pow (d : EReal) (((-(1 / 2) : ℝ)) : EReal) = (((Real.sqrt d)⁻¹ : ℝ) : EReal) := by
  rw [Ideal.pow_coe_coe]
  congr 1
  show d ^ (-(1 / 2) : ℝ) = _
  rw [Real.rpow_neg h.le, Real.sqrt_eq_rpow]

/-- The exponential of a real. -/
theorem exp_coe' (r : ℝ) : Ideal.exp (r : EReal) = ((Real.exp r : ℝ) : EReal) := rfl

/-- The logarithm at a positive real. -/
theorem log_coe_pos {r : ℝ} (h : 0 < r) : Ideal.log (r : EReal) = ((Real.log r : ℝ) : EReal) := by
  rw [Ideal.log_coe, if_neg (not_le.mpr h)]

/-- A coerced real is not an infinity: its absolute value is below `⊤`. -/
theorem abs_coe_lt_top (r : ℝ) : ((|r| : ℝ) : EReal) < ⊤ := EReal.coe_lt_top _

end Cert.Lib

end
-- ==== Proof.LibNonnegDistrib.lean ====
/-
  Multiplication by a NON-NEGATIVE REAL distributes over addition and over finite sums on the extended reals.

  On `EReal` the product does not distribute over the sum in general (`⊤ + ⊥ = ⊥`, and a negative factor turns the
  summands around), but a factor `x` that is a coerced real with `0 ≤ x` does: it is neither `⊤` nor `⊥`, it keeps
  the sign of every summand, and `0 * _ = 0`. Nothing is assumed of the summands: they may be `⊤` or `⊥`.
-/
import Mathlib.Data.EReal.Operations
import Mathlib.Algebra.BigOperators.Group.Finset.Basic

namespace Cert.Lib

/-- `x * (a + b) = x * a + x * b` for a real `x ≥ 0` and any extended reals `a`, `b`. -/
theorem coe_nonneg_mul_add {x : ℝ} (hx : 0 ≤ x) (a b : EReal) :
    (x : EReal) * (a + b) = (x : EReal) * a + (x : EReal) * b :=
  EReal.left_distrib_of_nonneg_of_ne_top (EReal.coe_nonneg.mpr hx) (EReal.coe_ne_top x) a b

/-- `x * ∑ f = ∑ x * f` over a finite set, for a real `x ≥ 0` and any extended reals `f j`. -/
theorem coe_nonneg_mul_sum {ι : Type*} {x : ℝ} (hx : 0 ≤ x) (s : Finset ι) (f : ι → EReal) :
    (x : EReal) * ∑ j ∈ s, f j = ∑ j ∈ s, (x : EReal) * f j := by
  classical
  induction s using Finset.induction_on with
  | empty => simp
  | insert a s ha ih => rw [Finset.sum_insert ha, Finset.sum_insert ha, coe_nonneg_mul_add hx, ih]

end Cert.Lib
-- ==== Proof.LayerLaw.lean ====
/-
  THE PER-LAYER LAW of the graph network on the extended reals.

  A layer multiplies node features `hw : [100000, 128]` (any extended reals) by the symmetric normalisation of the
  adjacency: with `dis[r]` a NON-NEGATIVE REAL per node, and every edge `e` carrying a clamped source row and a signed
  target row,

    reference:  agg[r, c]  = ∑ over the edges landing on r of  hw[src e, c] · (dis[src e] · dis[dst e]),
                pre[r, c]  = agg[r, c] + hw[r, c] · (dis[r] · dis[r]);
    kernel:     hws[r, c]  = hw[r, c] · dis[r],
                agg'[r, c] = ∑ over the edges landing on r of  hws[src e, c],
                pre'[r, c] = dis[r] · (agg'[r, c] + hws[r, c]).

  Both sums run over the same set of update elements `(e, c)`: those whose signed target is `r`, which is then a row
  in range, so the clamped gather of `dis` at the target reads `dis[r]`. On such an element the reference's summand is
  `hw[s, c] · (dis[s] · dis[r])` and the kernel's is `hw[s, c] · dis[s]`, with `s` the clamped source row. The two sides
  agree because multiplication by a non-negative REAL distributes over `+` and over finite sums on the extended reals
  even at `±∞` (LibNonnegDistrib), and `·` is commutative and associative. Nothing else is assumed finite.

  Beside the law: the degree-based normaliser `rsqrt (count + 1)` is a non-negative real, the single-precision word of
  `1.0`, and the sign normalisation of an index that is already non-negative.
-/
import proofs.«145619_j27719718928688_2_alg».proof.Proof.Spec
import proofs.«145619_j27719718928688_2_alg».proof.Proof.LibRowGather
import proofs.«145619_j27719718928688_2_alg».proof.Proof.LibTakeGather
import proofs.«145619_j27719718928688_2_alg».proof.Proof.LibRowScatter
import proofs.«145619_j27719718928688_2_alg».proof.Proof.LibERealCoe
import proofs.«145619_j27719718928688_2_alg».proof.Proof.LibNonnegDistrib

noncomputable section

namespace Cert.Law

open Idealize.ShloMosaic Idealize.ShloMosaic.ValueIdx

/-- One integer per edge, as a column. -/
abbrev SEdges1 : Shape := ⟨2, ![800000, 1]⟩
/-- One row of 128 columns per edge. -/
abbrev SEdges128 : Shape := ⟨2, ![800000, 128]⟩
/-- One entry per node. -/
abbrev SNodes : Shape := ⟨1, ![100000]⟩
/-- One entry per edge. -/
abbrev SEdges : Shape := ⟨1, ![800000]⟩

/-- THE LAW: at every entry `(r, c)`, `dis[r] · (agg' + hws)` of the kernel is `agg + hw · (dis[r] · dis[r])` of the
    reference. `srcN` is the source column every gather of rows uses; `dstI` the signed target column of the scatter
    (an edge lands on `r` iff `dstI[e, 0]`, read signed, is `r`); `dstN` the target column used to gather `dis`, equal
    to `dstI` wherever that is non-negative. -/
theorem layer_pre_eq
    (dG : GatherDims Cert.Spec.SNodes128 SEdges1 SEdges128) (hG1 : dG.offsetDims = [1]) (hG2 : dG.collapsedSliceDims = [0]) (hG3 : dG.operandBatchingDims = []) (hG4 : dG.startIndicesBatchingDims = []) (hG5 : dG.startIndexMap = [0]) (hG6 : dG.indexVectorDim = 1) (hG7 : dG.sliceSizes = ![1, 128])
    (dS : ScatterDims Cert.Spec.SNodes128 SEdges1 SEdges128) (hS1 : dS.updateWindowDims = [1]) (hS2 : dS.insertedWindowDims = [0]) (hS3 : dS.scatterDimsToOperandDims = [0]) (hS4 : dS.indexVectorDim = 1)
    (dT : GatherDims SNodes SEdges1 SEdges) (hT1 : dT.offsetDims = []) (hT2 : dT.collapsedSliceDims = [0]) (hT3 : dT.operandBatchingDims = []) (hT4 : dT.startIndicesBatchingDims = []) (hT5 : dT.startIndexMap = [0]) (hT6 : dT.indexVectorDim = 1) (hT7 : dT.sliceSizes = ![1])
    (dis : FVec Ideal SNodes .f32) (hdis : ∀ r : Fin 100000, ∃ x : ℝ, 0 ≤ x ∧ dis (ix1 r) = ((x : ℝ) : EReal))
    (d2 : FVec Ideal Cert.Spec.SNodes1 .f32) (hd2 : ∀ r : Fin 100000, d2 (ix2 r (0 : Fin 1)) = dis (ix1 r))
    (srcN dstN dstI : IVec SEdges1 32)
    (hdst : ∀ e : Fin 800000, 0 ≤ (dstI (ix2 e (0 : Fin 1))).toInt → dstN (ix2 e (0 : Fin 1)) = dstI (ix2 e (0 : Fin 1)))
    (z : FVec Ideal Cert.Spec.SNodes128 .f32) (hz : ∀ i, z i = 0)
    (hw hws : FVec Ideal Cert.Spec.SNodes128 .f32) (hhws : ∀ i, hws i = hw i * d2 (ix2 (Cert.Spec.nodeOf i) (0 : Fin 1)))
    (nb : FVec Ideal SEdges128 .f32) (hnb : ∀ (e : Fin 800000) (c : Fin 128), nb (ix2 e c) = Host.gather dT dis srcN (ix1 e) * Host.gather dT dis dstN (ix1 e))
    (sn : FVec Ideal Cert.Spec.SNodes128 .f32) (hsn : ∀ i, sn i = dis (ix1 (Cert.Spec.nodeOf i)) * dis (ix1 (Cert.Spec.nodeOf i)))
    (i : Cert.Spec.SNodes128.Idx) :
    d2 (ix2 (Cert.Spec.nodeOf i) (0 : Fin 1)) * (Host.scatterAdd (F := Ideal) dS z dstI (Host.gather dG hws srcN) i + hws i)
      = Host.scatterAdd (F := Ideal) dS z dstI (mulf (Host.gather dG hw srcN) nb) i + mulf hw sn i := by
  obtain ⟨x, hx, hxr⟩ := hdis (Cert.Spec.nodeOf i)
  have hd2r : d2 (ix2 (Cert.Spec.nodeOf i) (0 : Fin 1)) = (x : EReal) := by rw [hd2, hxr]
  show d2 (ix2 (Cert.Spec.nodeOf i) (0 : Fin 1))
      * (Ideal.hostScatterAdd dS z dstI (Host.gather dG hws srcN) i + hws i)
    = Ideal.hostScatterAdd dS z dstI (mulf (Host.gather dG hw srcN) nb) i + hw i * sn i
  unfold Ideal.hostScatterAdd
  rw [hz i, zero_add, zero_add, hsn, hhws i, hd2r, hxr, Cert.Lib.coe_nonneg_mul_add hx,
    Cert.Lib.coe_nonneg_mul_sum hx]
  refine congrArg₂ (· + ·) ?_ ?_
  · refine Finset.sum_congr rfl ?_
    intro j hj
    obtain ⟨e, c', rfl⟩ : ∃ (e : Fin 800000) (c' : Fin 128), j = ix2 e c' := ⟨j 0, j 1, eq_ix2 j⟩
    have hland := Cert.Lib.rowScatter_resultIdx_some' dS hS1 hS2 hS3 hS4 dstI e c' i (Finset.mem_filter.mp hj).2
    have hnn : 0 ≤ (dstI (ix2 e (0 : Fin 1))).toInt := by rw [hland.1]; exact Int.natCast_nonneg _
    have ht : (⟨min (dstN (ix2 e (0 : Fin 1))).toInt.toNat (100000 - 1), by omega⟩ : Fin 100000)
        = Cert.Spec.nodeOf i := by
      apply Fin.ext
      show min (dstN (ix2 e (0 : Fin 1))).toInt.toNat (100000 - 1) = (i 0).val
      rw [hdst e hnn, hland.1]
      have hlt : (i 0).val < 100000 := (i 0).isLt
      omega
    rw [mulf_apply, Cert.Lib.rowGather_apply' (by norm_num) dG hG1 hG2 hG3 hG4 hG5 hG6 hG7 hws srcN e c',
      Cert.Lib.rowGather_apply' (by norm_num) dG hG1 hG2 hG3 hG4 hG5 hG6 hG7 hw srcN e c', hnb e c',
      Cert.Lib.takeGather_apply' (by norm_num) dT hT1 hT2 hT3 hT4 hT5 hT6 hT7 dis srcN e,
      Cert.Lib.takeGather_apply' (by norm_num) dT hT1 hT2 hT3 hT4 hT5 hT6 hT7 dis dstN e, ht, hxr, hhws, hd2,
      mul_comm (x : EReal), mul_assoc]
  · rw [mul_comm (x : EReal) (hw i * (x : EReal)), mul_assoc]

end Cert.Law

end

noncomputable section

namespace Cert.Law

open Idealize.ShloMosaic Idealize.ShloMosaic.ValueIdx

/-- The inverse square root of `count + 1`, the count being a finite sum of ones: a non-negative real. The count plus
    one is a real `≥ 1`, so its inverse square root is the coerced `(√(count + 1))⁻¹`. -/
theorem rsqrt_count_add_one {ι : Type*} (S : Finset ι) (u : ι → EReal) (hu : ∀ j, u j = ((1 : ℝ) : EReal)) :
    ∃ x : ℝ, 0 ≤ x ∧ Ideal.rsqrt ((0 + ∑ j ∈ S, u j) + ((1 : ℝ) : EReal)) = ((x : ℝ) : EReal) := by
  have hsum : (0 + ∑ j ∈ S, u j) + ((1 : ℝ) : EReal) = ((((S.card : ℝ) + 1 : ℝ)) : EReal) := by
    rw [zero_add, Finset.sum_congr rfl (fun j _ => hu j), Cert.Lib.coe_sum, Finset.sum_const, nsmul_eq_mul, mul_one,
      EReal.coe_add]
  refine ⟨(Real.sqrt ((S.card : ℝ) + 1))⁻¹, inv_nonneg.mpr (Real.sqrt_nonneg _), ?_⟩
  rw [hsum, Cert.Lib.rsqrt_coe_pos (by positivity)]

/-- THE NORMALISER IS A NON-NEGATIVE REAL: the degree of node `r` is the number of edges landing on it (a scatter of
    ones into zeros) plus one, and the normaliser is its inverse square root. -/
theorem deg_rsqrt_nonneg_real (dS1 : ScatterDims SNodes SEdges1 SEdges) (z : FVec Ideal SNodes .f32)
    (u : FVec Ideal SEdges .f32) (idx : IVec SEdges1 32) (one : FVec Ideal SNodes .f32)
    (hz : ∀ i, z i = 0) (hu : ∀ j, u j = ((1 : ℝ) : EReal)) (hone : ∀ i, one i = ((1 : ℝ) : EReal)) (r : Fin 100000) :
    ∃ x : ℝ, 0 ≤ x ∧ Host.rsqrt (addf (Host.scatterAdd (F := Ideal) dS1 z idx u) one) (ix1 r) = ((x : ℝ) : EReal) := by
  show ∃ x : ℝ, 0 ≤ x ∧ Ideal.rsqrt (Ideal.hostScatterAdd dS1 z idx u (ix1 r) + one (ix1 r)) = ((x : ℝ) : EReal)
  unfold Ideal.hostScatterAdd
  rw [hz, hone]
  exact rsqrt_count_add_one _ u hu

/-- The single-precision word `0x3F800000` (sign `0`, exponent `127`, significand `0`) is the real `1`. -/
theorem ofBits_one_f32 : Ideal.ofBits .f32 0x3F800000#32 = ((1 : ℝ) : EReal) := by
  simp [Ideal.ofBits, Ideal.ieee, -EReal.coe_mul]; norm_num

/-- A signed comparison `x < 0` of a word whose signed value is non-negative is false. -/
theorem cmpi_slt_zero_of_nonneg (x : BitVec 32) (h : 0 ≤ x.toInt) : IntOp.cmpi .slt x 0#32 = 0#1 := by
  have hs : x.slt 0#32 = false := by
    rw [BitVec.slt_eq_decide]
    simpa using h
  show BitVec.ofBool (x.slt 0#32) = 0#1
  rw [hs]; rfl

/-- SIGN NORMALISATION OF AN INDEX THAT IS ALREADY NON-NEGATIVE: `x < 0 ? x + 100000 : x` is `x`. -/
theorem normalize_nonneg (x : BitVec 32) (h : 0 ≤ x.toInt) :
    Scalar.select (IntOp.cmpi .slt x 0#32) (IntOp.addi x 100000#32) x = x := by
  rw [cmpi_slt_zero_of_nonneg x h]
  rfl

/-- The same on whole arrays, read at an index: whatever arrays the comparison and the sum are taken with, as long as at
    this index they hold `0` and `100000`. -/
theorem normalize_nonneg_apply {s : Shape} (v c0 cN : IVec s 32) (i : s.Idx) (h0 : c0 i = 0#32) (hN : cN i = 100000#32)
    (h : 0 ≤ (v i).toInt) : select (cmpi .slt v c0) (addi v cN) v i = v i := by
  show Scalar.select (IntOp.cmpi .slt (v i) (c0 i)) (IntOp.addi (v i) (cN i)) (v i) = v i
  rw [h0, hN]
  exact normalize_nonneg (v i) h

end Cert.Law

end
-- ==== Proof.LayerEq.lean ====
/-
  The kernel program's layers are the reference's layers.

  A layer of the kernel program finishes `dis[r] · (agg'[r, c] + hws[r, c]) + b[c]` with `hws = (h W) ⊙ dis` and
  `agg'` the edge sum of the gathered rows of `hws`; the reference computes
  `agg[r, c] + (h W)[r, c] · (dis[r] · dis[r]) + b[c]` with `agg` the edge sum of the gathered rows of `h W`, each
  multiplied by its edge's `dis[src] · dis[dst]`. The per-layer law (LayerLaw) makes the two equal once its hypotheses
  are read off the reference's stages: `dis` is the inverse square root of a count plus one, so a non-negative real;
  the column form of `dis` is `dis` read by row; the sign normalisation leaves a non-negative target alone; the zero
  array is zero; the scaled product is the product times `dis`; the per-edge scale is `dis[src] · dis[dst]` and the
  per-node scale `dis · dis`. The activations (rectifier; normalisation, rectifier and residual) are then the same
  functions of that value, entry by entry, and the whole network follows layer by layer.
-/
import proofs.«145619_j27719718928688_2_alg».proof.Proof.KStages
import proofs.«145619_j27719718928688_2_alg».proof.Proof.LayerLaw
import proofs.«145619_j27719718928688_2_alg».proof.Proof.LibKeepdims

noncomputable section

namespace Cert.LayerEq

open Idealize.ShloMosaic Idealize.ShloMosaic.ValueIdx
open Cert.Stages Cert.ReferenceIdeal.Layers Cert.ReferenceIdeal.ReadP

/-- A `[128]` parameter cast to a row `[1, 128]` reads, at `(u, c)` (the row coordinate `u` can only be `0`), the parameter at `c`. -/
theorem prow_apply (b : Par) (u : Fin 1) (c : Fin 128) : prow b (ix2 u c) = b (ix1 c) := by
  unfold prow
  refine shapeCast_apply b _ (ix2 u c) (ix1 c) ?_
  have hu : u.val = 0 := by omega
  rw [Shape.rowMajor_val_two, Shape.rowMajor_val_one]
  show c.val = u.val * 128 + c.val
  rw [hu, Nat.zero_mul, Nat.zero_add]

/-- The reference's bias array `[100000, 128]` (a parameter broadcast as a row, then down the rows) reads, at `(r, c)`,
    the parameter at `c`. -/
theorem v46_apply (b : Par) (i : Cert.Spec.SNodes128.Idx) : val_main_v46 (F := Ideal) b i = b (ix1 (Cert.Spec.colOf i)) := by
  rw [val_main_v46_apply, val_main_v45_apply]
  exact congrArg b (funext fun a => by match a with | ⟨0, _⟩ => rfl)

/-- `dis` is a non-negative real at every node: the inverse square root of one plus the number of edges into it. -/
theorem dis_nonneg_real (x1 : EdgeList) (r : Fin 100000) :
    ∃ x : ℝ, 0 ≤ x ∧ val_main_v10 (F := Ideal) x1 (ix1 r) = ((x : ℝ) : EReal) :=
  Cert.Law.deg_rsqrt_nonneg_real Cert.ReferenceIdeal.scatter_S100000_S800000x1_S800000_n_0_0_1
    (val_main_v5 (F := Ideal)) (val_main_v4 (F := Ideal)) (val_main_v6 (F := Ideal) x1) (val_main_v8 (F := Ideal))
    (fun i => (val_main_v5_apply i).trans ((val_main_cst_0_apply _).trans Ideal.ofBits_zero_f32))
    (fun j => (val_main_v4_apply j).trans ((val_main_cst_apply _).trans Cert.Law.ofBits_one_f32))
    (fun i => (val_main_v8_apply i).trans ((val_main_cst_1_apply _).trans Cert.Law.ofBits_one_f32)) r

/-- The sign-normalised target column is the raw target column wherever that is non-negative. -/
theorem dst_normalized (x1 : EdgeList) (e : Fin 800000)
    (h : 0 ≤ (val_main_v39 (F := Ideal) x1 (ix2 e (0 : Fin 1))).toInt) :
    val_main_v23 (F := Ideal) x1 (ix2 e (0 : Fin 1)) = val_main_v39 (F := Ideal) x1 (ix2 e (0 : Fin 1)) := by
  have e23 : idx_main_v23 (ix2 e (0 : Fin 1)) = ix1 e := funext fun a => by match a with | ⟨0, _⟩ => rfl
  have e39 : idx_main_v39 (ix2 e (0 : Fin 1)) = ix1 e := funext fun a => by match a with | ⟨0, _⟩ => rfl
  rw [val_main_v39_apply, e39] at h ⊢
  rw [val_main_v23_apply, e23]
  exact Cert.Law.normalize_nonneg_apply (val_main_v3 (F := Ideal) x1) (val_main_v18 (F := Ideal))
    (val_main_v20 (F := Ideal)) (ix1 e) ((val_main_v18_apply _).trans (val_main_c_3_apply _))
    ((val_main_v20_apply _).trans (val_main_c_4_apply _)) h

/-- The scaled product is the reference's product times `dis`. -/
theorem hws_apply (x1 : EdgeList) (h : Feat) (W : Wts) (i : Cert.Spec.SNodes128.Idx) :
    hws x1 h W i = hw (F := Ideal) h W i * dcol x1 (ix2 (Cert.Spec.nodeOf i) (0 : Fin 1)) := by
  have el : ∀ k : Fin 128, lidx_main_v27 i k = ix2 (Cert.Spec.nodeOf i) k := fun k =>
    funext fun a => by match a with | ⟨0, _⟩ => rfl | ⟨1, _⟩ => rfl
  have er : ∀ k : Fin 128, ridx_main_v27 i k = ix2 k (Cert.Spec.colOf i) := fun k =>
    funext fun a => by match a with | ⟨0, _⟩ => rfl | ⟨1, _⟩ => rfl
  have hv : hw (F := Ideal) h W i
      = ∑ k : Fin 128, h (ix2 (Cert.Spec.nodeOf i) k) * W (ix2 k (Cert.Spec.colOf i)) :=
    (val_main_v27_apply h W i).trans (Finset.sum_congr rfl fun k _ => by rw [el k, er k])
  rw [hv]
  rfl

/-- The per-edge scale, spread over the columns, is `dis[src] · dis[dst]`. -/
theorem v36_apply (x1 : EdgeList) (e : Fin 800000) (c : Fin 128) :
    val_main_v36 (F := Ideal) x1 (ix2 e c)
      = Host.gather Cert.ReferenceIdeal.gather_S100000_S800000x1_S800000_n_0_n_n_0_1_1 (val_main_v10 (F := Ideal) x1)
          (val_main_v33 (F := Ideal) x1) (ix1 e)
        * Host.gather Cert.ReferenceIdeal.gather_S100000_S800000x1_S800000_n_0_n_n_0_1_1 (val_main_v10 (F := Ideal) x1)
          (val_main_v23 (F := Ideal) x1) (ix1 e) := by
  have ei : idx_main_v35 (idx_main_v36 (ix2 e c)) = ix1 e := funext fun a => by match a with | ⟨0, _⟩ => rfl
  have h1633 : val_main_v16 (F := Ideal) x1 = val_main_v33 (F := Ideal) x1 := rfl
  rw [val_main_v36_apply, val_main_v35_apply, ei, val_main_v25_apply, Ideal.mulf_def]
  unfold val_main_v17 val_main_v24
  rw [h1633]

/-- The per-node scale, spread over the columns, is `dis · dis`. -/
theorem v42_apply (x1 : EdgeList) (i : Cert.Spec.SNodes128.Idx) :
    val_main_v42 (F := Ideal) x1 i
      = val_main_v10 (F := Ideal) x1 (ix1 (Cert.Spec.nodeOf i)) * val_main_v10 (F := Ideal) x1 (ix1 (Cert.Spec.nodeOf i)) := by
  have ei : idx_main_v41 (idx_main_v42 i) = ix1 (Cert.Spec.nodeOf i) := funext fun a => by match a with | ⟨0, _⟩ => rfl
  rw [val_main_v42_apply, val_main_v41_apply, ei, val_main_v26_apply, Ideal.mulf_def]

/-- A LAYER BEFORE ITS ACTIVATION: the kernel program's `dis · (agg' + hws) + b` is the reference's `conv`. -/
theorem conv_eq (x1 : EdgeList) (h : Feat) (W : Wts) (b : Par) :
    Cert.Spec.combine (hws x1 h W) (agg x1 (hws x1 h W)) (dcol x1) (prow b) = conv (F := Ideal) x1 h W b := by
  funext i
  have key := Cert.Law.layer_pre_eq
    Cert.ReferenceIdeal.gather_S100000x128_S800000x1_S800000x128_1_0_n_n_0_1_1128 rfl rfl rfl rfl rfl rfl rfl
    Cert.ReferenceIdeal.scatter_S100000x128_S800000x1_S800000x128_1_0_0_1 rfl rfl rfl rfl
    Cert.ReferenceIdeal.gather_S100000_S800000x1_S800000_n_0_n_n_0_1_1 rfl rfl rfl rfl rfl rfl rfl
    (val_main_v10 (F := Ideal) x1) (dis_nonneg_real x1)
    (dcol x1) (fun r => Cert.Lib.shapeCast_a_a1_apply _ _ r 0)
    (val_main_v33 (F := Ideal) x1) (val_main_v23 (F := Ideal) x1) (val_main_v39 (F := Ideal) x1) (dst_normalized x1)
    (val_main_v38 (F := Ideal)) (fun i => (val_main_v38_apply i).trans ((val_main_cst_7_apply _).trans Ideal.ofBits_zero_f32))
    (hw (F := Ideal) h W) (hws x1 h W) (hws_apply x1 h W)
    (val_main_v36 (F := Ideal) x1) (v36_apply x1)
    (val_main_v42 (F := Ideal) x1) (v42_apply x1) i
  unfold Cert.Spec.combine conv agg
  rw [addf_apply, addf_apply, prow_apply, v46_apply, key]

/-- THE FIRST LAYER: the rectifier of the same value. -/
theorem layerRelu_eq (x1 : EdgeList) (h : Feat) (W : Wts) (b : Par) :
    layerRelu x1 h W b = relu (conv (F := Ideal) x1 h W b) := by
  funext i
  unfold layerRelu Cert.Spec.combRelu relu
  rw [conv_eq, maximumf_apply, val_main_call0_v0_apply, val_main_call0_cst_apply, Ideal.ofBits_def]

/-- A per-column parameter, spread over the rows (the running mean's array), reads the parameter at the column. -/
theorem v71_apply (m : Par) (i : Cert.Spec.SNodes128.Idx) :
    val_main_v71 (F := Ideal) m i = m (ix1 (Cert.Spec.colOf i)) := by
  rw [val_main_v71_apply, val_main_v70_apply]
  exact congrArg m (funext fun a => by match a with | ⟨0, _⟩ => rfl)

/-- The same for the shift's array. -/
theorem v81_apply (m : Par) (i : Cert.Spec.SNodes128.Idx) :
    val_main_v81 (F := Ideal) m i = m (ix1 (Cert.Spec.colOf i)) := by
  rw [val_main_v81_apply, val_main_v80_apply]
  exact congrArg m (funext fun a => by match a with | ⟨0, _⟩ => rfl)

/-- The per-column scale `γ · rsqrt (var + 1e-5)`, spread over the rows, reads that scale at the column. -/
theorem v78_apply (g var : Par) (i : Cert.Spec.SNodes128.Idx) :
    val_main_v78 (F := Ideal) g var i
      = g (ix1 (Cert.Spec.colOf i))
        * Ideal.rsqrt (var (ix1 (Cert.Spec.colOf i)) + Ideal.ofBits .f32 0x3727C5AC#32) := by
  have ei : idx_main_v77 (idx_main_v78 i) = ix1 (Cert.Spec.colOf i) := funext fun a => by match a with | ⟨0, _⟩ => rfl
  rw [val_main_v78_apply, val_main_v77_apply, ei, val_main_v76_apply, Ideal.mulf_def, val_main_v75_apply,
    Ideal.hostUnary_rsqrt_def, val_main_v74_apply, Ideal.addf_def, val_main_v73_apply, val_main_cst_11_apply,
    Ideal.ofBits_def]

/-- A MIDDLE LAYER: normalisation, rectifier and residual of the same value. -/
theorem layerBn_eq (x1 : EdgeList) (h : Feat) (W : Wts) (b g beta mean var : Par) :
    layerBn x1 h W b g beta mean var = bnAct (conv (F := Ideal) x1 h W b) g beta mean var h := by
  funext i
  unfold layerBn Cert.Spec.combBn bnAct
  rw [conv_eq, addf_apply, maximumf_apply, addf_apply, mulf_apply, subf_apply, v71_apply, v78_apply, v81_apply,
    val_main_call1_v0_apply, val_main_call1_cst_apply, Ideal.ofBits_def, prow_apply, prow_apply, prow_apply,
    prow_apply]

/-- THE WHOLE NETWORK: the kernel program's result is the reference's. -/
theorem out_eq_ref (x0 : Feat) (x1 : EdgeList) (x2 : Wts) (x3 : Par) (x4 : Wts) (x5 : Par) (x6 : Wts) (x7 : Par)
    (x8 : (⟨Cert.ReferenceIdeal.S128x2, .f32⟩ : BufTy).Contents (Elt Ideal))
    (x9 : (⟨Cert.ReferenceIdeal.S2, .f32⟩ : BufTy).Contents (Elt Ideal))
    (x10 x11 x12 x13 x14 x15 x16 x17 : Par) :
    Cert.Stages.out x0 x1 x2 x3 x4 x5 x6 x7 x8 x9 x10 x11 x12 x13 x14 x15 x16 x17
      = val_main_v142 (F := Ideal) x0 x1 x2 x3 x4 x5 x6 x7 x8 x9 x10 x11 x12 x13 x14 x15 x16 x17 := by
  have e1 : h1 x0 x1 x2 x3 = val_main_v48 (F := Ideal) x0 x1 x2 x3 := by
    unfold h1
    rw [layerRelu_eq, layer0_eq]
  have e2 : h2 x0 x1 x2 x3 x4 x5 x10 x11 x12 x13 = val_main_v84 (F := Ideal) x0 x1 x2 x3 x4 x5 x10 x11 x12 x13 := by
    unfold h2
    rw [layerBn_eq, e1, layer1_eq]
  have e3 : h3 x0 x1 x2 x3 x4 x5 x6 x7 x10 x11 x12 x13 x14 x15 x16 x17
      = val_main_v120 (F := Ideal) x0 x1 x2 x3 x4 x5 x6 x7 x10 x11 x12 x13 x14 x15 x16 x17 := by
    unfold h3
    rw [layerBn_eq, e2, layer2_eq]
  unfold Cert.Stages.out
  rw [e3, out_eq]

end Cert.LayerEq

end
-- ==== Proof.lean ====
/-
  A three-layer graph convolution network on 100000 nodes and 800000 edges, as six kernel launches among host
  operations, against its plain reference.

  Both programs compute `dis = rsqrt (1 + in-degree)` and, per layer, `A_norm (h W) + (h W) ⊙ dis² + b`, where
  `A_norm` sums over the edges into a node the source's row scaled by `dis[src] · dis[dst]`. The reference scales every
  edge; the kernel program scales the rows of `h W` by `dis` once (inside the launch that forms the product), sums
  the gathered rows unscaled, and multiplies the node's sum and its own scaled row by `dis` again in the launch that
  finishes the layer. The two agree on the extended reals because `dis` is a non-negative REAL (a degree is a count):
  multiplication by such a number distributes over sums even at the infinities, which the batch normalisation's
  `rsqrt (var + 1e-5)` can produce at a non-positive variance. The first layer ends in a rectifier, the two middle ones
  in batch normalisation with the running statistics, a rectifier and a residual; the last layer and the logarithm of
  the softmax are the same host operations in both programs.

  The frames of the two kernel programs are generated. The reference's frame is its run with the result dropped.
  The idealization rewrote nothing. The algebraic claim: the kernel program's result buffer at the return is
  `Stages.out` of the arguments (the fold of its buffers, with each launch's closed form), the reference's is its last
  stage `val_main_v142`, and the two are one function of the arguments (`LayerEq.out_eq_ref`).
-/
import proofs.«145619_j27719718928688_2_alg».proof.Defs
import proofs.«145619_j27719718928688_2_alg».proof.Proof.Gen.Kernel
import proofs.«145619_j27719718928688_2_alg».proof.Proof.Gen.Kernel.Skeleton
import proofs.«145619_j27719718928688_2_alg».proof.Proof.Gen.Kernel.Launch
import proofs.«145619_j27719718928688_2_alg».proof.Proof.Gen.Kernel.Points
import proofs.«145619_j27719718928688_2_alg».proof.Proof.Gen.Kernel.Frame
import proofs.«145619_j27719718928688_2_alg».proof.Proof.Gen.KernelIdeal
import proofs.«145619_j27719718928688_2_alg».proof.Proof.Gen.KernelIdeal.Skeleton
import proofs.«145619_j27719718928688_2_alg».proof.Proof.Gen.KernelIdeal.Launch
import proofs.«145619_j27719718928688_2_alg».proof.Proof.Gen.KernelIdeal.Points
import proofs.«145619_j27719718928688_2_alg».proof.Proof.Gen.KernelIdeal.Frame
import proofs.«145619_j27719718928688_2_alg».proof.Proof.Gen.ReferenceIdeal
import proofs.«145619_j27719718928688_2_alg».proof.Proof.Gen.Pre_finite_inputs
import proofs.«145619_j27719718928688_2_alg».proof.Proof.KernelRun
import proofs.«145619_j27719718928688_2_alg».proof.Proof.KFoldD
import proofs.«145619_j27719718928688_2_alg».proof.Proof.RefRunOut
import proofs.«145619_j27719718928688_2_alg».proof.Proof.LayerEq
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments: its generated frame. -/
theorem frame_kernel : Cert.frame_Kernel := fun m ρ _ => Cert.Kernel.Gen.frame m ρ

/-- The idealized kernel program runs and keeps its arguments: its generated frame. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

open Cert.KernelIdeal Cert.KernelIdeal.Gen in
/-- The idealized kernel program's run with its result named: at the return the result buffer holds `Stages.out` of the
    arguments' launch contents, and the arguments are as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v96)
          = Cert.Stages.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)) :=
  (θ_run Cert.KernelIdeal.defs _ _).mono (fun r h c =>
    ⟨(h c _ (mem_uc main_v96 (by decide))).trans
        (Cert.KernelIdeal.Fold.result_W12 m ρ c),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c),
     (h c _ (mem_uc main_arg13 (by decide))).trans (W12_main_arg13 m ρ c),
     (h c _ (mem_uc main_arg14 (by decide))).trans (W12_main_arg14 m ρ c),
     (h c _ (mem_uc main_arg15 (by decide))).trans (W12_main_arg15 m ρ c),
     (h c _ (mem_uc main_arg16 (by decide))).trans (W12_main_arg16 m ρ c),
     (h c _ (mem_uc main_arg17 (by decide))).trans (W12_main_arg17 m ρ c)⟩)
    (Cert.KernelIdeal.Whole.run_all (F := Ideal) m ρ)

/-- From memories agreeing on the arguments the two idealized programs end with equal results. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
  exact (Cert.LayerEq.out_eq_ref _ _ _ _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
